-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x32 .f32) (main_arg12 : FVec F S32 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x32 .f32) (main_arg12 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x32 .f32) (main_arg12 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩
abbrev S600000x128 : Shape := ⟨2, ![600000, 128]⟩
abbrev S50000x1 : Shape := ⟨2, ![50000, 1]⟩
abbrev S5000x1 : Shape := ⟨2, ![5000, 1]⟩
abbrev S256x128 : Shape := ⟨2, ![256, 128]⟩
abbrev S256 : Shape := ⟨1, ![256]⟩
abbrev S256x1 : Shape := ⟨2, ![256, 1]⟩
abbrev S1x32 : Shape := ⟨2, ![1, 32]⟩
abbrev S256x32 : Shape := ⟨2, ![256, 32]⟩

abbrev nBuf : Space → Nat
  | .hbm => 116
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S600000, .f32⟩
  | .hbm, ⟨49, _⟩ => ⟨S1x128, .f32⟩
  | .hbm, ⟨50, _⟩ => ⟨S50000x128, .f32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S600000x1, .f32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S50000x1, .f32⟩
  | .hbm, ⟨72, _⟩ => ⟨S1x128, .f32⟩
  | .hbm, ⟨73, _⟩ => ⟨S50000x128, .f32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S600000x1, .f32⟩
  | .hbm, ⟨88, _⟩ => ⟨S600000x128, .f32⟩
  | .hbm, ⟨89, _⟩ => ⟨S600000x128, .f32⟩
  | .hbm, ⟨90, _⟩ => ⟨S_, .f32⟩
  | .hbm, ⟨91, _⟩ => ⟨S50000x128, .f32⟩
  | .hbm, ⟨92, _⟩ => ⟨S600000x1, .i32⟩
  | .hbm, ⟨93, _⟩ => ⟨S50000x128, .f32⟩
  | .hbm, ⟨94, _⟩ => ⟨S50000x1, .f32⟩
  | .hbm, ⟨95, _⟩ => ⟨S1x128, .f32⟩
  | .hbm, ⟨96, _⟩ => ⟨S50000x128, .f32⟩
  | .hbm, ⟨97, _⟩ => ⟨S_, .f32⟩
  | .hbm, ⟨98, _⟩ => ⟨S256x128, .f32⟩
  | .hbm, ⟨99, _⟩ => ⟨S50000x1, .i32⟩
  | .hbm, ⟨100, _⟩ => ⟨S256x128, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S256, .f32⟩
  | .hbm, ⟨105, _⟩ => ⟨S50000x1, .i32⟩
  | .hbm, ⟨106, _⟩ => ⟨S256, .f32⟩
  | .hbm, ⟨107, _⟩ => ⟨S_, .f32⟩
  | .hbm, ⟨108, _⟩ => ⟨S256, .f32⟩
  | .hbm, ⟨109, _⟩ => ⟨S256, .f32⟩
  | .hbm, ⟨110, _⟩ => ⟨S256x1, .f32⟩
  | .hbm, ⟨111, _⟩ => ⟨S256x128, .f32⟩
  | .hbm, ⟨112, _⟩ => ⟨S256x128, .f32⟩
  | .hbm, ⟨113, _⟩ => ⟨S1x128, .f32⟩
  | .hbm, ⟨114, _⟩ => ⟨S1x32, .f32⟩
  | .hbm, ⟨115, _⟩ => ⟨S256x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S256x128, .f32⟩
  | .local _ .vmem, ⟨37, _⟩ => ⟨S128x128, .f32⟩
  | .local _ .vmem, ⟨38, _⟩ => ⟨S1x128, .f32⟩
  | .local _ .vmem, ⟨39, _⟩ => ⟨S128x32, .f32⟩
  | .local _ .vmem, ⟨40, _⟩ => ⟨S1x32, .f32⟩
  | .local _ .vmem, ⟨41, _⟩ => ⟨S256x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  shapeCasts_S5000x128_S5000x128 : S5000x128.ShapeCasts S5000x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S32_S1x32 : S32.ShapeCasts S1x32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  shapeCasts_S256_S256x1 : S256.ShapeCasts S256x1
  broadcasts_S256x1_S256x128 : S256x1.Broadcasts S256x128
  broadcasts_S1x128_S256x128 : S1x128.Broadcasts S256x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x32_S256x32_1_0_0_1_n_n_wf : DotDims.WF S256x128 S128x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x32.size a ≤ S128x32.size a
  hwx5_3 : ∀ i : grid5.Coords, EltTy.bits .f32 = 32 ∨ (Rect.block (s := S128x32) S128x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x32.size a ≤ S256x32.size a
  hwx5_5 : ∀ i : grid5.Coords, EltTy.bits .f32 = 32 ∨ (Rect.block (s := S256x32) S256x32.size (cc5_transform_5 i) (hinb5_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v79) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S128x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v82) S256x32.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S600000x128 : Shape := ⟨2, ![600000, 128]⟩
abbrev S50000x1 : Shape := ⟨2, ![50000, 1]⟩
abbrev S256x128 : Shape := ⟨2, ![256, 128]⟩
abbrev S256 : Shape := ⟨1, ![256]⟩
abbrev S256x1 : Shape := ⟨2, ![256, 1]⟩
abbrev S256x32 : Shape := ⟨2, ![256, 32]⟩
abbrev S1x32 : Shape := ⟨2, ![1, 32]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x32, .f32⟩
  | 12 => ⟨S32, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x128, .f32⟩
  | 31 => ⟨S1x128, .f32⟩
  | 32 => ⟨S50000x128, .f32⟩
  | 33 => ⟨S50000x128, .f32⟩
  | 34 => ⟨S50000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x1, .f32⟩
  | 64 => ⟨S600000x128, .f32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S_, .f32⟩
  | 79 => ⟨S50000x128, .f32⟩
  | 80 => ⟨S50000x128, .i1⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000, .f32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000, .f32⟩
  | 104 => ⟨S600000, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S600000x1, .f32⟩
  | 115 => ⟨S600000x128, .f32⟩
  | 116 => ⟨S600000x128, .f32⟩
  | 117 => ⟨S_, .f32⟩
  | 118 => ⟨S50000x128, .f32⟩
  | 119 => ⟨S600000x1, .i32⟩
  | 120 => ⟨S50000x128, .f32⟩
  | 121 => ⟨S50000x1, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S_, .f32⟩
  | 2 => ⟨S50000x128, .f32⟩
  | 3 => ⟨S50000x128, .i1⟩
  | 4 => ⟨S_, .f32⟩
  | 5 => ⟨S50000x128, .f32⟩
  | 6 => ⟨S50000x128, .f32⟩
  | 7 => ⟨S50000x128, .f32⟩
  | 8 => ⟨S_, .f32⟩
  | 9 => ⟨S256x128, .f32⟩
  | 10 => ⟨S50000x1, .i32⟩
  | 11 => ⟨S256x128, .f32⟩
  | 12 => ⟨S_, .f32⟩
  | 13 => ⟨S50000, .f32⟩
  | 14 => ⟨S_, .f32⟩
  | 15 => ⟨S256, .f32⟩
  | 16 => ⟨S50000x1, .i32⟩
  | 17 => ⟨S256, .f32⟩
  | 18 => ⟨S_, .f32⟩
  | 19 => ⟨S256, .f32⟩
  | 20 => ⟨S256, .f32⟩
  | 21 => ⟨S256x1, .f32⟩
  | 22 => ⟨S256x128, .f32⟩
  | 23 => ⟨S256x128, .f32⟩
  | 24 => ⟨S256x128, .f32⟩
  | 25 => ⟨S_, .f32⟩
  | 26 => ⟨S256, .f32⟩
  | 27 => ⟨S256x1, .f32⟩
  | 28 => ⟨S256x1, .f32⟩
  | 29 => ⟨S_, .f32⟩
  | 30 => ⟨S256x1, .f32⟩
  | 31 => ⟨S256x1, .f32⟩
  | 32 => ⟨S256x128, .f32⟩
  | 33 => ⟨S256x128, .f32⟩
  | 34 => ⟨S256x128, .f32⟩
  | 35 => ⟨S1x128, .f32⟩
  | 36 => ⟨S256x128, .f32⟩
  | 37 => ⟨S256x128, .f32⟩
  | 38 => ⟨S_, .f32⟩
  | 39 => ⟨S_, .f32⟩
  | 40 => ⟨S256x128, .f32⟩
  | 41 => ⟨S256x128, .i1⟩
  | 42 => ⟨S_, .f32⟩
  | 43 => ⟨S256x128, .f32⟩
  | 44 => ⟨S256x128, .f32⟩
  | 45 => ⟨S256x128, .f32⟩
  | 46 => ⟨S256x32, .f32⟩
  | 47 => ⟨S1x32, .f32⟩
  | 48 => ⟨S256x32, .f32⟩
  | 49 => ⟨S256x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_12 : Ref sig .tc := ⟨.hbm, 95, rfl⟩
abbrev main_v62 : Ref sig .tc := ⟨.hbm, 96, rfl⟩
abbrev main_v63 : Ref sig .tc := ⟨.hbm, 97, rfl⟩
abbrev main_c_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_c_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_16 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_17 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_v90 : Ref sig .tc := ⟨.hbm, 135, rfl⟩
abbrev main_cst_18 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_19 : Ref sig .tc := ⟨.hbm, 140, rfl⟩
abbrev main_v94 : Ref sig .tc := ⟨.hbm, 141, rfl⟩
abbrev main_cst_20 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_22 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_23 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_call2_cst : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reducesTo_S256x128_S256_d1 : S256x128.ReducesTo [1] S256
  h_S_ : 0 < S_.numel
  bcast_S_S256x1 : S_.BroadcastsInDim S256x1 (![] : Fin 0 → Fin S256x1.rank)
  bcast_S1x128_S256x128_0_1 : S1x128.BroadcastsInDim S256x128 (![0, 1] : Fin 2 → Fin S256x128.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x32_S256x32_1_0_0_1_n_n_wf : DotDims.WF S256x128 S128x32 S256x32 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

class Facts : Prop extends Facts₀ where

variable [Facts]
-- ==== Proof.KernelRun.lean ====
/-
  The idealized kernel program's run with its result named: every weakly fair execution of @main terminates, the
  argument arrays end as launched, and the result array ends at the contents the last region's write-backs leave
  (the fold of the six regions and the host operations between them from the launch memory, `Gen.W12`).
-/
import proofs.«163835_j58025008168970_1_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the twelve segments, its last thread state read at the result buffer as well as at the arguments. -/
theorem run_main : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.HandRun

end
-- ==== Proof.Carry.lean ====
/-
  Which buffers each stretch of host operations writes, so that a buffer it does not write is read through it unchanged;
  with the same fact for the regions (a region changes only its windows' arrays), a value computed early is carried
  to the stage that reads it.
-/
import proofs.«163835_j58025008168970_1_alg».proof.Proof.Gen.KernelIdeal.Frame

set_option maxRecDepth 16384

noncomputable section

open Idealize.ShloMosaic Idealize.ShloMosaic.TcCoe Idealize.SL.Sem

namespace Cert.KernelIdeal.Carry

open Cert.KernelIdeal Cert.KernelIdeal.Gen

variable {F : FTy → Type} [FloatOps F]

/-- The buffers the host operations of stretch 0 write. -/
def wr0 : List (Ref sig .tc) := [main_v0, main_v1, main_v2, main_v3, main_cst, main_v4, main_cst_0, main_v5, main_v6, main_v7, main_cst_1, main_v8, main_v9, main_v10, main_cst_2, main_v11, main_v12, main_c, main_v13, main_v14, main_c_3, main_v15, main_v16, main_v17, main_v18, main_v19, main_c_4, main_v20, main_v21, main_c_5, main_v22, main_v23, main_v24, main_v25, main_v26, main_v27, main_v28]

theorem hW0 : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 0 does not write keeps its contents. -/
theorem keep0 (W : Valuation τ sig (Elt F)) (r : Ref sig .tc) (hr : r ∉ wr0) :
    StableHlo.after hostOps0 W (no_index (Proc.devRef .tc r)) = W (Proc.devRef .tc r) :=
  StableHlo.after_of_writes_sub hostOps0 W hW0 hr

/-- The buffers the host operations of stretch 1 write. -/
def wr1 : List (Ref sig .tc) := [main_cst_6, main_v30, main_v31]

theorem hW1 : (hostOps1 : List (HloOp τ sig (Elt F))).Forall fun op => op.writes ⊆ ((wr1).map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 1 does not write keeps its contents. -/
theorem keep1 (W : Valuation τ sig (Elt F)) (r : Ref sig .tc) (hr : r ∉ wr1) :
    StableHlo.after hostOps1 W (no_index (Proc.devRef .tc r)) = W (Proc.devRef .tc r) :=
  StableHlo.after_of_writes_sub hostOps1 W hW1 hr

/-- The buffers the host operations of stretch 2 write. -/
def wr2 : List (Ref sig .tc) := [main_c_7, main_v33, main_v34, main_c_8, main_v35, main_v36, main_v37, main_v38, main_v39, main_v40, main_v41, main_v42, main_cst_9, main_v43, main_v44, main_v45, main_v46, main_v47]

theorem hW2 : (hostOps2 : List (HloOp τ sig (Elt F))).Forall fun op => op.writes ⊆ ((wr2).map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 2 does not write keeps its contents. -/
theorem keep2 (W : Valuation τ sig (Elt F)) (r : Ref sig .tc) (hr : r ∉ wr2) :
    StableHlo.after hostOps2 W (no_index (Proc.devRef .tc r)) = W (Proc.devRef .tc r) :=
  StableHlo.after_of_writes_sub hostOps2 W hW2 hr

/-- The buffers the host operations of stretch 3 write. -/
def wr3 : List (Ref sig .tc) := [main_cst_10, main_v49, main_v50]

theorem hW3 : (hostOps3 : List (HloOp τ sig (Elt F))).Forall fun op => op.writes ⊆ ((wr3).map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 3 does not write keeps its contents. -/
theorem keep3 (W : Valuation τ sig (Elt F)) (r : Ref sig .tc) (hr : r ∉ wr3) :
    StableHlo.after hostOps3 W (no_index (Proc.devRef .tc r)) = W (Proc.devRef .tc r) :=
  StableHlo.after_of_writes_sub hostOps3 W hW3 hr

/-- The buffers the host operations of stretch 4 write. -/
def wr4 : List (Ref sig .tc) := [main_c_11, main_v52, main_v53, main_c_12, main_v54, main_v55, main_v56, main_v57, main_v58, main_v59, main_v60, main_v61, main_cst_13, main_v62, main_v63, main_v64, main_v65, main_v66]

theorem hW4 : (hostOps4 : List (HloOp τ sig (Elt F))).Forall fun op => op.writes ⊆ ((wr4).map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 4 does not write keeps its contents. -/
theorem keep4 (W : Valuation τ sig (Elt F)) (r : Ref sig .tc) (hr : r ∉ wr4) :
    StableHlo.after hostOps4 W (no_index (Proc.devRef .tc r)) = W (Proc.devRef .tc r) :=
  StableHlo.after_of_writes_sub hostOps4 W hW4 hr

/-- The buffers the host operations of stretch 5 write. -/
def wr5 : List (Ref sig .tc) := [main_cst_14, main_v68, main_v69, main_v70, main_cst_15, main_v71, main_cst_16, main_v72, main_v73, main_v74, main_cst_17, main_v75, main_v76, main_v77, main_v78, main_v79, main_v80, main_v81]

theorem hW5 : (hostOps5 : List (HloOp τ sig (Elt F))).Forall fun op => op.writes ⊆ ((wr5).map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 5 does not write keeps its contents. -/
theorem keep5 (W : Valuation τ sig (Elt F)) (r : Ref sig .tc) (hr : r ∉ wr5) :
    StableHlo.after hostOps5 W (no_index (Proc.devRef .tc r)) = W (Proc.devRef .tc r) :=
  StableHlo.after_of_writes_sub hostOps5 W hW5 hr

variable (m : (ℓ : Loc nD τ sig) → Buf (Elt F) ℓ) (ρ : Dev nD → PrngReg)

/-- Region 0 changes only its windows' arrays. -/
theorem skip0 (c : Dev nD) (b : Ref sig .tc) (hb : ∀ w, Pipeline.arrRef spec0 w ≠ b) :
    W2 m ρ c (no_index (Proc.devRef .tc b)) = W1 m ρ c (Proc.devRef .tc b) := W2_of_ne m ρ c b hb
/-- Region 1 changes only its windows' arrays. -/
theorem skip1 (c : Dev nD) (b : Ref sig .tc) (hb : ∀ w, Pipeline.arrRef spec1 w ≠ b) :
    W4 m ρ c (no_index (Proc.devRef .tc b)) = W3 m ρ c (Proc.devRef .tc b) := W4_of_ne m ρ c b hb
/-- Region 2 changes only its windows' arrays. -/
theorem skip2 (c : Dev nD) (b : Ref sig .tc) (hb : ∀ w, Pipeline.arrRef spec2 w ≠ b) :
    W6 m ρ c (no_index (Proc.devRef .tc b)) = W5 m ρ c (Proc.devRef .tc b) := W6_of_ne m ρ c b hb
/-- Region 3 changes only its windows' arrays. -/
theorem skip3 (c : Dev nD) (b : Ref sig .tc) (hb : ∀ w, Pipeline.arrRef spec3 w ≠ b) :
    W8 m ρ c (no_index (Proc.devRef .tc b)) = W7 m ρ c (Proc.devRef .tc b) := W8_of_ne m ρ c b hb
/-- Region 4 changes only its windows' arrays. -/
theorem skip4 (c : Dev nD) (b : Ref sig .tc) (hb : ∀ w, Pipeline.arrRef spec4 w ≠ b) :
    W10 m ρ c (no_index (Proc.devRef .tc b)) = W9 m ρ c (Proc.devRef .tc b) := W10_of_ne m ρ c b hb
/-- Region 5 changes only its windows' arrays. -/
theorem skip5 (c : Dev nD) (b : Ref sig .tc) (hb : ∀ w, Pipeline.arrRef spec5 w ≠ b) :
    W12 m ρ c (no_index (Proc.devRef .tc b)) = W11 m ρ c (Proc.devRef .tc b) := W12_of_ne m ρ c b hb

end Cert.KernelIdeal.Carry

end
-- ==== Proof.Network.lean ====
/-
  The network both programs compute, stage by stage, as whole-array functions over the extended reals.

  A graph with 50000 nodes and 600000 directed edges (a list of source and target node numbers), node
  features of width 128. With `deg n = 1 + #{edges into n}`, one graph-convolution layer sends the node
  features `h` to `leaky (A + ht · (1/deg) + b)` where `ht = h · W`, and
  `A n = ∑ over edges e into n of ht[src e] · (deg^(-1/2)[src e] · deg^(-1/2)[dst e])`: the normalized
  adjacency with self-loops applied to `ht`. Two such layers follow a dense layer; the node features are then
  averaged per graph (256 graphs, `batch n` the graph of node `n`), each graph's row is scaled to unit
  Euclidean length (the length floored at a small constant), and two dense layers with a leaky rectifier between
  them give the [256, 32] result. Every stage is spelt with the host operations of the reference program, so
  that the reference's run reads as these functions by unfolding alone.
-/
import proofs.«163835_j58025008168970_1_alg».proof.ReferenceIdeal
import Idealize.ShloMosaic.PureOps.Ideal

noncomputable section

namespace Cert.Gnn

open Idealize.ShloMosaic Cert.ReferenceIdeal
open Cert.ReferenceIdeal.Facts₀

variable [Cert.ReferenceIdeal.Facts]

/-- A float array of shape `s` at the ideal instance: an extended real per index. -/
abbrev FArr (s : Shape) : Type := FVec Ideal s .f32
/-- An array of 32-bit integers of shape `s`. -/
abbrev IArr (s : Shape) : Type := IVec s 32

/-- The source node numbers: row 0 of the edge list. -/
def srcOf (e : IArr S2x600000) : IArr S600000 :=
  fun i => shapeCast S600000 (extractStridedSlice S1x600000 ![0, 0] e slices_S2x600000_S1x600000_0_0) shapeCasts_S1x600000_S600000 i

/-- The target node numbers: row 1 of the edge list. -/
def dstOf (e : IArr S2x600000) : IArr S600000 :=
  fun i => shapeCast S600000 (extractStridedSlice S1x600000 ![1, 0] e slices_S2x600000_S1x600000_1_0) shapeCasts_S1x600000_S600000 i

/-- `deg n = 1 + ` the number of edges whose target is `n`. -/
def degOf (dst : IArr S600000) : FArr S50000 :=
  addf (Host.scatterAdd (F := Ideal) scatter_S50000_S600000x1_S600000_n_0_0_1
          (broadcastInDim S50000 ![] bcast_S_S50000 (constant (F := Ideal) S_ .f32 0x00000000#32))
          (broadcastInDim S600000x1 ![0] bcast_S600000_S600000x1_0 dst)
          (broadcastInDim S600000 ![] bcast_S_S600000 (constant (F := Ideal) S_ .f32 0x3F800000#32)))
    (broadcastInDim S50000 ![] bcast_S_S50000 (constant (F := Ideal) S_ .f32 0x3F800000#32))

/-- `deg^(-1/2)`. -/
def invSqrtOf (deg : FArr S50000) : FArr S50000 := Host.rsqrt (F := Ideal) deg

/-- `1 / deg`. -/
def invDegOf (deg : FArr S50000) : FArr S50000 :=
  Host.divf (F := Ideal) (broadcastInDim S50000 ![] bcast_S_S50000 (constant (F := Ideal) S_ .f32 0x3F800000#32)) deg

/-- Node numbers as a column of gather positions, a negative number counted from the end. -/
def wrapIdx (idx : IArr S600000) : IArr S600000x1 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- The edge weights `deg^(-1/2)[src e] · deg^(-1/2)[dst e]`. -/
def coefOf (isd : FArr S50000) (src dst : IArr S600000) : FArr S600000 :=
  mulf (Host.gather gather_S50000_S600000x1_S600000_n_0_n_n_0_1_1 isd (wrapIdx src))
    (Host.gather gather_S50000_S600000x1_S600000_n_0_n_n_0_1_1 isd (wrapIdx dst))

/-- A bias vector repeated down 50000 rows. -/
def biasRows (b : FArr S128) : FArr S50000x128 :=
  broadcastInDim S50000x128 ![0, 1] bcast_S1x128_S50000x128_0_1 (broadcastInDim S1x128 ![1] bcast_S128_S1x128_1 b)

/-- The node features times a weight matrix. -/
def project (h : FArr S50000x128) (w : FArr S128x128) : FArr S50000x128 :=
  Host.dotGeneral (F := Ideal) dot_S50000x128_S128x128_S50000x128_1_0_0_1_n_n none h w

/-- A dense layer on the node features: `h · w + b`. -/
def linear (h : FArr S50000x128) (w : FArr S128x128) (b : FArr S128) : FArr S50000x128 :=
  addf (project h w) (biasRows b)

/-- The edge aggregation: row `n` is the sum over the edges into `n` of the source's row times the edge's weight. -/
def aggregate (ht : FArr S50000x128) (coef : FArr S600000) (src dst : IArr S600000) : FArr S50000x128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf (Host.gather gather_S50000x128_S600000x1_S600000x128_1_0_n_n_0_1_1128 ht (wrapIdx src))
      (broadcastInDim S600000x128 ![0, 1] bcast_S600000x1_S600000x128_0_1
        (broadcastInDim S600000x1 ![0] bcast_S600000_S600000x1_0 coef)))

/-- The self-loop term and the bias added to the aggregate: `agg + ht · (1/deg) + b`. -/
def combine (agg ht : FArr S50000x128) (invdeg : FArr S50000) (b : FArr S128) : FArr S50000x128 :=
  addf (addf agg (mulf ht (broadcastInDim S50000x128 ![0, 1] bcast_S50000x1_S50000x128_0_1
      (broadcastInDim S50000x1 ![0] bcast_S50000_S50000x1_0 invdeg)))) (biasRows b)

/-- The leaky rectifier on the node features: `x` where `x ≥ 0`, else `slope · x`. -/
def leakyNodes (x : FArr S50000x128) : FArr S50000x128 :=
  select (cmpf .oge x (broadcastInDim S50000x128 ![] bcast_S_S50000x128 (constant (F := Ideal) S_ .f32 0x00000000#32))) x
    (mulf (broadcastInDim S50000x128 ![] bcast_S_S50000x128 (constant (F := Ideal) S_ .f32 0x3C23D70A#32)) x)

/-- One graph-convolution layer. -/
def layer (h : FArr S50000x128) (w : FArr S128x128) (b : FArr S128) (coef : FArr S600000)
    (src dst : IArr S600000) (invdeg : FArr S50000) : FArr S50000x128 :=
  leakyNodes (combine (aggregate (project h w) coef src dst) (project h w) invdeg b)

/-- The mean of the node features of each graph (a graph with no node divides by one). -/
def pooled (hx : FArr S50000x128) (batch : IArr S50000) : FArr S256x128 :=
  Host.divf (F := Ideal)
    (Host.scatterAdd (F := Ideal) scatter_S256x128_S50000x1_S50000x128_1_0_0_1
      (broadcastInDim S256x128 ![] bcast_S_S256x128 (constant (F := Ideal) S_ .f32 0x00000000#32))
      (broadcastInDim S50000x1 ![0] bcast_S50000_S50000x1_0 batch) hx)
    (broadcastInDim S256x128 ![0, 1] bcast_S256x1_S256x128_0_1 (broadcastInDim S256x1 ![0] bcast_S256_S256x1_0
      (maximumf
        (Host.scatterAdd (F := Ideal) scatter_S256_S50000x1_S50000_n_0_0_1
          (broadcastInDim S256 ![] bcast_S_S256 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S256 ![] bcast_S_S256 (constant (F := Ideal) S_ .f32 0x3F800000#32)))))

/-- The floored Euclidean length of each graph's row, as a column. -/
def rowNorm (p : FArr S256x128) : FArr S256x1 :=
  maximumf
    (Host.sqrt (F := Ideal) (broadcastInDim S256x1 ![0] bcast_S256_S256x1_0
      (Host.reduceAdd (F := Ideal) (mulf p p) (constant (F := Ideal) S_ .f32 0x00000000#32) reducesTo_S256x128_S256_d1 h_S_)))
    (broadcastInDim S256x1 ![] bcast_S_S256x1 (constant (F := Ideal) S_ .f32 0x2B8CBCCC#32))

/-- Each graph's row divided by its floored length. -/
def normalized (p : FArr S256x128) : FArr S256x128 :=
  Host.divf (F := Ideal) p (broadcastInDim S256x128 ![0, 1] bcast_S256x1_S256x128_0_1 (rowNorm p))

/-- The leaky rectifier on the graph features. -/
def leakyGraphs (x : FArr S256x128) : FArr S256x128 :=
  select (cmpf .oge x (broadcastInDim S256x128 ![] bcast_S_S256x128 (constant (F := Ideal) S_ .f32 0x00000000#32))) x
    (mulf (broadcastInDim S256x128 ![] bcast_S_S256x128 (constant (F := Ideal) S_ .f32 0x3C23D70A#32)) x)

/-- The hidden dense layer of the head, rectified. -/
def hidden (hg : FArr S256x128) (w2 : FArr S128x128) (b2 : FArr S128) : FArr S256x128 :=
  leakyGraphs (addf (Host.dotGeneral (F := Ideal) dot_S256x128_S128x128_S256x128_1_0_0_1_n_n none hg w2)
    (broadcastInDim S256x128 ![0, 1] bcast_S1x128_S256x128_0_1 (broadcastInDim S1x128 ![1] bcast_S128_S1x128_1 b2)))

/-- The output dense layer of the head. -/
def readout (h : FArr S256x128) (w3 : FArr S128x32) (b3 : FArr S32) : FArr S256x32 :=
  addf (Host.dotGeneral (F := Ideal) dot_S256x128_S128x32_S256x32_1_0_0_1_n_n none h w3)
    (broadcastInDim S256x32 ![0, 1] bcast_S1x32_S256x32_0_1 (broadcastInDim S1x32 ![1] bcast_S32_S1x32_1 b3))

/-- The head: normalize, hidden layer, output layer. -/
def head (p : FArr S256x128) (w2 : FArr S128x128) (b2 : FArr S128) (w3 : FArr S128x32) (b3 : FArr S32) :
    FArr S256x32 :=
  readout (hidden (normalized p) w2 b2) w3 b3

/-- The whole network, of the thirteen argument arrays. -/
def out (x : FArr S50000x128) (e : IArr S2x600000) (batch : IArr S50000)
    (w1 : FArr S128x128) (b1 : FArr S128) (wg1 : FArr S128x128) (bg1 : FArr S128)
    (wg2 : FArr S128x128) (bg2 : FArr S128) (w2 : FArr S128x128) (b2 : FArr S128)
    (w3 : FArr S128x32) (b3 : FArr S32) : FArr S256x32 :=
  head (pooled
    (layer (layer (linear x w1 b1) wg1 bg1 (coefOf (invSqrtOf (degOf (dstOf e))) (srcOf e) (dstOf e)) (srcOf e) (dstOf e)
        (invDegOf (degOf (dstOf e))))
      wg2 bg2 (coefOf (invSqrtOf (degOf (dstOf e))) (srcOf e) (dstOf e)) (srcOf e) (dstOf e) (invDegOf (degOf (dstOf e))))
    batch) w2 b2 w3 b3

end Cert.Gnn

end
-- ==== Proof.HostReads.lean ====
/-
  What each stretch of host operations between the regions computes, read from ANY buffer contents it starts from:
  the edge list's rows, the degrees and the edge weights; a bias vector viewed as a one-row array, a zero bias row, the
  per-node factor viewed as a column; the edge aggregation of the projected features; the per-graph mean. Each is the
  network's stage of Network.lean (the two programs print the same host operations for them).
-/
import proofs.«163835_j58025008168970_1_alg».proof.Proof.Gen.KernelIdeal.Frame
import proofs.«163835_j58025008168970_1_alg».proof.Proof.Gen.ReferenceIdeal
import proofs.«163835_j58025008168970_1_alg».proof.Proof.Network
import Idealize.ShloMosaic.Lib.StableHlo.Run

set_option maxRecDepth 16384
set_option maxHeartbeats 1000000

noncomputable section

open Idealize.ShloMosaic Idealize.ShloMosaic.TcCoe Idealize.SL.Sem Idealize.ShloMosaic.StableHlo

namespace Cert.KernelIdeal.HostReads

open Cert.KernelIdeal Cert.KernelIdeal.Gen

attribute [local irreducible] Host.gather Host.scatterAdd

/-- The source node numbers. -/
theorem read0_src (W : Valuation τ sig (Elt Ideal)) :
    after hostOps0 W (Proc.devRef .tc main_v1)
      = Cert.Gnn.srcOf (W (Proc.devRef .tc main_arg1)) := by
  after_results_simp
  rfl

/-- The target node numbers. -/
theorem read0_dst (W : Valuation τ sig (Elt Ideal)) :
    after hostOps0 W (Proc.devRef .tc main_v3)
      = Cert.Gnn.dstOf (W (Proc.devRef .tc main_arg1)) := by
  after_results_simp
  rfl

/-- One over the degrees. -/
theorem read0_invdeg (W : Valuation τ sig (Elt Ideal)) :
    after hostOps0 W (Proc.devRef .tc main_v12)
      = Cert.Gnn.invDegOf (Cert.Gnn.degOf (Cert.Gnn.dstOf (W (Proc.devRef .tc main_arg1)))) := by
  after_results_simp
  rfl

/-- The edge weights. -/
theorem read0_coef (W : Valuation τ sig (Elt Ideal)) :
    after hostOps0 W (Proc.devRef .tc main_v27)
      = Cert.Gnn.coefOf (Cert.Gnn.invSqrtOf (Cert.Gnn.degOf (Cert.Gnn.dstOf (W (Proc.devRef .tc main_arg1))))) (Cert.Gnn.srcOf (W (Proc.devRef .tc main_arg1))) (Cert.Gnn.dstOf (W (Proc.devRef .tc main_arg1))) := by
  after_results_simp
  rfl

/-- The first dense layer's bias as a one-row array. -/
theorem read0_bias (W : Valuation τ sig (Elt Ideal)) :
    after hostOps0 W (Proc.devRef .tc main_v28)
      = shapeCast S1x128 (W (Proc.devRef .tc main_arg4)) Facts₀.shapeCasts_S128_S1x128 := by
  after_results_simp
  rfl

/-- A zero bias row. -/
theorem read1_zero (W : Valuation τ sig (Elt Ideal)) :
    after hostOps1 W (Proc.devRef .tc main_v31)
      = shapeCast S1x128 (broadcastInDim S128 ![] Facts₀.bcast_S_S128 (constant (F := Ideal) S_ .f32 0x00000000#32)) Facts₀.shapeCasts_S128_S1x128 := by
  after_results_simp
  rfl

/-- The first layer's edge aggregation. -/
theorem read2_agg (W : Valuation τ sig (Elt Ideal)) :
    after hostOps2 W (Proc.devRef .tc main_v45)
      = Cert.Gnn.aggregate (W (Proc.devRef .tc main_v32)) (W (Proc.devRef .tc main_v27)) (W (Proc.devRef .tc main_v1)) (W (Proc.devRef .tc main_v3)) := by
  after_results_simp
  rfl

/-- The per-node factor as a column. -/
theorem read2_factor (W : Valuation τ sig (Elt Ideal)) :
    after hostOps2 W (Proc.devRef .tc main_v46)
      = shapeCast S50000x1 (W (Proc.devRef .tc main_v12)) Facts₀.shapeCasts_S50000_S50000x1 := by
  after_results_simp
  rfl

/-- The first layer's bias as a one-row array. -/
theorem read2_bias (W : Valuation τ sig (Elt Ideal)) :
    after hostOps2 W (Proc.devRef .tc main_v47)
      = shapeCast S1x128 (W (Proc.devRef .tc main_arg6)) Facts₀.shapeCasts_S128_S1x128 := by
  after_results_simp
  rfl

/-- A zero bias row. -/
theorem read3_zero (W : Valuation τ sig (Elt Ideal)) :
    after hostOps3 W (Proc.devRef .tc main_v50)
      = shapeCast S1x128 (broadcastInDim S128 ![] Facts₀.bcast_S_S128 (constant (F := Ideal) S_ .f32 0x00000000#32)) Facts₀.shapeCasts_S128_S1x128 := by
  after_results_simp
  rfl

/-- The second layer's edge aggregation. -/
theorem read4_agg (W : Valuation τ sig (Elt Ideal)) :
    after hostOps4 W (Proc.devRef .tc main_v64)
      = Cert.Gnn.aggregate (W (Proc.devRef .tc main_v51)) (W (Proc.devRef .tc main_v27)) (W (Proc.devRef .tc main_v1)) (W (Proc.devRef .tc main_v3)) := by
  after_results_simp
  rfl

/-- The per-node factor as a column. -/
theorem read4_factor (W : Valuation τ sig (Elt Ideal)) :
    after hostOps4 W (Proc.devRef .tc main_v65)
      = shapeCast S50000x1 (W (Proc.devRef .tc main_v12)) Facts₀.shapeCasts_S50000_S50000x1 := by
  after_results_simp
  rfl

/-- The second layer's bias as a one-row array. -/
theorem read4_bias (W : Valuation τ sig (Elt Ideal)) :
    after hostOps4 W (Proc.devRef .tc main_v66)
      = shapeCast S1x128 (W (Proc.devRef .tc main_arg8)) Facts₀.shapeCasts_S128_S1x128 := by
  after_results_simp
  rfl

/-- The per-graph mean of the node features. -/
theorem read5_pooled (W : Valuation τ sig (Elt Ideal)) :
    after hostOps5 W (Proc.devRef .tc main_v79)
      = Cert.Gnn.pooled (W (Proc.devRef .tc main_v67)) (W (Proc.devRef .tc main_arg2)) := by
  after_results_simp
  rfl

/-- The hidden layer's bias as a one-row array. -/
theorem read5_bias2 (W : Valuation τ sig (Elt Ideal)) :
    after hostOps5 W (Proc.devRef .tc main_v80)
      = shapeCast S1x128 (W (Proc.devRef .tc main_arg10)) Facts₀.shapeCasts_S128_S1x128 := by
  after_results_simp
  rfl

/-- The output layer's bias as a one-row array. -/
theorem read5_bias3 (W : Valuation τ sig (Elt Ideal)) :
    after hostOps5 W (Proc.devRef .tc main_v81)
      = shapeCast S1x32 (W (Proc.devRef .tc main_arg12)) Facts₀.shapeCasts_S32_S1x32 := by
  after_results_simp
  rfl

end Cert.KernelIdeal.HostReads

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«163835_j58025008168970_1_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibRowBlocks.lean ====
/-
  Row-wise layers over the extended reals, on a block of rows and on the whole array alike.

  A dense layer sends row `r` of its input to `q ↦ (∑ k, x[r, k] · w[k, q]) + b[0, q]` (`denseRows`); a graph layer's
  rectified combination at node `r` and column `q` is `leaky (agg[r, q] + ht[r, q] · s[r, 0] + b[0, q])` with a
  per-node factor column `s` and a bias row `b` (`actRows`; `leakyE` is the leaky rectifier on one extended real,
  spelt with the comparison and selection the programs use). Both are stated for arrays with ANY number of rows, so
  one function describes a block of rows and the whole array. Read here: the device's block computation — a product
  into a zero accumulator (a change of float format is the identity) plus a broadcast bias row; the sum, product,
  comparison and selection of the combination — as these functions (`device_dense`, `device_act`); and, for a block
  holding rows `R·n …` of an array, the block's layer at `(p, q)` as the array's layer at `(R·n + p, q)`
  (`dense_block`, `act_block`): the step from a tiled region's blocks to one whole-array function.
-/
import proofs.«163835_j58025008168970_1_alg».proof.Proof.LibRowExtras
import proofs.«163835_j58025008168970_1_alg».proof.Proof.LibColumnBroadcast
import Idealize.ShloMosaic.PureOps.Ideal.Laws

noncomputable section

namespace Cert.Layers

open Idealize.ShloMosaic Idealize.ShloMosaic.ValueIdx Cert.RowLayers

/-! ## The leaky rectifier on one extended real -/

/-- `x` where `x ≥ 0`, else `slope · x`, with the comparison and the selection as the programs spell them. -/
def leakyE (x : EReal) : EReal :=
  Scalar.select (FloatOps.cmpf (F := Ideal) (φ := .f32) .oge x (Ideal.ofBits .f32 0x00000000#32)) x
    (Ideal.ofBits .f32 0x3C23D70A#32 * x)

/-! ## The stages on arrays of any number of rows -/

/-- A dense layer row by row: entry `(r, q)` is `(∑ k, x[r, k] · w[k, q]) + b[0, q]`. -/
def denseRows {a K b : ℕ} (x : (⟨2, ![a, K]⟩ : Shape).Idx → EReal) (w : (⟨2, ![K, b]⟩ : Shape).Idx → EReal)
    (bias : (⟨2, ![1, b]⟩ : Shape).Idx → EReal) : (⟨2, ![a, b]⟩ : Shape).Idx → EReal :=
  fun i => dense (rowOf x (i 0)) w (rowOf bias 0) (i 1)

theorem denseRows_ix2 {a K b : ℕ} (x : (⟨2, ![a, K]⟩ : Shape).Idx → EReal) (w : (⟨2, ![K, b]⟩ : Shape).Idx → EReal)
    (bias : (⟨2, ![1, b]⟩ : Shape).Idx → EReal) (r : Fin a) (q : Fin b) :
    denseRows x w bias (ix2 r q) = (∑ k : Fin K, x (ix2 r k) * w (ix2 k q)) + bias (ix2 (0 : Fin 1) q) := rfl

/-- The graph layer's combination entry by entry: `leaky (agg[r, q] + ht[r, q] · s[r, 0] + b[0, q])`. -/
def actRows {a b : ℕ} (agg ht : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => leakyE ((agg i + ht i * s (ix2 (i 0) (0 : Fin 1))) + bias (ix2 (0 : Fin 1) (i 1)))

theorem actRows_ix2 {a b : ℕ} (agg ht : (⟨2, ![a, b]⟩ : Shape).Idx → EReal) (s : (⟨2, ![a, 1]⟩ : Shape).Idx → EReal)
    (bias : (⟨2, ![1, b]⟩ : Shape).Idx → EReal) (r : Fin a) (q : Fin b) :
    actRows agg ht s bias (ix2 r q)
      = leakyE ((agg (ix2 r q) + ht (ix2 r q) * s (ix2 r (0 : Fin 1))) + bias (ix2 (0 : Fin 1) q)) := rfl

/-! ## The device's block computations are these functions -/

/-- The device's dense layer on a block: a product into a zero accumulator (the operands' change of format is the
    identity here) plus the bias row broadcast down the rows. -/
theorem device_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨2, ![1, b]⟩ .f32)
    (hx : FTy.bf16.bits < FTy.f32.bits) (hB : (⟨2, ![1, b]⟩ : Shape).Broadcasts ⟨2, ![a, b]⟩) :
    addf (matmul d none (truncf .bf16 x hx) (truncf .bf16 w hx) (constant (F := Ideal) ⟨2, ![a, b]⟩ .f32 0x00000000#32))
        (broadcastTo ⟨2, ![a, b]⟩ bias hB)
      = denseRows x w bias := by
  funext i
  obtain ⟨r, q, rfl⟩ : ∃ (r : Fin a) (q : Fin b), i = ix2 r q := ⟨i 0, i 1, eq_ix2 i⟩
  exact congrFun (rowOf_dense_device H none (truncf .bf16 x hx) (truncf .bf16 w hx) bias hB r) q

/-- The device's combination on a block. -/
theorem device_act {a b : ℕ} (agg ht : FVec Ideal ⟨2, ![a, b]⟩ .f32) (s : FVec Ideal ⟨2, ![a, 1]⟩ .f32)
    (bias : FVec Ideal ⟨2, ![1, b]⟩ .f32) (hS : (⟨2, ![a, 1]⟩ : Shape).Broadcasts ⟨2, ![a, b]⟩)
    (hB : (⟨2, ![1, b]⟩ : Shape).Broadcasts ⟨2, ![a, b]⟩) :
    select (cmpf .oge (addf (addf agg (mulf ht (broadcastTo ⟨2, ![a, b]⟩ s hS))) (broadcastTo ⟨2, ![a, b]⟩ bias hB))
          (broadcast ⟨2, ![a, b]⟩ (Scalar.ofBits (F := Ideal) .f32 0x00000000#32)))
        (addf (addf agg (mulf ht (broadcastTo ⟨2, ![a, b]⟩ s hS))) (broadcastTo ⟨2, ![a, b]⟩ bias hB))
        (mulf (broadcast ⟨2, ![a, b]⟩ (Scalar.ofBits (F := Ideal) .f32 0x3C23D70A#32))
          (addf (addf agg (mulf ht (broadcastTo ⟨2, ![a, b]⟩ s hS))) (broadcastTo ⟨2, ![a, b]⟩ bias hB)))
      = actRows agg ht s bias := by
  funext i
  obtain ⟨r, q, rfl⟩ : ∃ (r : Fin a) (q : Fin b), i = ix2 r q := ⟨i 0, i 1, eq_ix2 i⟩
  rw [actRows_ix2]
  simp only [select_apply, cmpf_apply, mulf_apply, addf_apply, broadcast_apply,
    Cert.ColumnBroadcast.broadcastTo_a1_ab_apply, broadcastTo_1b_ab_apply]
  rfl

/-! ## A block of rows against the whole array -/

/-- If a block `x0` holds rows `R·n …` of `X`, the dense layer of the block at `(p, q)` is the dense layer of `X` at
    `(R·n + p, q)`. -/
theorem dense_block {A a K b R : ℕ} (X : (⟨2, ![A, K]⟩ : Shape).Idx → EReal) (W : (⟨2, ![K, b]⟩ : Shape).Idx → EReal)
    (B : (⟨2, ![1, b]⟩ : Shape).Idx → EReal) (x0 : (⟨2, ![a, K]⟩ : Shape).Idx → EReal) (n : ℕ)
    (h0 : ∀ (y : (⟨2, ![a, K]⟩ : Shape).Idx) (k : (⟨2, ![A, K]⟩ : Shape).Idx),
      (k 0).val = R * n + (y 0).val → (k 1).val = (y 1).val → x0 y = X k)
    (y : (⟨2, ![a, b]⟩ : Shape).Idx) (i : (⟨2, ![A, b]⟩ : Shape).Idx)
    (hi0 : (i 0).val = R * n + (y 0).val) (hi1 : (i 1).val = (y 1).val) :
    denseRows x0 W B y = denseRows X W B i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [denseRows_ix2, denseRows_ix2]
  congr 1
  exact Finset.sum_congr rfl fun k _ => by rw [h0 (ix2 p k) (ix2 r k) hi0 rfl]

/-- The same for the combination: blocks of the aggregate, of the projected features and of the per-node factor
    holding rows `R·n …` of their arrays. -/
theorem act_block {A a b R : ℕ} (AGG HT : (⟨2, ![A, b]⟩ : Shape).Idx → EReal) (S : (⟨2, ![A, 1]⟩ : Shape).Idx → EReal)
    (B : (⟨2, ![1, b]⟩ : Shape).Idx → EReal) (x0 x1 : (⟨2, ![a, b]⟩ : Shape).Idx → EReal)
    (x2 : (⟨2, ![a, 1]⟩ : Shape).Idx → EReal) (n : ℕ)
    (h0 : ∀ (y : (⟨2, ![a, b]⟩ : Shape).Idx) (k : (⟨2, ![A, b]⟩ : Shape).Idx),
      (k 0).val = R * n + (y 0).val → (k 1).val = (y 1).val → x0 y = AGG k)
    (h1 : ∀ (y : (⟨2, ![a, b]⟩ : Shape).Idx) (k : (⟨2, ![A, b]⟩ : Shape).Idx),
      (k 0).val = R * n + (y 0).val → (k 1).val = (y 1).val → x1 y = HT k)
    (h2 : ∀ (y : (⟨2, ![a, 1]⟩ : Shape).Idx) (k : (⟨2, ![A, 1]⟩ : Shape).Idx),
      (k 0).val = R * n + (y 0).val → (k 1).val = (y 1).val → x2 y = S k)
    (y : (⟨2, ![a, b]⟩ : Shape).Idx) (i : (⟨2, ![A, b]⟩ : Shape).Idx)
    (hi0 : (i 0).val = R * n + (y 0).val) (hi1 : (i 1).val = (y 1).val) :
    actRows x0 x1 x2 B y = actRows AGG HT S B i := by
  obtain ⟨p, q, rfl⟩ : ∃ (p : Fin a) (q : Fin b), y = ix2 p q := ⟨y 0, y 1, eq_ix2 y⟩
  obtain ⟨r, q', rfl⟩ : ∃ (r : Fin A) (q' : Fin b), i = ix2 r q' := ⟨i 0, i 1, eq_ix2 i⟩
  obtain rfl : q' = q := Fin.ext hi1
  rw [actRows_ix2, actRows_ix2, h0 (ix2 p q') (ix2 r q') hi0 rfl, h1 (ix2 p q') (ix2 r q') hi0 rfl,
    h2 (ix2 p (0 : Fin 1)) (ix2 r (0 : Fin 1)) hi0 rfl]

end Cert.Layers

end
-- ==== Proof.Tiles0.lean ====
/-
  The first dense layer's region: ten blocks of 5000 rows. Block `t` of the result is the dense layer of rows
  `5000·t … 5000·t + 4999` of the input with the whole weight matrix and bias row, so the blocks are the restrictions
  of ONE function of the arrays the region finds, and since they tile the result array, it ends holding that function.
-/
import proofs.«163835_j58025008168970_1_alg».proof.Proof.Gen.KernelIdeal.Frame
import proofs.«163835_j58025008168970_1_alg».proof.Proof.LibRowBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles0

open Cert.KernelIdeal Cert.KernelIdeal.Gen Cert.Layers Cert.RowLayers

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers say rows times columns. -/
theorem rtc : RowsTimesCols dot_S5000x128_S128x128_S5000x128_1_0_0_1_n_n where
  rank := rfl
  size := rfl
  lhs0 j q := by simp [DotDims.lhsIdx, dot_S5000x128_S128x128_S5000x128_1_0_0_1_n_n]; rfl
  lhs1 j q := by simp [DotDims.lhsIdx, dot_S5000x128_S128x128_S5000x128_1_0_0_1_n_n]; rfl
  rhs0 j q := by simp [DotDims.rhsIdx, dot_S5000x128_S128x128_S5000x128_1_0_0_1_n_n]; rfl
  rhs1 j q := by simp [DotDims.rhsIdx, dot_S5000x128_S128x128_S5000x128_1_0_0_1_n_n]; rfl

/-- The body's arithmetic on a block is the dense layer of the block's rows. -/
theorem pay_eq (x0 : Vec Ideal S5000x128 .f32) (x1 : Vec Ideal S128x128 .f32) (x2 : Vec Ideal S1x128 .f32) :
    k0_pay1 (F := Ideal) x0 x1 x2 = denseRows x0 x1 x2 := by
  unfold k0_pay1
  rw [shapeCast_self]
  exact device_dense rtc x0 x1 x2 _ _

/-- The printed index maps over the grid: the input and the output move down the rows with the point, the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point `t` is rows `5000·t …` of the input array. -/
theorem iblk_in (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c main_arg0 : S50000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The weights' block is the whole weight matrix at every point. -/
theorem iblk_w (c : Dev nD) (t : Fin cfg0.N) : (iblk0 V c 1 t : Vec Ideal S128x128 .f32) = V c main_arg3 := by
  obtain ⟨-, -, e2, e3, -⟩ := idx_facts t
  funext y
  unfold iblk0
  rw [View.read_apply]
  show V c main_arg3 _ = V c main_arg3 y
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The bias' block is the whole bias row at every point. -/
theorem iblk_b (c : Dev nD) (t : Fin cfg0.N) : (iblk0 V c 2 t : Vec Ideal S1x128 .f32) = V c main_v28 := by
  obtain ⟨-, -, -, -, e4, e5, -⟩ := idx_facts t
  funext y
  unfold iblk0
  rw [View.read_apply]
  show V c main_v28 _ = V c main_v28 y
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- WHAT POINT `t` WRITES BACK is block `t` of the dense layer of the arrays the region finds. -/
theorem flushed_eq (c : Dev nD) (t : Fin cfg0.N) :
    (dat0 V c).flushed 3 t
      = ((cfg0.win 3).blk t).view.read (Elt Ideal) (denseRows (V c main_arg0) (V c main_arg3) (V c main_v28)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay_eq, iblk_w, iblk_b]
  obtain ⟨-, -, -, -, -, -, e6, e7⟩ := idx_facts t
  refine funext fun (j : S5000x128.Idx) => ?_
  show denseRows (iblk0 V c 0 t) (V c main_arg3) (V c main_v28) j
    = denseRows (V c main_arg0) (V c main_arg3) (V c main_v28) (((cfg0.win 3).blk t).view.emb j)
  refine dense_block (V c main_arg0) (V c main_arg3) (V c main_v28) (iblk0 V c 0 t) t.val
    (fun y k hk0 hk1 => iblk_in V c t y k hk0 hk1) j _ ?_ ?_
  · show win0_3.index t 0 * 5000 + 1 * (j 0).val = 5000 * t.val + (j 0).val
    rw [e6]; omega
  · show win0_3.index t 1 * 128 + 1 * (j 1).val = (j 1).val
    rw [e7]; omega

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v29).slice (win0_3.rect t)).set ↔ _
  rw [View.set_slice_whole, Rect.mem_set_unit]
  exact Iff.rfl

/-- Row `r` is in the block of point `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk]
  obtain ⟨-, -, -, -, -, -, e6, e7⟩ := idx_facts ⟨(i 0).val / 5000, by rw [hN]; omega⟩
  intro a
  match a with
  | ⟨0, _⟩ =>
    show win0_3.index _ 0 * 5000 ≤ (i 0).val ∧ (i 0).val < win0_3.index _ 0 * 5000 + 5000
    rw [e6]; show (i 0).val / 5000 * 5000 ≤ (i 0).val ∧ (i 0).val < (i 0).val / 5000 * 5000 + 5000; omega
  | ⟨1, _⟩ =>
    show win0_3.index _ 1 * 128 ≤ (i 1).val ∧ (i 1).val < win0_3.index _ 1 * 128 + 128
    rw [e7]; omega

/-- THE RESULT ARRAY after the region: the dense layer of the arrays the region finds. -/
theorem final (c : Dev nD) :
    (dat0 V c).arrAt 3 cfg0.N = denseRows (V c main_arg0) (V c main_arg3) (V c main_v28) :=
  (dat0 V c).arrAt_eq_of_cover 3 _ (fun t _ => flushed_eq V c t) cover

end Cert.KernelIdeal.Tiles0

end
-- ==== Proof.Tiles1.lean ====
/-
  The first graph layer's projection region: ten blocks of 5000 rows. Block `t` of the result is the dense layer of rows
  `5000·t … 5000·t + 4999` of the input with the whole weight matrix and bias row, so the blocks are the restrictions
  of ONE function of the arrays the region finds, and since they tile the result array, it ends holding that function.
-/
import proofs.«163835_j58025008168970_1_alg».proof.Proof.Gen.KernelIdeal.Frame
import proofs.«163835_j58025008168970_1_alg».proof.Proof.LibRowBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles1

open Cert.KernelIdeal Cert.KernelIdeal.Gen Cert.Layers Cert.RowLayers

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers say rows times columns. -/
theorem rtc : RowsTimesCols dot_S5000x128_S128x128_S5000x128_1_0_0_1_n_n where
  rank := rfl
  size := rfl
  lhs0 j q := by simp [DotDims.lhsIdx, dot_S5000x128_S128x128_S5000x128_1_0_0_1_n_n]; rfl
  lhs1 j q := by simp [DotDims.lhsIdx, dot_S5000x128_S128x128_S5000x128_1_0_0_1_n_n]; rfl
  rhs0 j q := by simp [DotDims.rhsIdx, dot_S5000x128_S128x128_S5000x128_1_0_0_1_n_n]; rfl
  rhs1 j q := by simp [DotDims.rhsIdx, dot_S5000x128_S128x128_S5000x128_1_0_0_1_n_n]; rfl

/-- The body's arithmetic on a block is the dense layer of the block's rows. -/
theorem pay_eq (x0 : Vec Ideal S5000x128 .f32) (x1 : Vec Ideal S128x128 .f32) (x2 : Vec Ideal S1x128 .f32) :
    k1_pay1 (F := Ideal) x0 x1 x2 = denseRows x0 x1 x2 := by
  unfold k1_pay1
  rw [shapeCast_self, shapeCast_self]
  exact device_dense rtc x0 x1 x2 _ _

/-- The printed index maps over the grid: the input and the output move down the rows with the point, the weights and
    the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point `t` is rows `5000·t …` of the input array. -/
theorem iblk_in (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c main_v29 : S50000x128.Idx → EReal) k := by
  obtain ⟨e0, e1, -⟩ := idx_facts t
  unfold iblk1
  rw [View.read_apply]
  show V c main_v29 _ = V c main_v29 _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The weights' block is the whole weight matrix at every point. -/
theorem iblk_w (c : Dev nD) (t : Fin cfg1.N) : (iblk1 V c 1 t : Vec Ideal S128x128 .f32) = V c main_arg5 := by
  obtain ⟨-, -, e2, e3, -⟩ := idx_facts t
  funext y
  unfold iblk1
  rw [View.read_apply]
  show V c main_arg5 _ = V c main_arg5 y
  congr 1
  funext a
  apply Fin.ext
  match a with
  | ⟨0, _⟩ => show win1_1.index t 0 * 128 + 1 * (y 0).val = (y 0).val; rw [e2]; omega
  | ⟨1, _⟩ => show win1_1.index t 1 * 128 + 1 * (y 1).val = (y 1).val; rw [e3]; omega

/-- The bias' block is the whole bias row at every point. -/
theorem iblk_b (c : Dev nD) (t : Fin cfg1.N) : (iblk1 V c 2 t : Vec Ideal S1x128 .f32) = V c main_v31 := by
  obtain ⟨-, -, -, -, e4, e5, -⟩ := idx_facts t
  funext y
  unfold iblk1
  rw [View.read_apply]
  show V c main_v31 _ = V c main_v31 y
  congr 1
  funext a
  apply Fin.ext
  match a with
  | ⟨0, _⟩ => show win1_2.index t 0 * 1 + 1 * (y 0).val = (y 0).val; rw [e4]; omega
  | ⟨1, _⟩ => show win1_2.index t 1 * 128 + 1 * (y 1).val = (y 1).val; rw [e5]; omega

/-- WHAT POINT `t` WRITES BACK is block `t` of the dense layer of the arrays the region finds. -/
theorem flushed_eq (c : Dev nD) (t : Fin cfg1.N) :
    (dat1 V c).flushed 3 t
      = ((cfg1.win 3).blk t).view.read (Elt Ideal) (denseRows (V c main_v29) (V c main_arg5) (V c main_v31)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [pay_eq, iblk_w, iblk_b]
  obtain ⟨-, -, -, -, -, -, e6, e7⟩ := idx_facts t
  refine funext fun (j : S5000x128.Idx) => ?_
  show denseRows (iblk1 V c 0 t) (V c main_arg5) (V c main_v31) j
    = denseRows (V c main_v29) (V c main_arg5) (V c main_v31) (((cfg1.win 3).blk t).view.emb j)
  refine dense_block (V c main_v29) (V c main_arg5) (V c main_v31) (iblk1 V c 0 t) t.val
    (fun y k hk0 hk1 => iblk_in V c t y k hk0 hk1) j _ ?_ ?_
  · show win1_3.index t 0 * 5000 + 1 * (j 0).val = 5000 * t.val + (j 0).val
    rw [e6]; omega
  · show win1_3.index t 1 * 128 + 1 * (j 1).val = (j 1).val
    rw [e7]; omega

/-- An index of the result array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v32).slice (win1_3.rect t)).set ↔ _
  rw [View.set_slice_whole, Rect.mem_set_unit]
  exact Iff.rfl

/-- Row `r` is in the block of point `r / 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_blk]
  obtain ⟨-, -, -, -, -, -, e6, e7⟩ := idx_facts ⟨(i 0).val / 5000, by rw [hN]; omega⟩
  intro a
  match a with
  | ⟨0, _⟩ =>
    show win1_3.index _ 0 * 5000 ≤ (i 0).val ∧ (i 0).val < win1_3.index _ 0 * 5000 + 5000
    rw [e6]; show (i 0).val / 5000 * 5000 ≤ (i 0).val ∧ (i 0).val < (i 0).val / 5000 * 5000 + 5000; omega
  | ⟨1, _⟩ =>
    show win1_3.index _ 1 * 128 ≤ (i 1).val ∧ (i 1).val < win1_3.index _ 1 * 128 + 128
    rw [e7]; omega

/-- THE RESULT ARRAY after the region: the dense layer of the arrays the region finds. -/
theorem final (c : Dev nD) :
    (dat1 V c).arrAt 3 cfg1.N = denseRows (V c main_v29) (V c main_arg5) (V c main_v31) :=
  (dat1 V c).arrAt_eq_of_cover 3 _ (fun t _ => flushed_eq V c t) cover

end Cert.KernelIdeal.Tiles1

end
-- ==== Proof.Tiles2.lean ====
/-
  The first graph layer's combination region: ten blocks of 5000 rows. Block `t` of the result is the combination
  `leaky (agg + ht · s + b)` of rows `5000·t … 5000·t + 4999` of the aggregate, of the projected features and of the
  per-node factor column, with the whole bias row; so the blocks are the restrictions of ONE function of the arrays the
  region finds, and since they tile the result array, it ends holding that function.
-/
import proofs.«163835_j58025008168970_1_alg».proof.Proof.Gen.KernelIdeal.Frame
import proofs.«163835_j58025008168970_1_alg».proof.Proof.LibRowBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles2

open Cert.KernelIdeal Cert.KernelIdeal.Gen Cert.Layers Cert.RowLayers

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the combination of the block's rows. -/
theorem pay_eq (x0 x1 : Vec Ideal S5000x128 .f32) (x2 : Vec Ideal S5000x1 .f32) (x3 : Vec Ideal S1x128 .f32) :
    k2_pay1 (F := Ideal) x0 x1 x2 x3 = actRows x0 x1 x2 x3 := by
  unfold k2_pay1
  simp only [shapeCast_self]
  exact device_act x0 x1 x2 x3 _ _

/-- The printed index maps over the grid: the three node arrays and the output move down the rows with the point, the
    bias stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregate's block at point `t` is rows `5000·t …` of the aggregate. -/
theorem iblk_agg (c : Dev nD) (t : Fin cfg2.N) (y : S5000x128.Idx) (k : S50000x128.Idx)
    (hk0 : (k 0).val = 5000 * t.val + (y 0).val) (hk1 : (k 1).val = (y 1).val) :
    (iblk2 V c 0 t : Vec Ideal S5000x128 .f32) y = (V c main_v45 : S50000x128.Idx → EReal) k := by
  obtain ⟨e0, e1, -⟩ := idx_facts t
  unfold iblk2
  rw [View.read_apply]
  show V c main_v45 _ = V c main_v45 _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- The projected features' block at point `t` is rows `5000·t …` of the projected features. -/
theorem iblk_ht (c : Dev nD) (t : Fin cfg2.N) (y : S5000x128.Idx) (k : S50000x128.Idx)
    (hk0 : (k 0).val = 5000 * t.val + (y 0).val) (hk1 : (k 1).val = (y 1).val) :
    (iblk2 V c 1 t : Vec Ideal S5000x128 .f32) y = (V c main_v32 : S50000x128.Idx → EReal) k := by
  obtain ⟨-, -, e2, e3, -⟩ := idx_facts t
  unfold iblk2
  rw [View.read_apply]
  show V c main_v32 _ = V c main_v32 _
  congr 1
  funext a
  apply Fin.ext
  match a with
  | ⟨0, _⟩ => show win2_1.index t 0 * 5000 + 1 * (y 0).val = (k 0).val; rw [e2, hk0]; omega
  | ⟨1, _⟩ => show win2_1.index t 1 * 128 + 1 * (y 1).val = (k 1).val; rw [e3, hk1]; omega

/-- The factor column's block at point `t` is rows `5000·t …` of the column. -/
theorem iblk_s (c : Dev nD) (t : Fin cfg2.N) (y : S5000x1.Idx) (k : S50000x1.Idx)
    (hk0 : (k 0).val = 5000 * t.val + (y 0).val) (hk1 : (k 1).val = (y 1).val) :
    (iblk2 V c 2 t : Vec Ideal S5000x1 .f32) y = (V c main_v46 : S50000x1.Idx → EReal) k := by
  obtain ⟨-, -, -, -, e4, e5, -⟩ := idx_facts t
  unfold iblk2
  rw [View.read_apply]
  show V c main_v46 _ = V c main_v46 _
  congr 1
  funext a
  apply Fin.ext
  match a with
  | ⟨0, _⟩ => show win2_2.index t 0 * 5000 + 1 * (y 0).val = (k 0).val; rw [e4, hk0]; omega
  | ⟨1, _⟩ => show win2_2.index t 1 * 1 + 1 * (y 1).val = (k 1).val; rw [e5, hk1]; omega

/-- The bias' block is the whole bias row at every point. -/
theorem iblk_b (c : Dev nD) (t : Fin cfg2.N) : (iblk2 V c 3 t : Vec Ideal S1x128 .f32) = V c main_v47 := by
  obtain ⟨-, -, -, -, -, -, e6, e7, -⟩ := idx_facts t
  funext y
  unfold iblk2
  rw [View.read_apply]
  show V c main_v47 _ = V c main_v47 y
  congr 1
  funext a
  apply Fin.ext
  match a with
  | ⟨0, _⟩ => show win2_3.index t 0 * 1 + 1 * (y 0).val = (y 0).val; rw [e6]; omega
  | ⟨1, _⟩ => show win2_3.index t 1 * 128 + 1 * (y 1).val = (y 1).val; rw [e7]; omega

/-- WHAT POINT `t` WRITES BACK is block `t` of the combination of the arrays the region finds. -/
theorem flushed_eq (c : Dev nD) (t : Fin cfg2.N) :
    (dat2 V c).flushed 4 t
      = ((cfg2.win 4).blk t).view.read (Elt Ideal) (actRows (V c main_v45) (V c main_v32) (V c main_v46) (V c main_v47)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  rw [pay_eq, iblk_b]
  obtain ⟨-, -, -, -, -, -, -, -, e8, e9⟩ := idx_facts t
  refine funext fun (j : S5000x128.Idx) => ?_
  show actRows (iblk2 V c 0 t) (iblk2 V c 1 t) (iblk2 V c 2 t) (V c main_v47) j
    = actRows (V c main_v45) (V c main_v32) (V c main_v46) (V c main_v47) (((cfg2.win 4).blk t).view.emb j)
  refine act_block (V c main_v45) (V c main_v32) (V c main_v46) (V c main_v47) (iblk2 V c 0 t) (iblk2 V c 1 t) (iblk2 V c 2 t) t.val
    (fun y k hk0 hk1 => iblk_agg V c t y k hk0 hk1) (fun y k hk0 hk1 => iblk_ht V c t y k hk0 hk1)
    (fun y k hk0 hk1 => iblk_s V c t y k hk0 hk1) j _ ?_ ?_
  · show win2_4.index t 0 * 5000 + 1 * (j 0).val = 5000 * t.val + (j 0).val
    rw [e8]; omega
  · show win2_4.index t 1 * 128 + 1 * (j 1).val = (j 1).val
    rw [e9]; omega

/-- An index of the result array is in point `t`'s block iff each coordinate is in the block's range on its axis. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v48).slice (win2_4.rect t)).set ↔ _
  rw [View.set_slice_whole, Rect.mem_set_unit]
  exact Iff.rfl

/-- Row `r` is in the block of point `r / 5000`. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_4 _, ?_⟩
  rw [mem_blk]
  obtain ⟨-, -, -, -, -, -, -, -, e8, e9⟩ := idx_facts ⟨(i 0).val / 5000, by rw [hN]; omega⟩
  intro a
  match a with
  | ⟨0, _⟩ =>
    show win2_4.index _ 0 * 5000 ≤ (i 0).val ∧ (i 0).val < win2_4.index _ 0 * 5000 + 5000
    rw [e8]; show (i 0).val / 5000 * 5000 ≤ (i 0).val ∧ (i 0).val < (i 0).val / 5000 * 5000 + 5000; omega
  | ⟨1, _⟩ =>
    show win2_4.index _ 1 * 128 ≤ (i 1).val ∧ (i 1).val < win2_4.index _ 1 * 128 + 128
    rw [e9]; omega

/-- THE RESULT ARRAY after the region: the combination of the arrays the region finds. -/
theorem final (c : Dev nD) :
    (dat2 V c).arrAt 4 cfg2.N = actRows (V c main_v45) (V c main_v32) (V c main_v46) (V c main_v47) :=
  (dat2 V c).arrAt_eq_of_cover 4 _ (fun t _ => flushed_eq V c t) cover

end Cert.KernelIdeal.Tiles2

end
-- ==== Proof.Tiles3.lean ====
/-
  The second graph layer's projection region: ten blocks of 5000 rows. Block `t` of the result is the dense layer of rows
  `5000·t … 5000·t + 4999` of the input with the whole weight matrix and bias row, so the blocks are the restrictions
  of ONE function of the arrays the region finds, and since they tile the result array, it ends holding that function.
-/
import proofs.«163835_j58025008168970_1_alg».proof.Proof.Gen.KernelIdeal.Frame
import proofs.«163835_j58025008168970_1_alg».proof.Proof.LibRowBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles3

open Cert.KernelIdeal Cert.KernelIdeal.Gen Cert.Layers Cert.RowLayers

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers say rows times columns. -/
theorem rtc : RowsTimesCols dot_S5000x128_S128x128_S5000x128_1_0_0_1_n_n where
  rank := rfl
  size := rfl
  lhs0 j q := by simp [DotDims.lhsIdx, dot_S5000x128_S128x128_S5000x128_1_0_0_1_n_n]; rfl
  lhs1 j q := by simp [DotDims.lhsIdx, dot_S5000x128_S128x128_S5000x128_1_0_0_1_n_n]; rfl
  rhs0 j q := by simp [DotDims.rhsIdx, dot_S5000x128_S128x128_S5000x128_1_0_0_1_n_n]; rfl
  rhs1 j q := by simp [DotDims.rhsIdx, dot_S5000x128_S128x128_S5000x128_1_0_0_1_n_n]; rfl

/-- The body's arithmetic on a block is the dense layer of the block's rows. -/
theorem pay_eq (x0 : Vec Ideal S5000x128 .f32) (x1 : Vec Ideal S128x128 .f32) (x2 : Vec Ideal S1x128 .f32) :
    k3_pay1 (F := Ideal) x0 x1 x2 = denseRows x0 x1 x2 := by
  unfold k3_pay1
  rw [shapeCast_self, shapeCast_self]
  exact device_dense rtc x0 x1 x2 _ _

/-- The printed index maps over the grid: the input and the output move down the rows with the point, the weights and
    the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input's block at point `t` is rows `5000·t …` of the input array. -/
theorem iblk_in (c : Dev nD) (t : Fin cfg3.N) (y : S5000x128.Idx) (k : S50000x128.Idx)
    (hk0 : (k 0).val = 5000 * t.val + (y 0).val) (hk1 : (k 1).val = (y 1).val) :
    (iblk3 V c 0 t : Vec Ideal S5000x128 .f32) y = (V c main_v48 : S50000x128.Idx → EReal) k := by
  obtain ⟨e0, e1, -⟩ := idx_facts t
  unfold iblk3
  rw [View.read_apply]
  show V c main_v48 _ = V c main_v48 _
  congr 1
  funext a
  apply Fin.ext
  match a with
  | ⟨0, _⟩ => show win3_0.index t 0 * 5000 + 1 * (y 0).val = (k 0).val; rw [e0, hk0]; omega
  | ⟨1, _⟩ => show win3_0.index t 1 * 128 + 1 * (y 1).val = (k 1).val; rw [e1, hk1]; omega

/-- The weights' block is the whole weight matrix at every point. -/
theorem iblk_w (c : Dev nD) (t : Fin cfg3.N) : (iblk3 V c 1 t : Vec Ideal S128x128 .f32) = V c main_arg7 := by
  obtain ⟨-, -, e2, e3, -⟩ := idx_facts t
  funext y
  unfold iblk3
  rw [View.read_apply]
  show V c main_arg7 _ = V c main_arg7 y
  congr 1
  funext a
  apply Fin.ext
  match a with
  | ⟨0, _⟩ => show win3_1.index t 0 * 128 + 1 * (y 0).val = (y 0).val; rw [e2]; omega
  | ⟨1, _⟩ => show win3_1.index t 1 * 128 + 1 * (y 1).val = (y 1).val; rw [e3]; omega

/-- The bias' block is the whole bias row at every point. -/
theorem iblk_b (c : Dev nD) (t : Fin cfg3.N) : (iblk3 V c 2 t : Vec Ideal S1x128 .f32) = V c main_v50 := by
  obtain ⟨-, -, -, -, e4, e5, -⟩ := idx_facts t
  funext y
  unfold iblk3
  rw [View.read_apply]
  show V c main_v50 _ = V c main_v50 y
  congr 1
  funext a
  apply Fin.ext
  match a with
  | ⟨0, _⟩ => show win3_2.index t 0 * 1 + 1 * (y 0).val = (y 0).val; rw [e4]; omega
  | ⟨1, _⟩ => show win3_2.index t 1 * 128 + 1 * (y 1).val = (y 1).val; rw [e5]; omega

/-- WHAT POINT `t` WRITES BACK is block `t` of the dense layer of the arrays the region finds. -/
theorem flushed_eq (c : Dev nD) (t : Fin cfg3.N) :
    (dat3 V c).flushed 3 t
      = ((cfg3.win 3).blk t).view.read (Elt Ideal) (denseRows (V c main_v48) (V c main_arg7) (V c main_v50)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  rw [pay_eq, iblk_w, iblk_b]
  obtain ⟨-, -, -, -, -, -, e6, e7⟩ := idx_facts t
  refine funext fun (j : S5000x128.Idx) => ?_
  show denseRows (iblk3 V c 0 t) (V c main_arg7) (V c main_v50) j
    = denseRows (V c main_v48) (V c main_arg7) (V c main_v50) (((cfg3.win 3).blk t).view.emb j)
  refine dense_block (V c main_v48) (V c main_arg7) (V c main_v50) (iblk3 V c 0 t) t.val
    (fun y k hk0 hk1 => iblk_in V c t y k hk0 hk1) j _ ?_ ?_
  · show win3_3.index t 0 * 5000 + 1 * (j 0).val = 5000 * t.val + (j 0).val
    rw [e6]; omega
  · show win3_3.index t 1 * 128 + 1 * (j 1).val = (j 1).val
    rw [e7]; omega

/-- An index of the result array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v51).slice (win3_3.rect t)).set ↔ _
  rw [View.set_slice_whole, Rect.mem_set_unit]
  exact Iff.rfl

/-- Row `r` is in the block of point `r / 5000`. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_3 _, ?_⟩
  rw [mem_blk]
  obtain ⟨-, -, -, -, -, -, e6, e7⟩ := idx_facts ⟨(i 0).val / 5000, by rw [hN]; omega⟩
  intro a
  match a with
  | ⟨0, _⟩ =>
    show win3_3.index _ 0 * 5000 ≤ (i 0).val ∧ (i 0).val < win3_3.index _ 0 * 5000 + 5000
    rw [e6]; show (i 0).val / 5000 * 5000 ≤ (i 0).val ∧ (i 0).val < (i 0).val / 5000 * 5000 + 5000; omega
  | ⟨1, _⟩ =>
    show win3_3.index _ 1 * 128 ≤ (i 1).val ∧ (i 1).val < win3_3.index _ 1 * 128 + 128
    rw [e7]; omega

/-- THE RESULT ARRAY after the region: the dense layer of the arrays the region finds. -/
theorem final (c : Dev nD) :
    (dat3 V c).arrAt 3 cfg3.N = denseRows (V c main_v48) (V c main_arg7) (V c main_v50) :=
  (dat3 V c).arrAt_eq_of_cover 3 _ (fun t _ => flushed_eq V c t) cover

end Cert.KernelIdeal.Tiles3

end
-- ==== Proof.Tiles4.lean ====
/-
  The second graph layer's combination region: ten blocks of 5000 rows. Block `t` of the result is the combination
  `leaky (agg + ht · s + b)` of rows `5000·t … 5000·t + 4999` of the aggregate, of the projected features and of the
  per-node factor column, with the whole bias row; so the blocks are the restrictions of ONE function of the arrays the
  region finds, and since they tile the result array, it ends holding that function.
-/
import proofs.«163835_j58025008168970_1_alg».proof.Proof.Gen.KernelIdeal.Frame
import proofs.«163835_j58025008168970_1_alg».proof.Proof.LibRowBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles4

open Cert.KernelIdeal Cert.KernelIdeal.Gen Cert.Layers Cert.RowLayers

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the combination of the block's rows. -/
theorem pay_eq (x0 x1 : Vec Ideal S5000x128 .f32) (x2 : Vec Ideal S5000x1 .f32) (x3 : Vec Ideal S1x128 .f32) :
    k4_pay1 (F := Ideal) x0 x1 x2 x3 = actRows x0 x1 x2 x3 := by
  unfold k4_pay1
  simp only [shapeCast_self]
  exact device_act x0 x1 x2 x3 _ _

/-- The printed index maps over the grid: the three node arrays and the output move down the rows with the point, the
    bias stays. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The aggregate's block at point `t` is rows `5000·t …` of the aggregate. -/
theorem iblk_agg (c : Dev nD) (t : Fin cfg4.N) (y : S5000x128.Idx) (k : S50000x128.Idx)
    (hk0 : (k 0).val = 5000 * t.val + (y 0).val) (hk1 : (k 1).val = (y 1).val) :
    (iblk4 V c 0 t : Vec Ideal S5000x128 .f32) y = (V c main_v64 : S50000x128.Idx → EReal) k := by
  obtain ⟨e0, e1, -⟩ := idx_facts t
  unfold iblk4
  rw [View.read_apply]
  show V c main_v64 _ = V c main_v64 _
  congr 1
  funext a
  apply Fin.ext
  match a with
  | ⟨0, _⟩ => show win4_0.index t 0 * 5000 + 1 * (y 0).val = (k 0).val; rw [e0, hk0]; omega
  | ⟨1, _⟩ => show win4_0.index t 1 * 128 + 1 * (y 1).val = (k 1).val; rw [e1, hk1]; omega

/-- The projected features' block at point `t` is rows `5000·t …` of the projected features. -/
theorem iblk_ht (c : Dev nD) (t : Fin cfg4.N) (y : S5000x128.Idx) (k : S50000x128.Idx)
    (hk0 : (k 0).val = 5000 * t.val + (y 0).val) (hk1 : (k 1).val = (y 1).val) :
    (iblk4 V c 1 t : Vec Ideal S5000x128 .f32) y = (V c main_v51 : S50000x128.Idx → EReal) k := by
  obtain ⟨-, -, e2, e3, -⟩ := idx_facts t
  unfold iblk4
  rw [View.read_apply]
  show V c main_v51 _ = V c main_v51 _
  congr 1
  funext a
  apply Fin.ext
  match a with
  | ⟨0, _⟩ => show win4_1.index t 0 * 5000 + 1 * (y 0).val = (k 0).val; rw [e2, hk0]; omega
  | ⟨1, _⟩ => show win4_1.index t 1 * 128 + 1 * (y 1).val = (k 1).val; rw [e3, hk1]; omega

/-- The factor column's block at point `t` is rows `5000·t …` of the column. -/
theorem iblk_s (c : Dev nD) (t : Fin cfg4.N) (y : S5000x1.Idx) (k : S50000x1.Idx)
    (hk0 : (k 0).val = 5000 * t.val + (y 0).val) (hk1 : (k 1).val = (y 1).val) :
    (iblk4 V c 2 t : Vec Ideal S5000x1 .f32) y = (V c main_v65 : S50000x1.Idx → EReal) k := by
  obtain ⟨-, -, -, -, e4, e5, -⟩ := idx_facts t
  unfold iblk4
  rw [View.read_apply]
  show V c main_v65 _ = V c main_v65 _
  congr 1
  funext a
  apply Fin.ext
  match a with
  | ⟨0, _⟩ => show win4_2.index t 0 * 5000 + 1 * (y 0).val = (k 0).val; rw [e4, hk0]; omega
  | ⟨1, _⟩ => show win4_2.index t 1 * 1 + 1 * (y 1).val = (k 1).val; rw [e5, hk1]; omega

/-- The bias' block is the whole bias row at every point. -/
theorem iblk_b (c : Dev nD) (t : Fin cfg4.N) : (iblk4 V c 3 t : Vec Ideal S1x128 .f32) = V c main_v66 := by
  obtain ⟨-, -, -, -, -, -, e6, e7, -⟩ := idx_facts t
  funext y
  unfold iblk4
  rw [View.read_apply]
  show V c main_v66 _ = V c main_v66 y
  congr 1
  funext a
  apply Fin.ext
  match a with
  | ⟨0, _⟩ => show win4_3.index t 0 * 1 + 1 * (y 0).val = (y 0).val; rw [e6]; omega
  | ⟨1, _⟩ => show win4_3.index t 1 * 128 + 1 * (y 1).val = (y 1).val; rw [e7]; omega

/-- WHAT POINT `t` WRITES BACK is block `t` of the combination of the arrays the region finds. -/
theorem flushed_eq (c : Dev nD) (t : Fin cfg4.N) :
    (dat4 V c).flushed 4 t
      = ((cfg4.win 4).blk t).view.read (Elt Ideal) (actRows (V c main_v64) (V c main_v51) (V c main_v65) (V c main_v66)) := by
  show (cfg4.win 4).cut (grid4.coords t) ((dat4 V c).after 4 t) = _
  rw [after4_4]
  unfold out4_4
  rw [View.canon_unit_zero hz]
  simp only [View.ld_unit_zero (S := S5000x128) hz, View.ld_unit_zero (S := S5000x1) hz, View.ld_unit_zero (S := S1x128) hz]
  rw [pay_eq, iblk_b]
  obtain ⟨-, -, -, -, -, -, -, -, e8, e9⟩ := idx_facts t
  refine funext fun (j : S5000x128.Idx) => ?_
  show actRows (iblk4 V c 0 t) (iblk4 V c 1 t) (iblk4 V c 2 t) (V c main_v66) j
    = actRows (V c main_v64) (V c main_v51) (V c main_v65) (V c main_v66) (((cfg4.win 4).blk t).view.emb j)
  refine act_block (V c main_v64) (V c main_v51) (V c main_v65) (V c main_v66) (iblk4 V c 0 t) (iblk4 V c 1 t) (iblk4 V c 2 t) t.val
    (fun y k hk0 hk1 => iblk_agg V c t y k hk0 hk1) (fun y k hk0 hk1 => iblk_ht V c t y k hk0 hk1)
    (fun y k hk0 hk1 => iblk_s V c t y k hk0 hk1) j _ ?_ ?_
  · show win4_4.index t 0 * 5000 + 1 * (j 0).val = 5000 * t.val + (j 0).val
    rw [e8]; omega
  · show win4_4.index t 1 * 128 + 1 * (j 1).val = (j 1).val
    rw [e9]; omega

/-- An index of the result array is in point `t`'s block iff each coordinate is in the block's range on its axis. -/
theorem mem_blk (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v67).slice (win4_4.rect t)).set ↔ _
  rw [View.set_slice_whole, Rect.mem_set_unit]
  exact Iff.rfl

/-- Row `r` is in the block of point `r / 5000`. -/
theorem cover (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_4 _, ?_⟩
  rw [mem_blk]
  obtain ⟨-, -, -, -, -, -, -, -, e8, e9⟩ := idx_facts ⟨(i 0).val / 5000, by rw [hN]; omega⟩
  intro a
  match a with
  | ⟨0, _⟩ =>
    show win4_4.index _ 0 * 5000 ≤ (i 0).val ∧ (i 0).val < win4_4.index _ 0 * 5000 + 5000
    rw [e8]; show (i 0).val / 5000 * 5000 ≤ (i 0).val ∧ (i 0).val < (i 0).val / 5000 * 5000 + 5000; omega
  | ⟨1, _⟩ =>
    show win4_4.index _ 1 * 128 ≤ (i 1).val ∧ (i 1).val < win4_4.index _ 1 * 128 + 128
    rw [e9]; omega

/-- THE RESULT ARRAY after the region: the combination of the arrays the region finds. -/
theorem final (c : Dev nD) :
    (dat4 V c).arrAt 4 cfg4.N = actRows (V c main_v64) (V c main_v51) (V c main_v65) (V c main_v66) :=
  (dat4 V c).arrAt_eq_of_cover 4 _ (fun t _ => flushed_eq V c t) cover

end Cert.KernelIdeal.Tiles4

end
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«163835_j58025008168970_1_alg».proof.Proof.LibRowLayers
import proofs.«163835_j58025008168970_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibTanhSlope.lean ====
/-
  The slope of tanh over the extended reals, in its two spellings.

  A program that differentiates through tanh writes the slope either with tanh itself, 1 − tanh² h, or with
  exponentials, 4 / (e^(−h) + e^h)² (the square written as a product). On a real both are 1 / cosh² h; at +∞ and −∞
  the sum of exponentials is +∞, so the quotient is 0, while tanh is ±1, so 1 − tanh² is 0 as well. Hence the two
  spellings are ONE function on every extended real (slope_eq), with no finiteness assumption. The values of the two
  float constants the spellings use (1.0 and 4.0) are stated beside it.
-/
import Idealize.ShloMosaic.PureOps.Ideal
import Idealize.ShloMosaic.PureOps.Ideal.Laws

noncomputable section

namespace Cert.TanhSlope

open Idealize.ShloMosaic

/-! ## The two float constants -/

/-- The pattern of 1.0 denotes 1. -/
theorem ofBits_one : Ideal.ofBits .f32 0x3F800000#32 = 1 := by
  simp [Ideal.ofBits, Ideal.ieee, -EReal.coe_mul]; norm_num

/-- The pattern of 4.0 denotes the real 4. -/
theorem ofBits_four : Ideal.ofBits .f32 0x40800000#32 = ((4 : ℝ) : EReal) := by
  simp [Ideal.ofBits, Ideal.ieee, -EReal.coe_mul]; norm_num

/-! ## The slope of tanh, in its two spellings -/

/-- The slope of tanh written with tanh itself. -/
def slope (h : EReal) : EReal := 1 - Ideal.tanh h * Ideal.tanh h

/-- On the reals, 4 / (e^(−r) + e^r)² = 1 − tanh² r: both are 1 / cosh² r. -/
theorem real_slope (r : ℝ) :
    4 * (1 / ((Real.exp (-r) + Real.exp r) * (Real.exp (-r) + Real.exp r))) = 1 - Real.tanh r * Real.tanh r := by
  have hc : Real.cosh r ≠ 0 := ne_of_gt (Real.cosh_pos r)
  have he : Real.exp (-r) + Real.exp r = 2 * Real.cosh r := by rw [Real.cosh_eq]; ring
  have hs := Real.cosh_sq r
  rw [he, Real.tanh_eq_sinh_div_cosh]
  field_simp
  nlinarith [hs]

/-- The slope written with exponentials is the slope written with tanh, at every extended real: on a real both are
    1 / cosh², and at either infinity the sum of exponentials is +∞, so the quotient is 0, while tanh is ±1. -/
theorem slope_eq (h : EReal) :
    Ideal.div ((4 : ℝ) : EReal) ((Ideal.exp (-h) + Ideal.exp h) * (Ideal.exp (-h) + Ideal.exp h)) = slope h := by
  unfold slope
  induction h using EReal.rec with
  | bot =>
    simp [Ideal.div]
    rw [← EReal.coe_one, ← EReal.coe_sub, sub_self, EReal.coe_zero]
  | top =>
    simp [Ideal.div]
    rw [← EReal.coe_one, ← EReal.coe_sub, sub_self, EReal.coe_zero]
  | coe r =>
    have hpos : (0 : ℝ) < (Real.exp (-r) + Real.exp r) * (Real.exp (-r) + Real.exp r) := by positivity
    rw [← EReal.coe_neg, Ideal.exp_coe, Ideal.exp_coe, Ideal.tanh_coe, ← EReal.coe_add, ← EReal.coe_mul,
      Ideal.div_coe (ne_of_gt hpos), ← EReal.coe_mul, ← EReal.coe_mul, ← EReal.coe_one, ← EReal.coe_sub, real_slope]

end Cert.TanhSlope

end
-- ==== Proof.LibRowNormalize.lean ====
/-
  Rows scaled to unit length, and the host's dense layers, read entry by entry over the extended reals.

  Row `r` of an array `p` is divided by `m r = max (√(∑ j, p[r, j]²)) floor`, `floor` a small positive constant
  (`normRows`). One spelling divides entry by entry (the host's: the sum of squares from a zero start, given a unit
  axis, its root floored, broadcast along the lanes), the other multiplies by `1 / m r` (the device's: the lane sum
  re-laid as a column); since `m r ≥ floor > 0` is never zero, both are the quotient `p[r, k] / m r` — for a non-zero
  divisor the quotient IS the product with the inverse, and `1 / m` is that inverse (`mul_one_div`; no finiteness is
  needed). Also here: the leaky rectifier entry by entry in both spellings, the host's dense layer (a `dot_general`
  plus a bias vector given a unit axis and broadcast) as the row-wise `denseRows` of LibRowBlocks.lean, a bias-free
  product as `denseRows` with a zero bias row (`x + 0 = x`), and `headRows`: normalize, a rectified dense layer, a
  dense layer.
-/
import proofs.«163835_j58025008168970_1_alg».proof.Proof.LibRowBlocks
import proofs.«163835_j58025008168970_1_alg».proof.Proof.LibChebRows
import proofs.«163835_j58025008168970_1_alg».proof.Proof.LibTanhSlope

noncomputable section

namespace Cert.Head

open Idealize.ShloMosaic Idealize.ShloMosaic.ValueIdx Cert.RowLayers Cert.Layers

/-- The floor of the row length is a positive real. -/
theorem floor_pos : (0 : EReal) < Ideal.ofBits .f32 0x2B8CBCCC#32 := by
  have h : ∃ x : ℝ, 0 < x ∧ Ideal.ofBits .f32 0x2B8CBCCC#32 = (x : EReal) := by
    refine ⟨_, ?_, by simp [Ideal.ofBits, Ideal.ieee, -EReal.coe_mul]; rfl⟩
    positivity
  obtain ⟨x, hx, e⟩ := h
  rw [e]; exact EReal.coe_pos.mpr hx

/-- A length floored at a positive constant is not zero. -/
theorem floored_ne_zero (s : EReal) : max s (Ideal.ofBits .f32 0x2B8CBCCC#32) ≠ 0 :=
  ne_of_gt (lt_of_lt_of_le floor_pos (le_max_right _ _))

/-- Multiplying by `1 / m` is dividing by `m`, for `m ≠ 0`. -/
theorem mul_one_div (x m : EReal) (hm : m ≠ 0) : x * Ideal.div (Ideal.ofBits .f32 0x3F800000#32) m = Ideal.div x m := by
  rw [Cert.TanhSlope.ofBits_one]
  unfold Ideal.div
  rw [if_neg hm, if_neg hm, one_mul]

/-- Each row divided by its floored Euclidean length. -/
def normRows {a n : ℕ} (p : (⟨2, ![a, n]⟩ : Shape).Idx → EReal) : (⟨2, ![a, n]⟩ : Shape).Idx → EReal :=
  fun i => Ideal.div (p i)
    (max (Ideal.sqrt (∑ j : Fin n, p (ix2 (i 0) j) * p (ix2 (i 0) j))) (Ideal.ofBits .f32 0x2B8CBCCC#32))

theorem normRows_ix2 {a n : ℕ} (p : (⟨2, ![a, n]⟩ : Shape).Idx → EReal) (r : Fin a) (k : Fin n) :
    normRows p (ix2 r k) = Ideal.div (p (ix2 r k))
      (max (Ideal.sqrt (∑ j : Fin n, p (ix2 r j) * p (ix2 r j))) (Ideal.ofBits .f32 0x2B8CBCCC#32)) := rfl

/-- The device's spelling: the lane sum of squares re-laid as a column, its root floored, ONE divided by it, the
    column broadcast along the lanes and multiplied in. -/
theorem device_norm {a n : ℕ} (p : FVec Ideal ⟨2, ![a, n]⟩ .f32)
    (hr : (⟨2, ![a, n]⟩ : Shape).Reduces [1] (⟨1, ![a]⟩ : Shape)) (hφ : FKind.Formats FTy.f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, n]⟩) :
    mulf p (broadcastTo ⟨2, ![a, n]⟩
        (divf (broadcast ⟨2, ![a, 1]⟩ (Scalar.ofBits (F := Ideal) .f32 0x3F800000#32))
          (maximumf (sqrt (shapeCast ⟨2, ![a, 1]⟩ (multiReduction .add [1] ⟨1, ![a]⟩ (mulf p p) 0x00000000#32 hr hφ hacc) hc))
            (broadcast ⟨2, ![a, 1]⟩ (Scalar.ofBits (F := Ideal) .f32 0x2B8CBCCC#32)))) hb)
      = normRows p := by
  funext i
  obtain ⟨r, k, rfl⟩ : ∃ (r : Fin a) (k : Fin n), i = ix2 r k := ⟨i 0, i 1, eq_ix2 i⟩
  rw [normRows_ix2, mulf_apply, Cert.ColumnBroadcast.broadcastTo_a1_ab_apply]
  show p (ix2 r k) * Ideal.div (Ideal.ofBits .f32 0x3F800000#32)
      (max (Ideal.sqrt (shapeCast ⟨2, ![a, 1]⟩ (multiReduction .add [1] ⟨1, ![a]⟩ (mulf p p) 0x00000000#32 hr hφ hacc) hc (ix2 r (0 : Fin 1))))
        (Ideal.ofBits .f32 0x2B8CBCCC#32)) = _
  rw [Cert.ChebRows.shapeCast_a_a1_apply, Cert.ChebRows.multiReduction_add_row, mul_one_div _ _ (floored_ne_zero _)]
  rfl

/-- The host's spelling: the sum of squares from a zero start given a unit axis, its root floored, the column broadcast
    along the lanes and divided by. -/
theorem host_norm {a n : ℕ} (p : FVec Ideal ⟨2, ![a, n]⟩ .f32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (h1 : (⟨1, ![a]⟩ : Shape).BroadcastsInDim ⟨2, ![a, 1]⟩ ![0]) (h0 : (⟨0, ![]⟩ : Shape).BroadcastsInDim ⟨2, ![a, 1]⟩ ![])
    (h2 : (⟨2, ![a, 1]⟩ : Shape).BroadcastsInDim ⟨2, ![a, n]⟩ ![0, 1]) :
    Host.divf (F := Ideal) p (broadcastInDim ⟨2, ![a, n]⟩ ![0, 1] h2
        (maximumf (Host.sqrt (F := Ideal) (broadcastInDim ⟨2, ![a, 1]⟩ ![0] h1
            (Host.reduceAdd (F := Ideal) (mulf p p) (constant (F := Ideal) ⟨0, ![]⟩ .f32 0x00000000#32) h' hu)))
          (broadcastInDim ⟨2, ![a, 1]⟩ ![] h0 (constant (F := Ideal) ⟨0, ![]⟩ .f32 0x2B8CBCCC#32))))
      = normRows p := by
  funext i
  obtain ⟨r, k, rfl⟩ : ∃ (r : Fin a) (k : Fin n), i = ix2 r k := ⟨i 0, i 1, eq_ix2 i⟩
  rw [normRows_ix2]
  show Ideal.div (p (ix2 r k)) (broadcastInDim ⟨2, ![a, n]⟩ ![0, 1] h2
        (maximumf (Host.sqrt (F := Ideal) (broadcastInDim ⟨2, ![a, 1]⟩ ![0] h1
            (Host.reduceAdd (F := Ideal) (mulf p p) (constant (F := Ideal) ⟨0, ![]⟩ .f32 0x00000000#32) h' hu)))
          (broadcastInDim ⟨2, ![a, 1]⟩ ![] h0 (constant (F := Ideal) ⟨0, ![]⟩ .f32 0x2B8CBCCC#32))) (ix2 r k)) = _
  rw [Cert.ChebRows.lanes_host_apply _ h2 r k]
  show Ideal.div (p (ix2 r k))
      (max (Ideal.sqrt (broadcastInDim ⟨2, ![a, 1]⟩ ![0] h1
          (Host.reduceAdd (F := Ideal) (mulf p p) (constant (F := Ideal) ⟨0, ![]⟩ .f32 0x00000000#32) h' hu) (ix2 r (0 : Fin 1))))
        (Ideal.ofBits .f32 0x2B8CBCCC#32)) = _
  rw [Cert.ChebRows.column_host_apply, Cert.ChebRows.hostReduceAdd_row _ _ h' hr hu]
  show Ideal.div _ (max (Ideal.sqrt (Ideal.ofBits .f32 0x00000000#32 + _)) _) = _
  rw [Ideal.ofBits_zero_f32, zero_add]
  rfl

/-- The leaky rectifier entry by entry, in the device's spelling. -/
theorem device_leaky {s : Shape} (x : FVec Ideal s .f32) :
    select (cmpf .oge x (broadcast s (Scalar.ofBits (F := Ideal) .f32 0x00000000#32))) x
        (mulf (broadcast s (Scalar.ofBits (F := Ideal) .f32 0x3C23D70A#32)) x)
      = fun i => leakyE (x i) := rfl

/-- The leaky rectifier entry by entry, in the host's spelling. -/
theorem host_leaky {s : Shape} (x : FVec Ideal s .f32) (h0 : (⟨0, ![]⟩ : Shape).BroadcastsInDim s ![]) :
    select (cmpf .oge x (broadcastInDim s ![] h0 (constant (F := Ideal) ⟨0, ![]⟩ .f32 0x00000000#32))) x
        (mulf (broadcastInDim s ![] h0 (constant (F := Ideal) ⟨0, ![]⟩ .f32 0x3C23D70A#32)) x)
      = fun i => leakyE (x i) := rfl

/-- The host's dense layer is the row-wise one. -/
theorem host_dense {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32) (bias : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1]) (h2 : (⟨2, ![1, b]⟩ : Shape).BroadcastsInDim ⟨2, ![a, b]⟩ ![0, 1]) :
    addf (Host.dotGeneral (F := Ideal) d none x w) (broadcastInDim ⟨2, ![a, b]⟩ ![0, 1] h2 (broadcastInDim ⟨2, ![1, b]⟩ ![1] h1 bias))
      = denseRows x w (shapeCast ⟨2, ![1, b]⟩ bias hc) := by
  funext i
  obtain ⟨r, q, rfl⟩ : ∃ (r : Fin a) (q : Fin b), i = ix2 r q := ⟨i 0, i 1, eq_ix2 i⟩
  rw [denseRows_ix2, shapeCast_a_1a_apply bias hc 0 q]
  exact congrFun (rowOf_dense_host H none x w bias h1 h2 r) q

/-- The host's product with no bias is the row-wise dense layer with a zero bias row. -/
theorem host_project {a K b : ℕ} {d : DotDims ⟨2, ![a, K]⟩ ⟨2, ![K, b]⟩ ⟨2, ![a, b]⟩} (H : RowsTimesCols d)
    (x : FVec Ideal ⟨2, ![a, K]⟩ .f32) (w : FVec Ideal ⟨2, ![K, b]⟩ .f32)
    (hc : (⟨1, ![b]⟩ : Shape).ShapeCasts ⟨2, ![1, b]⟩) (h0 : (⟨0, ![]⟩ : Shape).BroadcastsInDim ⟨1, ![b]⟩ ![]) :
    Host.dotGeneral (F := Ideal) d none x w
      = denseRows x w (shapeCast ⟨2, ![1, b]⟩ (broadcastInDim ⟨1, ![b]⟩ ![] h0 (constant (F := Ideal) ⟨0, ![]⟩ .f32 0x00000000#32)) hc) := by
  funext i
  obtain ⟨r, q, rfl⟩ : ∃ (r : Fin a) (q : Fin b), i = ix2 r q := ⟨i 0, i 1, eq_ix2 i⟩
  rw [denseRows_ix2, shapeCast_a_1a_apply _ hc 0 q]
  show _ = _ + Ideal.ofBits .f32 0x00000000#32
  rw [Ideal.ofBits_zero_f32, add_zero]
  exact congrFun (rowOf_dotGeneral H none x w r) q

/-- The head row by row: normalize, the hidden dense layer rectified, the output dense layer. -/
def headRows {a K J b : ℕ} (p : (⟨2, ![a, K]⟩ : Shape).Idx → EReal) (w2 : (⟨2, ![K, J]⟩ : Shape).Idx → EReal)
    (b2 : (⟨2, ![1, J]⟩ : Shape).Idx → EReal) (w3 : (⟨2, ![J, b]⟩ : Shape).Idx → EReal) (b3 : (⟨2, ![1, b]⟩ : Shape).Idx → EReal) :
    (⟨2, ![a, b]⟩ : Shape).Idx → EReal :=
  denseRows (fun i => leakyE (denseRows (normRows p) w2 b2 i)) w3 b3

end Cert.Head

end
-- ==== Proof.Tiles5.lean ====
/-
  The head's region: one point, every window its whole array. The point's write-back is the head (normalize, hidden
  layer, output layer) of the whole arrays the region finds, and its one block is the whole result array.
-/
import proofs.«163835_j58025008168970_1_alg».proof.Proof.Gen.KernelIdeal.Frame
import proofs.«163835_j58025008168970_1_alg».proof.Proof.LibRowBlocks
import proofs.«163835_j58025008168970_1_alg».proof.Proof.LibRowNormalize
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles5

open Cert.KernelIdeal Cert.KernelIdeal.Gen Cert.Layers Cert.RowLayers Cert.Head

variable (V : (c : Dev nD) → (b : Ref sig .tc) → Buf (Elt Ideal) ((c : Thread nD τ).loc b))

theorem hz : (![0, 0] : Fin 2 → Nat) = fun _ => 0 := funext fun a => by fin_cases a <;> rfl

/-- The hidden layer's product: rows times columns. -/
theorem rtcHidden : RowsTimesCols dot_S256x128_S128x128_S256x128_1_0_0_1_n_n where
  rank := rfl
  size := rfl
  lhs0 j q := by simp [DotDims.lhsIdx, dot_S256x128_S128x128_S256x128_1_0_0_1_n_n]; rfl
  lhs1 j q := by simp [DotDims.lhsIdx, dot_S256x128_S128x128_S256x128_1_0_0_1_n_n]; rfl
  rhs0 j q := by simp [DotDims.rhsIdx, dot_S256x128_S128x128_S256x128_1_0_0_1_n_n]; rfl
  rhs1 j q := by simp [DotDims.rhsIdx, dot_S256x128_S128x128_S256x128_1_0_0_1_n_n]; rfl

/-- The output layer's product: rows times columns. -/
theorem rtcOut : RowsTimesCols dot_S256x128_S128x32_S256x32_1_0_0_1_n_n where
  rank := rfl
  size := rfl
  lhs0 j q := by simp [DotDims.lhsIdx, dot_S256x128_S128x32_S256x32_1_0_0_1_n_n]; rfl
  lhs1 j q := by simp [DotDims.lhsIdx, dot_S256x128_S128x32_S256x32_1_0_0_1_n_n]; rfl
  rhs0 j q := by simp [DotDims.rhsIdx, dot_S256x128_S128x32_S256x32_1_0_0_1_n_n]; rfl
  rhs1 j q := by simp [DotDims.rhsIdx, dot_S256x128_S128x32_S256x32_1_0_0_1_n_n]; rfl

/-- The body's arithmetic is the head of its loaded arrays. -/
theorem pay_eq (x0 : Vec Ideal S256x128 .f32) (x1 : Vec Ideal S128x128 .f32) (x2 : Vec Ideal S1x128 .f32)
    (x3 : Vec Ideal S128x32 .f32) (x4 : Vec Ideal S1x32 .f32) :
    k5_pay1 (F := Ideal) x0 x1 x2 x3 x4 = headRows x0 x1 x2 x3 x4 := by
  have e1 := device_norm x0 Facts₀.reduces_S256x128_S256 (.inl rfl) rfl Facts₀.shapeCasts_S256_S256x1 Facts₀.broadcasts_S256x1_S256x128
  have e2 := fun z => device_dense rtcHidden z x1 x2 Facts₀.bitsLt_bf16_f32 Facts₀.broadcasts_S1x128_S256x128
  have e3 := fun z => device_dense rtcOut z x3 x4 Facts₀.bitsLt_bf16_f32 Facts₀.broadcasts_S1x32_S256x32
  unfold k5_pay1 headRows
  simp only [shapeCast_self]
  rw [e1, e2, device_leaky, e3]

/-- Every window's block index is zero on both axes at the one point. -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

theorem iblk_p (c : Dev nD) (t : Fin cfg5.N) : (iblk5 V c 0 t : Vec Ideal S256x128 .f32) = V c main_v79 := by
  obtain ⟨e0, e1, -⟩ := idx_facts t
  funext y
  unfold iblk5
  rw [View.read_apply]
  show V c main_v79 _ = V c main_v79 y
  congr 1
  funext a
  apply Fin.ext
  match a with
  | ⟨0, _⟩ => show win5_0.index t 0 * 256 + 1 * (y 0).val = (y 0).val; rw [e0]; omega
  | ⟨1, _⟩ => show win5_0.index t 1 * 128 + 1 * (y 1).val = (y 1).val; rw [e1]; omega

theorem iblk_w2 (c : Dev nD) (t : Fin cfg5.N) : (iblk5 V c 1 t : Vec Ideal S128x128 .f32) = V c main_arg9 := by
  obtain ⟨-, -, e0, e1, -⟩ := idx_facts t
  funext y
  unfold iblk5
  rw [View.read_apply]
  show V c main_arg9 _ = V c main_arg9 y
  congr 1
  funext a
  apply Fin.ext
  match a with
  | ⟨0, _⟩ => show win5_1.index t 0 * 128 + 1 * (y 0).val = (y 0).val; rw [e0]; omega
  | ⟨1, _⟩ => show win5_1.index t 1 * 128 + 1 * (y 1).val = (y 1).val; rw [e1]; omega

theorem iblk_b2 (c : Dev nD) (t : Fin cfg5.N) : (iblk5 V c 2 t : Vec Ideal S1x128 .f32) = V c main_v80 := by
  obtain ⟨-, -, -, -, e0, e1, -⟩ := idx_facts t
  funext y
  unfold iblk5
  rw [View.read_apply]
  show V c main_v80 _ = V c main_v80 y
  congr 1
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

theorem iblk_w3 (c : Dev nD) (t : Fin cfg5.N) : (iblk5 V c 3 t : Vec Ideal S128x32 .f32) = V c main_arg11 := by
  obtain ⟨-, -, -, -, -, -, e0, e1, -⟩ := idx_facts t
  funext y
  unfold iblk5
  rw [View.read_apply]
  show V c main_arg11 _ = V c main_arg11 y
  congr 1
  funext a
  apply Fin.ext
  match a with
  | ⟨0, _⟩ => show win5_3.index t 0 * 128 + 1 * (y 0).val = (y 0).val; rw [e0]; omega
  | ⟨1, _⟩ => show win5_3.index t 1 * 32 + 1 * (y 1).val = (y 1).val; rw [e1]; omega

theorem iblk_b3 (c : Dev nD) (t : Fin cfg5.N) : (iblk5 V c 4 t : Vec Ideal S1x32 .f32) = V c main_v81 := by
  obtain ⟨-, -, -, -, -, -, -, -, e0, e1, -⟩ := idx_facts t
  funext y
  unfold iblk5
  rw [View.read_apply]
  show V c main_v81 _ = V c main_v81 y
  congr 1
  funext a
  apply Fin.ext
  match a with
  | ⟨0, _⟩ => show win5_4.index t 0 * 1 + 1 * (y 0).val = (y 0).val; rw [e0]; omega
  | ⟨1, _⟩ => show win5_4.index t 1 * 32 + 1 * (y 1).val = (y 1).val; rw [e1]; omega

/-- WHAT THE POINT WRITES BACK is the head of the arrays the region finds, read through the whole-array block. -/
theorem flushed_eq (c : Dev nD) (t : Fin cfg5.N) :
    (dat5 V c).flushed 5 t
      = ((cfg5.win 5).blk t).view.read (Elt Ideal)
          (headRows (V c main_v79) (V c main_arg9) (V c main_v80) (V c main_arg11) (V c main_v81)) := by
  show (cfg5.win 5).cut (grid5.coords t) ((dat5 V c).after 5 t) = _
  rw [after5_5]
  unfold out5_5
  rw [View.canon_unit_zero hz]
  simp only [View.ld_unit_zero (S := S256x128) hz, View.ld_unit_zero (S := S128x128) hz, View.ld_unit_zero (S := S1x128) hz,
    View.ld_unit_zero (S := S128x32) hz, View.ld_unit_zero (S := S1x32) hz]
  rw [pay_eq, iblk_p, iblk_w2, iblk_b2, iblk_w3, iblk_b3]
  obtain ⟨-, -, -, -, -, -, -, -, -, -, e0, e1⟩ := idx_facts t
  refine funext fun (j : S256x32.Idx) => ?_
  show headRows (V c main_v79) (V c main_arg9) (V c main_v80) (V c main_arg11) (V c main_v81) j
    = headRows (V c main_v79) (V c main_arg9) (V c main_v80) (V c main_arg11) (V c main_v81) (((cfg5.win 5).blk t).view.emb j)
  congr 1
  funext a
  apply Fin.ext
  match a with
  | ⟨0, _⟩ => show (j 0).val = win5_5.index t 0 * 256 + 1 * (j 0).val; rw [e0]; omega
  | ⟨1, _⟩ => show (j 1).val = win5_5.index t 1 * 32 + 1 * (j 1).val; rw [e1]; omega

theorem mem_blk (t : Fin cfg5.N) (i : S256x32.Idx) :
    i ∈ ((cfg5.win 5).blk t).view.set ↔ ∀ a : Fin 2, win5_5.index t a * S256x32.size a ≤ (i a).val ∧ (i a).val < win5_5.index t a * S256x32.size a + S256x32.size a := by
  show i ∈ ((View.whole main_v82).slice (win5_5.rect t)).set ↔ _
  rw [View.set_slice_whole, Rect.mem_set_unit]
  exact Iff.rfl

/-- The one block is the whole result array. -/
theorem cover (i : S256x32.Idx) : ∃ t : Fin cfg5.N, (cfg5.win 5).flush t = true ∧ i ∈ ((cfg5.win 5).blk t).view.set := by
  have hi0 : (i 0).val < 256 := (i 0).isLt
  have hi1 : (i 1).val < 32 := (i 1).isLt
  refine ⟨t5_0, flush5_5 _, ?_⟩
  rw [mem_blk]
  obtain ⟨-, -, -, -, -, -, -, -, -, -, e0, e1⟩ := idx_facts t5_0
  intro a
  match a with
  | ⟨0, _⟩ =>
    show win5_5.index _ 0 * 256 ≤ (i 0).val ∧ (i 0).val < win5_5.index _ 0 * 256 + 256
    rw [e0]; omega
  | ⟨1, _⟩ =>
    show win5_5.index _ 1 * 32 ≤ (i 1).val ∧ (i 1).val < win5_5.index _ 1 * 32 + 32
    rw [e1]; omega

/-- THE RESULT ARRAY after the region: the head of the arrays the region finds. -/
theorem final (c : Dev nD) :
    (dat5 V c).arrAt 5 cfg5.N = headRows (V c main_v79) (V c main_arg9) (V c main_v80) (V c main_arg11) (V c main_v81) :=
  (dat5 V c).arrAt_eq_of_cover 5 _ (fun t _ => flushed_eq V c t) cover

end Cert.KernelIdeal.Tiles5

end
-- ==== Proof.Bridge.lean ====
/-
  The network's stages, as the reference spells them with whole-array host operations, ARE the row-wise functions the
  device's blocks compute: a dense layer is `denseRows` (with the bias vector viewed as a one-row array, or a zero row
  where there is no bias), the graph layer's rectified combination is `actRows` (the per-node factor viewed as a
  column), and the head is `headRows`.
-/
import proofs.«163835_j58025008168970_1_alg».proof.Proof.Network
import proofs.«163835_j58025008168970_1_alg».proof.Proof.LibRowBlocks
import proofs.«163835_j58025008168970_1_alg».proof.Proof.LibRowNormalize

noncomputable section

namespace Cert.Bridge

open Idealize.ShloMosaic Idealize.ShloMosaic.ValueIdx Cert.RowLayers Cert.Layers Cert.Head
open Cert.ReferenceIdeal Cert.ReferenceIdeal.Facts₀

variable [Cert.ReferenceIdeal.Facts]

/-- The node features' product: rows times columns. -/
theorem rtcNodes : RowsTimesCols dot_S50000x128_S128x128_S50000x128_1_0_0_1_n_n where
  rank := rfl
  size := rfl
  lhs0 j q := by simp [DotDims.lhsIdx, dot_S50000x128_S128x128_S50000x128_1_0_0_1_n_n]; rfl
  lhs1 j q := by simp [DotDims.lhsIdx, dot_S50000x128_S128x128_S50000x128_1_0_0_1_n_n]; rfl
  rhs0 j q := by simp [DotDims.rhsIdx, dot_S50000x128_S128x128_S50000x128_1_0_0_1_n_n]; rfl
  rhs1 j q := by simp [DotDims.rhsIdx, dot_S50000x128_S128x128_S50000x128_1_0_0_1_n_n]; rfl

/-- The hidden layer's product: rows times columns. -/
theorem rtcHidden : RowsTimesCols dot_S256x128_S128x128_S256x128_1_0_0_1_n_n where
  rank := rfl
  size := rfl
  lhs0 j q := by simp [DotDims.lhsIdx, dot_S256x128_S128x128_S256x128_1_0_0_1_n_n]; rfl
  lhs1 j q := by simp [DotDims.lhsIdx, dot_S256x128_S128x128_S256x128_1_0_0_1_n_n]; rfl
  rhs0 j q := by simp [DotDims.rhsIdx, dot_S256x128_S128x128_S256x128_1_0_0_1_n_n]; rfl
  rhs1 j q := by simp [DotDims.rhsIdx, dot_S256x128_S128x128_S256x128_1_0_0_1_n_n]; rfl

/-- The output layer's product: rows times columns. -/
theorem rtcOut : RowsTimesCols dot_S256x128_S128x32_S256x32_1_0_0_1_n_n where
  rank := rfl
  size := rfl
  lhs0 j q := by simp [DotDims.lhsIdx, dot_S256x128_S128x32_S256x32_1_0_0_1_n_n]; rfl
  lhs1 j q := by simp [DotDims.lhsIdx, dot_S256x128_S128x32_S256x32_1_0_0_1_n_n]; rfl
  rhs0 j q := by simp [DotDims.rhsIdx, dot_S256x128_S128x32_S256x32_1_0_0_1_n_n]; rfl
  rhs1 j q := by simp [DotDims.rhsIdx, dot_S256x128_S128x32_S256x32_1_0_0_1_n_n]; rfl

/-- The dense layer on the node features is the row-wise one, the bias as a one-row array. -/
theorem linear_eq (x : Cert.Gnn.FArr S50000x128) (w : Cert.Gnn.FArr S128x128) (b : Cert.Gnn.FArr S128)
    (hc : S128.ShapeCasts S1x128) : Cert.Gnn.linear x w b = denseRows x w (shapeCast S1x128 b hc) :=
  host_dense rtcNodes x w b hc bcast_S128_S1x128_1 bcast_S1x128_S50000x128_0_1

/-- The projection with no bias is the row-wise dense layer with a zero bias row. -/
theorem project_eq (x : Cert.Gnn.FArr S50000x128) (w : Cert.Gnn.FArr S128x128)
    (hc : S128.ShapeCasts S1x128) (h0 : S_.BroadcastsInDim S128 ![]) :
    Cert.Gnn.project x w
      = denseRows x w (shapeCast S1x128 (broadcastInDim S128 ![] h0 (constant (F := Ideal) S_ .f32 0x00000000#32)) hc) :=
  host_project rtcNodes x w hc h0

/-- The rectified combination is the entry-wise one, the per-node factor as a column and the bias as a one-row array. -/
theorem act_eq (agg ht : Cert.Gnn.FArr S50000x128) (invdeg : Cert.Gnn.FArr S50000) (b : Cert.Gnn.FArr S128)
    (h1 : S50000.ShapeCasts S50000x1) (h2 : S128.ShapeCasts S1x128) :
    Cert.Gnn.leakyNodes (Cert.Gnn.combine agg ht invdeg b)
      = actRows agg ht (shapeCast S50000x1 invdeg h1) (shapeCast S1x128 b h2) := by
  funext i
  obtain ⟨r, q, rfl⟩ : ∃ (r : Fin 50000) (q : Fin 128), i = ix2 r q := ⟨i 0, i 1, eq_ix2 i⟩
  rw [actRows_ix2, Cert.ChebRows.shapeCast_a_a1_apply invdeg h1 r 0, shapeCast_a_1a_apply b h2 0 q]
  have hs : broadcastInDim S50000x128 ![0, 1] bcast_S50000x1_S50000x128_0_1
      (broadcastInDim S50000x1 ![0] bcast_S50000_S50000x1_0 invdeg) (ix2 r q) = invdeg (ix1 r) :=
    (Cert.ChebRows.lanes_host_apply _ bcast_S50000x1_S50000x128_0_1 r q).trans
      (Cert.ChebRows.column_host_apply invdeg bcast_S50000_S50000x1_0 r 0)
  have hb : Cert.Gnn.biasRows b (ix2 r q) = b (ix1 q) :=
    congrFun (rowOf_broadcastInDim_vec b bcast_S128_S1x128_1 bcast_S1x128_S50000x128_0_1 r) q
  unfold Cert.Gnn.leakyNodes Cert.Gnn.combine
  simp only [select_apply, cmpf_apply, mulf_apply, addf_apply, hs, hb]
  rfl

/-- The head is the row-wise one, the two bias vectors as one-row arrays. -/
theorem head_eq (p : Cert.Gnn.FArr S256x128) (w2 : Cert.Gnn.FArr S128x128) (b2 : Cert.Gnn.FArr S128)
    (w3 : Cert.Gnn.FArr S128x32) (b3 : Cert.Gnn.FArr S32)
    (hc2 : S128.ShapeCasts S1x128) (hc3 : S32.ShapeCasts S1x32) (hr : S256x128.Reduces [1] S256) :
    Cert.Gnn.head p w2 b2 w3 b3 = headRows p w2 (shapeCast S1x128 b2 hc2) w3 (shapeCast S1x32 b3 hc3) := by
  unfold Cert.Gnn.head Cert.Gnn.readout Cert.Gnn.hidden Cert.Gnn.normalized Cert.Gnn.rowNorm Cert.Gnn.leakyGraphs headRows
  rw [host_norm p reducesTo_S256x128_S256_d1 hr h_S_ bcast_S256_S256x1_0 bcast_S_S256x1 bcast_S256x1_S256x128_0_1,
    host_dense rtcHidden _ w2 b2 hc2, host_leaky, host_dense rtcOut _ w3 b3 hc3]

end Cert.Bridge

end
-- ==== Proof.KernelValue.lean ====
/-
  The idealized kernel program's result is the network of the argument arrays.

  The run's result buffer holds what the last region's write-backs leave, from the buffer contents at that region's
  entry; those come from the host operations before it applied to the contents at the previous region's exit; and so
  on back to the launch memory. Walking forward from the launch: the first stretch of host operations computes the edge
  list's rows, the degrees and the edge weights; each dense region leaves the row-wise dense layer of what it finds,
  which is the reference's dense layer (or its bias-free projection, the bias row being zero); each combination region
  leaves the rectified combination, which is the reference's graph layer; the last stretch computes the per-graph
  mean, and the last region leaves the head. A value computed at one stage is read unchanged at a later one because
  no stretch or region in between writes its buffer.
-/
import proofs.«163835_j58025008168970_1_alg».proof.Proof.KernelRun
import proofs.«163835_j58025008168970_1_alg».proof.Proof.Carry
import proofs.«163835_j58025008168970_1_alg».proof.Proof.HostReads
import proofs.«163835_j58025008168970_1_alg».proof.Proof.Tiles0
import proofs.«163835_j58025008168970_1_alg».proof.Proof.Tiles1
import proofs.«163835_j58025008168970_1_alg».proof.Proof.Tiles2
import proofs.«163835_j58025008168970_1_alg».proof.Proof.Tiles3
import proofs.«163835_j58025008168970_1_alg».proof.Proof.Tiles4
import proofs.«163835_j58025008168970_1_alg».proof.Proof.Tiles5
import proofs.«163835_j58025008168970_1_alg».proof.Proof.Bridge

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.KernelIdeal.Carry Cert.KernelIdeal.HostReads Cert.Layers Cert.Head

variable (m : (ℓ : Loc nD τ sig) → Buf (Elt Ideal) ℓ) (ρ : Dev nD → PrngReg) (c : Dev nD)

/-- Reads a buffer back through the stretches and regions that do not write it. -/
macro "carry" : tactic =>
  `(tactic| simp (disch := decide) only [keep5, keep4, keep3, keep2, keep1, keep0, skip5, skip4, skip3, skip2, skip1, skip0])

/-! ## The network's intermediate values, of the launch memory -/

abbrev srcV : Cert.Gnn.IArr Cert.ReferenceIdeal.S600000 := Cert.Gnn.srcOf (m ((c : Thread nD τ).loc main_arg1))
abbrev dstV : Cert.Gnn.IArr Cert.ReferenceIdeal.S600000 := Cert.Gnn.dstOf (m ((c : Thread nD τ).loc main_arg1))
abbrev idgV : Cert.Gnn.FArr Cert.ReferenceIdeal.S50000 := Cert.Gnn.invDegOf (Cert.Gnn.degOf (dstV m c))
abbrev coefV : Cert.Gnn.FArr Cert.ReferenceIdeal.S600000 :=
  Cert.Gnn.coefOf (Cert.Gnn.invSqrtOf (Cert.Gnn.degOf (dstV m c))) (srcV m c) (dstV m c)
abbrev h0V : Cert.Gnn.FArr Cert.ReferenceIdeal.S50000x128 := Cert.Gnn.linear (m ((c : Thread nD τ).loc main_arg0)) (m ((c : Thread nD τ).loc main_arg3)) (m ((c : Thread nD τ).loc main_arg4))
abbrev h1V : Cert.Gnn.FArr Cert.ReferenceIdeal.S50000x128 :=
  Cert.Gnn.layer (h0V m c) (m ((c : Thread nD τ).loc main_arg5)) (m ((c : Thread nD τ).loc main_arg6)) (coefV m c) (srcV m c) (dstV m c) (idgV m c)
abbrev h2V : Cert.Gnn.FArr Cert.ReferenceIdeal.S50000x128 :=
  Cert.Gnn.layer (h1V m c) (m ((c : Thread nD τ).loc main_arg7)) (m ((c : Thread nD τ).loc main_arg8)) (coefV m c) (srcV m c) (dstV m c) (idgV m c)
abbrev pV : Cert.Gnn.FArr Cert.ReferenceIdeal.S256x128 := Cert.Gnn.pooled (h2V m c) (m ((c : Thread nD τ).loc main_arg2))

/-! ## Region 0's entry: after the first stretch -/

theorem at1_src : W1 m ρ c (Proc.devRef .tc main_v1) = srcV m c := read0_src (W0 m ρ c)
theorem at1_dst : W1 m ρ c (Proc.devRef .tc main_v3) = dstV m c := read0_dst (W0 m ρ c)
theorem at1_idg : W1 m ρ c (Proc.devRef .tc main_v12) = idgV m c := read0_invdeg (W0 m ρ c)
theorem at1_coef : W1 m ρ c (Proc.devRef .tc main_v27) = coefV m c := read0_coef (W0 m ρ c)
theorem at1_bias : W1 m ρ c (Proc.devRef .tc main_v28) = shapeCast S1x128 (m ((c : Thread nD τ).loc main_arg4)) Facts₀.shapeCasts_S128_S1x128 := read0_bias (W0 m ρ c)
theorem at1_x : W1 m ρ c (Proc.devRef .tc main_arg0) = (m ((c : Thread nD τ).loc main_arg0)) := by carry
theorem at1_w : W1 m ρ c (Proc.devRef .tc main_arg3) = (m ((c : Thread nD τ).loc main_arg3)) := by carry

/-! ## Region 0 leaves the first dense layer -/

theorem at2_h0 : W2 m ρ c (Proc.devRef .tc main_v29) = h0V m c :=
  (W2_arr m ρ c 3).trans ((Cert.KernelIdeal.Tiles0.final (V1 m ρ) c).trans (by
    show denseRows (W1 m ρ c (Proc.devRef .tc main_arg0) : S50000x128.Idx → EReal) (W1 m ρ c (Proc.devRef .tc main_arg3) : S128x128.Idx → EReal)
        (W1 m ρ c (Proc.devRef .tc main_v28) : S1x128.Idx → EReal) = _
    rw [at1_x, at1_w, at1_bias]
    exact (Cert.Bridge.linear_eq _ _ _ _).symm))

/-! ## Region 1's entry and what it leaves: the first layer's projection -/

theorem at3_h0 : W3 m ρ c (Proc.devRef .tc main_v29) = h0V m c := by carry; exact at2_h0 m ρ c
theorem at3_w : W3 m ρ c (Proc.devRef .tc main_arg5) = (m ((c : Thread nD τ).loc main_arg5)) := by carry
theorem at3_zero : W3 m ρ c (Proc.devRef .tc main_v31)
    = shapeCast S1x128 (broadcastInDim S128 ![] Facts₀.bcast_S_S128 (constant (F := Ideal) S_ .f32 0x00000000#32)) Facts₀.shapeCasts_S128_S1x128 :=
  read1_zero (W2 m ρ c)

theorem at4_ht : W4 m ρ c (Proc.devRef .tc main_v32) = Cert.Gnn.project (h0V m c) (m ((c : Thread nD τ).loc main_arg5)) :=
  (W4_arr m ρ c 3).trans ((Cert.KernelIdeal.Tiles1.final (V3 m ρ) c).trans (by
    show denseRows (W3 m ρ c (Proc.devRef .tc main_v29) : S50000x128.Idx → EReal) (W3 m ρ c (Proc.devRef .tc main_arg5) : S128x128.Idx → EReal)
        (W3 m ρ c (Proc.devRef .tc main_v31) : S1x128.Idx → EReal) = _
    rw [at3_h0, at3_w, at3_zero]
    exact (Cert.Bridge.project_eq _ _ _ _).symm))

/-! ## Region 2's entry and what it leaves: the first graph layer -/

theorem at4_src : W4 m ρ c (Proc.devRef .tc main_v1) = srcV m c := by carry; exact at1_src m ρ c
theorem at4_dst : W4 m ρ c (Proc.devRef .tc main_v3) = dstV m c := by carry; exact at1_dst m ρ c
theorem at4_idg : W4 m ρ c (Proc.devRef .tc main_v12) = idgV m c := by carry; exact at1_idg m ρ c
theorem at4_coef : W4 m ρ c (Proc.devRef .tc main_v27) = coefV m c := by carry; exact at1_coef m ρ c
theorem at4_b : W4 m ρ c (Proc.devRef .tc main_arg6) = (m ((c : Thread nD τ).loc main_arg6)) := by carry

theorem at5_agg : W5 m ρ c (Proc.devRef .tc main_v45)
    = Cert.Gnn.aggregate (Cert.Gnn.project (h0V m c) (m ((c : Thread nD τ).loc main_arg5))) (coefV m c) (srcV m c) (dstV m c) :=
  (read2_agg (W4 m ρ c)).trans (by rw [at4_ht, at4_coef, at4_src, at4_dst])
theorem at5_ht : W5 m ρ c (Proc.devRef .tc main_v32) = Cert.Gnn.project (h0V m c) (m ((c : Thread nD τ).loc main_arg5)) := by carry; exact at4_ht m ρ c
theorem at5_factor : W5 m ρ c (Proc.devRef .tc main_v46) = shapeCast S50000x1 (idgV m c) Facts₀.shapeCasts_S50000_S50000x1 :=
  (read2_factor (W4 m ρ c)).trans (by rw [at4_idg])
theorem at5_bias : W5 m ρ c (Proc.devRef .tc main_v47) = shapeCast S1x128 (m ((c : Thread nD τ).loc main_arg6)) Facts₀.shapeCasts_S128_S1x128 :=
  (read2_bias (W4 m ρ c)).trans (by rw [at4_b])

theorem at6_h1 : W6 m ρ c (Proc.devRef .tc main_v48) = h1V m c :=
  (W6_arr m ρ c 4).trans ((Cert.KernelIdeal.Tiles2.final (V5 m ρ) c).trans (by
    show actRows (W5 m ρ c (Proc.devRef .tc main_v45) : S50000x128.Idx → EReal) (W5 m ρ c (Proc.devRef .tc main_v32) : S50000x128.Idx → EReal)
        (W5 m ρ c (Proc.devRef .tc main_v46) : S50000x1.Idx → EReal) (W5 m ρ c (Proc.devRef .tc main_v47) : S1x128.Idx → EReal) = _
    rw [at5_agg, at5_ht, at5_factor, at5_bias]
    exact (Cert.Bridge.act_eq _ _ _ _ _ _).symm))

/-! ## Region 3's entry and what it leaves: the second layer's projection -/

theorem at7_h1 : W7 m ρ c (Proc.devRef .tc main_v48) = h1V m c := by carry; exact at6_h1 m ρ c
theorem at7_w : W7 m ρ c (Proc.devRef .tc main_arg7) = (m ((c : Thread nD τ).loc main_arg7)) := by carry
theorem at7_zero : W7 m ρ c (Proc.devRef .tc main_v50)
    = shapeCast S1x128 (broadcastInDim S128 ![] Facts₀.bcast_S_S128 (constant (F := Ideal) S_ .f32 0x00000000#32)) Facts₀.shapeCasts_S128_S1x128 :=
  read3_zero (W6 m ρ c)

theorem at8_ht : W8 m ρ c (Proc.devRef .tc main_v51) = Cert.Gnn.project (h1V m c) (m ((c : Thread nD τ).loc main_arg7)) :=
  (W8_arr m ρ c 3).trans ((Cert.KernelIdeal.Tiles3.final (V7 m ρ) c).trans (by
    show denseRows (W7 m ρ c (Proc.devRef .tc main_v48) : S50000x128.Idx → EReal) (W7 m ρ c (Proc.devRef .tc main_arg7) : S128x128.Idx → EReal)
        (W7 m ρ c (Proc.devRef .tc main_v50) : S1x128.Idx → EReal) = _
    rw [at7_h1, at7_w, at7_zero]
    exact (Cert.Bridge.project_eq _ _ _ _).symm))

/-! ## Region 4's entry and what it leaves: the second graph layer -/

theorem at8_src : W8 m ρ c (Proc.devRef .tc main_v1) = srcV m c := by carry; exact at1_src m ρ c
theorem at8_dst : W8 m ρ c (Proc.devRef .tc main_v3) = dstV m c := by carry; exact at1_dst m ρ c
theorem at8_idg : W8 m ρ c (Proc.devRef .tc main_v12) = idgV m c := by carry; exact at1_idg m ρ c
theorem at8_coef : W8 m ρ c (Proc.devRef .tc main_v27) = coefV m c := by carry; exact at1_coef m ρ c
theorem at8_b : W8 m ρ c (Proc.devRef .tc main_arg8) = (m ((c : Thread nD τ).loc main_arg8)) := by carry

theorem at9_agg : W9 m ρ c (Proc.devRef .tc main_v64)
    = Cert.Gnn.aggregate (Cert.Gnn.project (h1V m c) (m ((c : Thread nD τ).loc main_arg7))) (coefV m c) (srcV m c) (dstV m c) :=
  (read4_agg (W8 m ρ c)).trans (by rw [at8_ht, at8_coef, at8_src, at8_dst])
theorem at9_ht : W9 m ρ c (Proc.devRef .tc main_v51) = Cert.Gnn.project (h1V m c) (m ((c : Thread nD τ).loc main_arg7)) := by carry; exact at8_ht m ρ c
theorem at9_factor : W9 m ρ c (Proc.devRef .tc main_v65) = shapeCast S50000x1 (idgV m c) Facts₀.shapeCasts_S50000_S50000x1 :=
  (read4_factor (W8 m ρ c)).trans (by rw [at8_idg])
theorem at9_bias : W9 m ρ c (Proc.devRef .tc main_v66) = shapeCast S1x128 (m ((c : Thread nD τ).loc main_arg8)) Facts₀.shapeCasts_S128_S1x128 :=
  (read4_bias (W8 m ρ c)).trans (by rw [at8_b])

theorem at10_h2 : W10 m ρ c (Proc.devRef .tc main_v67) = h2V m c :=
  (W10_arr m ρ c 4).trans ((Cert.KernelIdeal.Tiles4.final (V9 m ρ) c).trans (by
    show actRows (W9 m ρ c (Proc.devRef .tc main_v64) : S50000x128.Idx → EReal) (W9 m ρ c (Proc.devRef .tc main_v51) : S50000x128.Idx → EReal)
        (W9 m ρ c (Proc.devRef .tc main_v65) : S50000x1.Idx → EReal) (W9 m ρ c (Proc.devRef .tc main_v66) : S1x128.Idx → EReal) = _
    rw [at9_agg, at9_ht, at9_factor, at9_bias]
    exact (Cert.Bridge.act_eq _ _ _ _ _ _).symm))

/-! ## Region 5's entry and what it leaves: the per-graph mean, then the head -/

theorem at10_batch : W10 m ρ c (Proc.devRef .tc main_arg2) = (m ((c : Thread nD τ).loc main_arg2)) := by carry
theorem at10_b2 : W10 m ρ c (Proc.devRef .tc main_arg10) = (m ((c : Thread nD τ).loc main_arg10)) := by carry
theorem at10_b3 : W10 m ρ c (Proc.devRef .tc main_arg12) = (m ((c : Thread nD τ).loc main_arg12)) := by carry

theorem at11_p : W11 m ρ c (Proc.devRef .tc main_v79) = pV m c :=
  (read5_pooled (W10 m ρ c)).trans (by rw [at10_h2, at10_batch])
theorem at11_w2 : W11 m ρ c (Proc.devRef .tc main_arg9) = (m ((c : Thread nD τ).loc main_arg9)) := by carry
theorem at11_w3 : W11 m ρ c (Proc.devRef .tc main_arg11) = (m ((c : Thread nD τ).loc main_arg11)) := by carry
theorem at11_b2 : W11 m ρ c (Proc.devRef .tc main_v80) = shapeCast S1x128 (m ((c : Thread nD τ).loc main_arg10)) Facts₀.shapeCasts_S128_S1x128 :=
  (read5_bias2 (W10 m ρ c)).trans (by rw [at10_b2])
theorem at11_b3 : W11 m ρ c (Proc.devRef .tc main_v81) = shapeCast S1x32 (m ((c : Thread nD τ).loc main_arg12)) Facts₀.shapeCasts_S32_S1x32 :=
  (read5_bias3 (W10 m ρ c)).trans (by rw [at10_b3])

/-- THE RESULT BUFFER after the run: the network of the argument arrays. -/
theorem result_eq : W12 m ρ c (Proc.devRef .tc main_v82)
    = Cert.Gnn.out (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) :=
  (W12_arr m ρ c 5).trans ((Cert.KernelIdeal.Tiles5.final (V11 m ρ) c).trans (by
    show headRows (W11 m ρ c (Proc.devRef .tc main_v79) : S256x128.Idx → EReal) (W11 m ρ c (Proc.devRef .tc main_arg9) : S128x128.Idx → EReal)
        (W11 m ρ c (Proc.devRef .tc main_v80) : S1x128.Idx → EReal) (W11 m ρ c (Proc.devRef .tc main_arg11) : S128x32.Idx → EReal)
        (W11 m ρ c (Proc.devRef .tc main_v81) : S1x32.Idx → EReal) = _
    rw [at11_p, at11_w2, at11_b2, at11_w3, at11_b3]
    exact (Cert.Bridge.head_eq _ _ _ _ _ _ _ Facts₀.reduces_S256x128_S256).symm))

/-- The run, read: the result at the network of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v82)
        = Cert.Gnn.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c => ⟨(h c).1.trans (result_eq m ρ c), (h c).2⟩)
    (Cert.KernelIdeal.HandRun.run_main m ρ)

end Cert.KernelIdeal.Value

end
-- ==== Proof.ReferenceRun.lean ====
/-
  The reference program's run, read back: its @main is one straight line of host operations (the three calls of
  the leaky rectifier spelt out at their call sites), so every weakly fair execution ends with each buffer at the
  fold of the operations over the launch contents; read stage by stage that fold is the network of Network.lean.
-/
import proofs.«163835_j58025008168970_1_alg».proof.ReferenceIdeal
import proofs.«163835_j58025008168970_1_alg».proof.Proof.Network
import Idealize.ShloMosaic.Lib.StableHlo.Run

noncomputable section

namespace Cert.ReferenceIdeal.HandRun

open Idealize.ShloMosaic Idealize.ShloMosaic.StableHlo Idealize.ShloMosaic.TcCoe Idealize.SL.Sem
open Cert.ReferenceIdeal Cert.ReferenceIdeal.Facts₀

variable {F : FTy → Type} [FloatOps F] [Cert.ReferenceIdeal.Facts]

/-- @main's operations in order, the rectifier's seven spelt out at each of its three calls. -/
abbrev ops : List (HloOp τ sig (Elt F)) :=
  [
    unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v11 main_v9 main_v12 (Host.divf : (⟨S50000, .f32⟩ : BufTy).Contents (Elt F) → (⟨S50000, .f32⟩ : BufTy).Contents (Elt F) → (⟨S50000, .f32⟩ : BufTy).Contents (Elt F)),
    binary main_arg0 main_arg3 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)),
    binary main_v16 main_arg5 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v18 (broadcastInDim S600000 ![] bcast_S_S600000 : (⟨S_, .i32⟩ : BufTy).Contents (Elt F) → (⟨S600000, .i32⟩ : BufTy).Contents (Elt F)),
    binary main_v1 main_v18 main_v19 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v20 (broadcastInDim S600000 ![] bcast_S_S600000 : (⟨S_, .i32⟩ : BufTy).Contents (Elt F) → (⟨S600000, .i32⟩ : BufTy).Contents (Elt F)),
    binary main_v1 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v1 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_v10 main_v23 main_v24 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_4 (constantI S_ 32 0#32),
    unary main_c_4 main_v25 (broadcastInDim S600000 ![] bcast_S_S600000 : (⟨S_, .i32⟩ : BufTy).Contents (Elt F) → (⟨S600000, .i32⟩ : BufTy).Contents (Elt F)),
    binary main_v3 main_v25 main_v26 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v27 (broadcastInDim S600000 ![] bcast_S_S600000 : (⟨S_, .i32⟩ : BufTy).Contents (Elt F) → (⟨S600000, .i32⟩ : BufTy).Contents (Elt F)),
    binary main_v3 main_v27 main_v28 (addi : (⟨S600000, .i32⟩ : BufTy).Contents (Elt F) → (⟨S600000, .i32⟩ : BufTy).Contents (Elt F) → (⟨S600000, .i32⟩ : BufTy).Contents (Elt F)),
    ternary main_v26 main_v28 main_v3 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v29 main_v30 (broadcastInDim S600000x1 ![0] bcast_S600000_S600000x1_0 : (⟨S600000, .i32⟩ : BufTy).Contents (Elt F) → (⟨S600000x1, .i32⟩ : BufTy).Contents (Elt F)),
    binary main_v10 main_v30 main_v31 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v24 main_v31 main_v32 (mulf : (⟨S600000, .f32⟩ : BufTy).Contents (Elt F) → (⟨S600000, .f32⟩ : BufTy).Contents (Elt F) → (⟨S600000, .f32⟩ : BufTy).Contents (Elt F)),
    nullary main_c_6 (constantI S_ 32 0#32),
    unary main_c_6 main_v33 (broadcastInDim S600000 ![] bcast_S_S600000 : (⟨S_, .i32⟩ : BufTy).Contents (Elt F) → (⟨S600000, .i32⟩ : BufTy).Contents (Elt F)),
    binary main_v1 main_v33 main_v34 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v35 (broadcastInDim S600000 ![] bcast_S_S600000 : (⟨S_, .i32⟩ : BufTy).Contents (Elt F) → (⟨S600000, .i32⟩ : BufTy).Contents (Elt F)),
    binary main_v1 main_v35 main_v36 (addi : (⟨S600000, .i32⟩ : BufTy).Contents (Elt F) → (⟨S600000, .i32⟩ : BufTy).Contents (Elt F) → (⟨S600000, .i32⟩ : BufTy).Contents (Elt F)),
    ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v37 main_v38 (broadcastInDim S600000x1 ![0] bcast_S600000_S600000x1_0 : (⟨S600000, .i32⟩ : BufTy).Contents (Elt F) → (⟨S600000x1, .i32⟩ : BufTy).Contents (Elt F)),
    binary main_v17 main_v38 main_v39 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v32 main_v40 (broadcastInDim S600000x1 ![0] bcast_S600000_S600000x1_0 : (⟨S600000, .f32⟩ : BufTy).Contents (Elt F) → (⟨S600000x1, .f32⟩ : BufTy).Contents (Elt F)),
    unary main_v40 main_v41 (broadcastInDim S600000x128 ![0, 1] bcast_S600000x1_S600000x128_0_1 : (⟨S600000x1, .f32⟩ : BufTy).Contents (Elt F) → (⟨S600000x128, .f32⟩ : BufTy).Contents (Elt F)),
    binary main_v39 main_v41 main_v42 (mulf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v3 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v17 main_v47 main_v48 (mulf : (⟨S50000x128, .f32⟩ : BufTy).Contents (Elt F) → (⟨S50000x128, .f32⟩ : BufTy).Contents (Elt F) → (⟨S50000x128, .f32⟩ : BufTy).Contents (Elt F)),
    binary main_v45 main_v48 main_v49 (addf : (⟨S50000x128, .f32⟩ : BufTy).Contents (Elt F) → (⟨S50000x128, .f32⟩ : BufTy).Contents (Elt F) → (⟨S50000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3C23D70A#32),
    TRef.nullary main_call0.cst (constant S_ .f32 0x00000000#32),
    TRef.unary main_call0.cst main_call0.v0 (broadcastInDim S50000x128 ![] bcast_S_S50000x128),
    TRef.binary (.of main_v52) main_call0.v0 main_call0.v1 (cmpf .oge),
    TRef.unary (.of main_cst_9) main_call0.v2 id,
    TRef.unary main_call0.v2 main_call0.v3 (broadcastInDim S50000x128 ![] bcast_S_S50000x128),
    TRef.binary main_call0.v3 (.of main_v52) main_call0.v4 mulf,
    TRef.ternary main_call0.v1 (.of main_v52) main_call0.v4 main_call0.call0.v0 select,
    binary main_v53 main_arg7 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v55 (broadcastInDim S600000 ![] bcast_S_S600000 : (⟨S_, .i32⟩ : BufTy).Contents (Elt F) → (⟨S600000, .i32⟩ : BufTy).Contents (Elt F)),
    binary main_v1 main_v55 main_v56 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v57 (broadcastInDim S600000 ![] bcast_S_S600000 : (⟨S_, .i32⟩ : BufTy).Contents (Elt F) → (⟨S600000, .i32⟩ : BufTy).Contents (Elt F)),
    binary main_v1 main_v57 main_v58 (addi : (⟨S600000, .i32⟩ : BufTy).Contents (Elt F) → (⟨S600000, .i32⟩ : BufTy).Contents (Elt F) → (⟨S600000, .i32⟩ : BufTy).Contents (Elt F)),
    ternary main_v56 main_v58 main_v1 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v59 main_v60 (broadcastInDim S600000x1 ![0] bcast_S600000_S600000x1_0 : (⟨S600000, .i32⟩ : BufTy).Contents (Elt F) → (⟨S600000x1, .i32⟩ : BufTy).Contents (Elt F)),
    binary main_v10 main_v60 main_v61 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_12 (constantI S_ 32 0#32),
    unary main_c_12 main_v62 (broadcastInDim S600000 ![] bcast_S_S600000 : (⟨S_, .i32⟩ : BufTy).Contents (Elt F) → (⟨S600000, .i32⟩ : BufTy).Contents (Elt F)),
    binary main_v3 main_v62 main_v63 (cmpi .slt : (⟨S600000, .i32⟩ : BufTy).Contents (Elt F) → (⟨S600000, .i32⟩ : BufTy).Contents (Elt F) → (⟨S600000, .i1⟩ : BufTy).Contents (Elt F)),
    nullary main_c_13 (constantI S_ 32 50000#32),
    unary main_c_13 main_v64 (broadcastInDim S600000 ![] bcast_S_S600000 : (⟨S_, .i32⟩ : BufTy).Contents (Elt F) → (⟨S600000, .i32⟩ : BufTy).Contents (Elt F)),
    binary main_v3 main_v64 main_v65 (addi : (⟨S600000, .i32⟩ : BufTy).Contents (Elt F) → (⟨S600000, .i32⟩ : BufTy).Contents (Elt F) → (⟨S600000, .i32⟩ : BufTy).Contents (Elt F)),
    ternary main_v63 main_v65 main_v3 main_v66 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v66 main_v67 (broadcastInDim S600000x1 ![0] bcast_S600000_S600000x1_0 : (⟨S600000, .i32⟩ : BufTy).Contents (Elt F) → (⟨S600000x1, .i32⟩ : BufTy).Contents (Elt F)),
    binary main_v10 main_v67 main_v68 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v61 main_v68 main_v69 (mulf : (⟨S600000, .f32⟩ : BufTy).Contents (Elt F) → (⟨S600000, .f32⟩ : BufTy).Contents (Elt F) → (⟨S600000, .f32⟩ : BufTy).Contents (Elt F)),
    nullary main_c_14 (constantI S_ 32 0#32),
    unary main_c_14 main_v70 (broadcastInDim S600000 ![] bcast_S_S600000 : (⟨S_, .i32⟩ : BufTy).Contents (Elt F) → (⟨S600000, .i32⟩ : BufTy).Contents (Elt F)),
    binary main_v1 main_v70 main_v71 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v72 (broadcastInDim S600000 ![] bcast_S_S600000 : (⟨S_, .i32⟩ : BufTy).Contents (Elt F) → (⟨S600000, .i32⟩ : BufTy).Contents (Elt F)),
    binary main_v1 main_v72 main_v73 (addi : (⟨S600000, .i32⟩ : BufTy).Contents (Elt F) → (⟨S600000, .i32⟩ : BufTy).Contents (Elt F) → (⟨S600000, .i32⟩ : BufTy).Contents (Elt F)),
    ternary main_v71 main_v73 main_v1 main_v74 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v74 main_v75 (broadcastInDim S600000x1 ![0] bcast_S600000_S600000x1_0 : (⟨S600000, .i32⟩ : BufTy).Contents (Elt F) → (⟨S600000x1, .i32⟩ : BufTy).Contents (Elt F)),
    binary main_v54 main_v75 main_v76 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v69 main_v77 (broadcastInDim S600000x1 ![0] bcast_S600000_S600000x1_0 : (⟨S600000, .f32⟩ : BufTy).Contents (Elt F) → (⟨S600000x1, .f32⟩ : BufTy).Contents (Elt F)),
    unary main_v77 main_v78 (broadcastInDim S600000x128 ![0, 1] bcast_S600000x1_S600000x128_0_1 : (⟨S600000x1, .f32⟩ : BufTy).Contents (Elt F) → (⟨S600000x128, .f32⟩ : BufTy).Contents (Elt F)),
    binary main_v76 main_v78 main_v79 (mulf : (⟨S600000x128, .f32⟩ : BufTy).Contents (Elt F) → (⟨S600000x128, .f32⟩ : BufTy).Contents (Elt F) → (⟨S600000x128, .f32⟩ : BufTy).Contents (Elt F)),
    nullary main_cst_16 (constant S_ .f32 0x00000000#32),
    unary main_cst_16 main_v80 (broadcastInDim S50000x128 ![] bcast_S_S50000x128 : (⟨S_, .f32⟩ : BufTy).Contents (Elt F) → (⟨S50000x128, .f32⟩ : BufTy).Contents (Elt F)),
    unary main_v3 main_v81 (broadcastInDim S600000x1 ![0] bcast_S600000_S600000x1_0 : (⟨S600000, .i32⟩ : BufTy).Contents (Elt F) → (⟨S600000x1, .i32⟩ : BufTy).Contents (Elt F)),
    ternary main_v80 main_v81 main_v79 main_v82 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v83 (broadcastInDim S50000x1 ![0] bcast_S50000_S50000x1_0 : (⟨S50000, .f32⟩ : BufTy).Contents (Elt F) → (⟨S50000x1, .f32⟩ : BufTy).Contents (Elt F)),
    unary main_v83 main_v84 (broadcastInDim S50000x128 ![0, 1] bcast_S50000x1_S50000x128_0_1 : (⟨S50000x1, .f32⟩ : BufTy).Contents (Elt F) → (⟨S50000x128, .f32⟩ : BufTy).Contents (Elt F)),
    binary main_v54 main_v84 main_v85 (mulf : (⟨S50000x128, .f32⟩ : BufTy).Contents (Elt F) → (⟨S50000x128, .f32⟩ : BufTy).Contents (Elt F) → (⟨S50000x128, .f32⟩ : BufTy).Contents (Elt F)),
    binary main_v82 main_v85 main_v86 (addf : (⟨S50000x128, .f32⟩ : BufTy).Contents (Elt F) → (⟨S50000x128, .f32⟩ : BufTy).Contents (Elt F) → (⟨S50000x128, .f32⟩ : BufTy).Contents (Elt F)),
    unary main_arg8 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3C23D70A#32),
    TRef.nullary main_call1.cst (constant S_ .f32 0x00000000#32),
    TRef.unary main_call1.cst main_call1.v0 (broadcastInDim S50000x128 ![] bcast_S_S50000x128),
    TRef.binary (.of main_v89) main_call1.v0 main_call1.v1 (cmpf .oge),
    TRef.unary (.of main_cst_17) main_call1.v2 id,
    TRef.unary main_call1.v2 main_call1.v3 (broadcastInDim S50000x128 ![] bcast_S_S50000x128),
    TRef.binary main_call1.v3 (.of main_v89) main_call1.v4 mulf,
    TRef.ternary main_call1.v1 (.of main_v89) main_call1.v4 main_call1.call0.v0 select,
    nullary main_cst_18 (constant S_ .f32 0x00000000#32),
    unary main_cst_18 main_v91 (broadcastInDim S256x128 ![] bcast_S_S256x128 : (⟨S_, .f32⟩ : BufTy).Contents (Elt F) → (⟨S256x128, .f32⟩ : BufTy).Contents (Elt F)),
    unary main_arg2 main_v92 (broadcastInDim S50000x1 ![0] bcast_S50000_S50000x1_0 : (⟨S50000, .i32⟩ : BufTy).Contents (Elt F) → (⟨S50000x1, .i32⟩ : BufTy).Contents (Elt F)),
    ternary main_v91 main_v92 main_v90 main_v93 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    nullary main_cst_19 (constant S_ .f32 0x3F800000#32),
    unary main_cst_19 main_v94 (broadcastInDim S50000 ![] bcast_S_S50000 : (⟨S_, .f32⟩ : BufTy).Contents (Elt F) → (⟨S50000, .f32⟩ : BufTy).Contents (Elt F)),
    nullary main_cst_20 (constant S_ .f32 0x00000000#32),
    unary main_cst_20 main_v95 (broadcastInDim S256 ![] bcast_S_S256 : (⟨S_, .f32⟩ : BufTy).Contents (Elt F) → (⟨S256, .f32⟩ : BufTy).Contents (Elt F)),
    unary main_arg2 main_v96 (broadcastInDim S50000x1 ![0] bcast_S50000_S50000x1_0 : (⟨S50000, .i32⟩ : BufTy).Contents (Elt F) → (⟨S50000x1, .i32⟩ : BufTy).Contents (Elt F)),
    ternary main_v95 main_v96 main_v94 main_v97 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_21 (constant S_ .f32 0x3F800000#32),
    unary main_cst_21 main_v98 (broadcastInDim S256 ![] bcast_S_S256 : (⟨S_, .f32⟩ : BufTy).Contents (Elt F) → (⟨S256, .f32⟩ : BufTy).Contents (Elt F)),
    binary main_v97 main_v98 main_v99 (maximumf : (⟨S256, .f32⟩ : BufTy).Contents (Elt F) → (⟨S256, .f32⟩ : BufTy).Contents (Elt F) → (⟨S256, .f32⟩ : BufTy).Contents (Elt F)),
    unary main_v99 main_v100 (broadcastInDim S256x1 ![0] bcast_S256_S256x1_0 : (⟨S256, .f32⟩ : BufTy).Contents (Elt F) → (⟨S256x1, .f32⟩ : BufTy).Contents (Elt F)),
    unary main_v100 main_v101 (broadcastInDim S256x128 ![0, 1] bcast_S256x1_S256x128_0_1 : (⟨S256x1, .f32⟩ : BufTy).Contents (Elt F) → (⟨S256x128, .f32⟩ : BufTy).Contents (Elt F)),
    binary main_v93 main_v101 main_v102 (Host.divf : (⟨S256x128, .f32⟩ : BufTy).Contents (Elt F) → (⟨S256x128, .f32⟩ : BufTy).Contents (Elt F) → (⟨S256x128, .f32⟩ : BufTy).Contents (Elt F)),
    binary main_v102 main_v102 main_v103 (mulf : (⟨S256x128, .f32⟩ : BufTy).Contents (Elt F) → (⟨S256x128, .f32⟩ : BufTy).Contents (Elt F) → (⟨S256x128, .f32⟩ : BufTy).Contents (Elt F)),
    nullary main_cst_22 (constant S_ .f32 0x00000000#32),
    binary main_v103 main_cst_22 main_v104 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v104 main_v105 (broadcastInDim S256x1 ![0] bcast_S256_S256x1_0 : (⟨S256, .f32⟩ : BufTy).Contents (Elt F) → (⟨S256x1, .f32⟩ : BufTy).Contents (Elt F)),
    unary main_v105 main_v106 (Host.sqrt : (⟨S256x1, .f32⟩ : BufTy).Contents (Elt F) → (⟨S256x1, .f32⟩ : BufTy).Contents (Elt F)),
    nullary main_cst_23 (constant S_ .f32 0x2B8CBCCC#32),
    unary main_cst_23 main_v107 (broadcastInDim S256x1 ![] bcast_S_S256x1 : (⟨S_, .f32⟩ : BufTy).Contents (Elt F) → (⟨S256x1, .f32⟩ : BufTy).Contents (Elt F)),
    binary main_v106 main_v107 main_v108 (maximumf : (⟨S256x1, .f32⟩ : BufTy).Contents (Elt F) → (⟨S256x1, .f32⟩ : BufTy).Contents (Elt F) → (⟨S256x1, .f32⟩ : BufTy).Contents (Elt F)),
    unary main_v108 main_v109 (broadcastInDim S256x128 ![0, 1] bcast_S256x1_S256x128_0_1 : (⟨S256x1, .f32⟩ : BufTy).Contents (Elt F) → (⟨S256x128, .f32⟩ : BufTy).Contents (Elt F)),
    binary main_v102 main_v109 main_v110 (Host.divf : (⟨S256x128, .f32⟩ : BufTy).Contents (Elt F) → (⟨S256x128, .f32⟩ : BufTy).Contents (Elt F) → (⟨S256x128, .f32⟩ : BufTy).Contents (Elt F)),
    binary main_v110 main_arg9 main_v111 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg10 main_v112 (broadcastInDim S1x128 ![1] bcast_S128_S1x128_1 : (⟨S128, .f32⟩ : BufTy).Contents (Elt F) → (⟨S1x128, .f32⟩ : BufTy).Contents (Elt F)),
    unary main_v112 main_v113 (broadcastInDim S256x128 ![0, 1] bcast_S1x128_S256x128_0_1 : (⟨S1x128, .f32⟩ : BufTy).Contents (Elt F) → (⟨S256x128, .f32⟩ : BufTy).Contents (Elt F)),
    binary main_v111 main_v113 main_v114 (addf : (⟨S256x128, .f32⟩ : BufTy).Contents (Elt F) → (⟨S256x128, .f32⟩ : BufTy).Contents (Elt F) → (⟨S256x128, .f32⟩ : BufTy).Contents (Elt F)),
    nullary main_cst_24 (constant S_ .f32 0x3C23D70A#32),
    TRef.nullary main_call2.cst (constant S_ .f32 0x00000000#32),
    TRef.unary main_call2.cst main_call2.v0 (broadcastInDim S256x128 ![] bcast_S_S256x128),
    TRef.binary (.of main_v114) main_call2.v0 main_call2.v1 (cmpf .oge),
    TRef.unary (.of main_cst_24) main_call2.v2 id,
    TRef.unary main_call2.v2 main_call2.v3 (broadcastInDim S256x128 ![] bcast_S_S256x128),
    TRef.binary main_call2.v3 (.of main_v114) main_call2.v4 mulf,
    TRef.ternary main_call2.v1 (.of main_v114) main_call2.v4 main_call2.call0.v0 select,
    binary main_v115 main_arg11 main_v116 ((fun l r => Host.dotGeneral dot_S256x128_S128x32_S256x32_1_0_0_1_n_n none l r) : (⟨S256x128, .f32⟩ : BufTy).Contents (Elt F) → (⟨S128x32, .f32⟩ : BufTy).Contents (Elt F) → (⟨S256x32, .f32⟩ : BufTy).Contents (Elt F)),
    unary main_arg12 main_v117 (broadcastInDim S1x32 ![1] bcast_S32_S1x32_1 : (⟨S32, .f32⟩ : BufTy).Contents (Elt F) → (⟨S1x32, .f32⟩ : BufTy).Contents (Elt F)),
    unary main_v117 main_v118 (broadcastInDim S256x32 ![0, 1] bcast_S1x32_S256x32_0_1 : (⟨S1x32, .f32⟩ : BufTy).Contents (Elt F) → (⟨S256x32, .f32⟩ : BufTy).Contents (Elt F)),
    binary main_v116 main_v118 main_v119 (addf : (⟨S256x32, .f32⟩ : BufTy).Contents (Elt F) → (⟨S256x32, .f32⟩ : BufTy).Contents (Elt F) → (⟨S256x32, .f32⟩ : BufTy).Contents (Elt F)) ]

abbrev opsPrelude : List (HloOp τ sig (Elt F)) :=
  [
    unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v11 main_v9 main_v12 (Host.divf : (⟨S50000, .f32⟩ : BufTy).Contents (Elt F) → (⟨S50000, .f32⟩ : BufTy).Contents (Elt F) → (⟨S50000, .f32⟩ : BufTy).Contents (Elt F)) ]

abbrev opsDense : List (HloOp τ sig (Elt F)) :=
  [
    binary main_arg0 main_arg3 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)) ]

abbrev opsLayer1 : List (HloOp τ sig (Elt F)) :=
  [
    binary main_v16 main_arg5 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v18 (broadcastInDim S600000 ![] bcast_S_S600000 : (⟨S_, .i32⟩ : BufTy).Contents (Elt F) → (⟨S600000, .i32⟩ : BufTy).Contents (Elt F)),
    binary main_v1 main_v18 main_v19 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v20 (broadcastInDim S600000 ![] bcast_S_S600000 : (⟨S_, .i32⟩ : BufTy).Contents (Elt F) → (⟨S600000, .i32⟩ : BufTy).Contents (Elt F)),
    binary main_v1 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v1 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_v10 main_v23 main_v24 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_4 (constantI S_ 32 0#32),
    unary main_c_4 main_v25 (broadcastInDim S600000 ![] bcast_S_S600000 : (⟨S_, .i32⟩ : BufTy).Contents (Elt F) → (⟨S600000, .i32⟩ : BufTy).Contents (Elt F)),
    binary main_v3 main_v25 main_v26 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v27 (broadcastInDim S600000 ![] bcast_S_S600000 : (⟨S_, .i32⟩ : BufTy).Contents (Elt F) → (⟨S600000, .i32⟩ : BufTy).Contents (Elt F)),
    binary main_v3 main_v27 main_v28 (addi : (⟨S600000, .i32⟩ : BufTy).Contents (Elt F) → (⟨S600000, .i32⟩ : BufTy).Contents (Elt F) → (⟨S600000, .i32⟩ : BufTy).Contents (Elt F)),
    ternary main_v26 main_v28 main_v3 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v29 main_v30 (broadcastInDim S600000x1 ![0] bcast_S600000_S600000x1_0 : (⟨S600000, .i32⟩ : BufTy).Contents (Elt F) → (⟨S600000x1, .i32⟩ : BufTy).Contents (Elt F)),
    binary main_v10 main_v30 main_v31 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v24 main_v31 main_v32 (mulf : (⟨S600000, .f32⟩ : BufTy).Contents (Elt F) → (⟨S600000, .f32⟩ : BufTy).Contents (Elt F) → (⟨S600000, .f32⟩ : BufTy).Contents (Elt F)),
    nullary main_c_6 (constantI S_ 32 0#32),
    unary main_c_6 main_v33 (broadcastInDim S600000 ![] bcast_S_S600000 : (⟨S_, .i32⟩ : BufTy).Contents (Elt F) → (⟨S600000, .i32⟩ : BufTy).Contents (Elt F)),
    binary main_v1 main_v33 main_v34 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v35 (broadcastInDim S600000 ![] bcast_S_S600000 : (⟨S_, .i32⟩ : BufTy).Contents (Elt F) → (⟨S600000, .i32⟩ : BufTy).Contents (Elt F)),
    binary main_v1 main_v35 main_v36 (addi : (⟨S600000, .i32⟩ : BufTy).Contents (Elt F) → (⟨S600000, .i32⟩ : BufTy).Contents (Elt F) → (⟨S600000, .i32⟩ : BufTy).Contents (Elt F)),
    ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v37 main_v38 (broadcastInDim S600000x1 ![0] bcast_S600000_S600000x1_0 : (⟨S600000, .i32⟩ : BufTy).Contents (Elt F) → (⟨S600000x1, .i32⟩ : BufTy).Contents (Elt F)),
    binary main_v17 main_v38 main_v39 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v32 main_v40 (broadcastInDim S600000x1 ![0] bcast_S600000_S600000x1_0 : (⟨S600000, .f32⟩ : BufTy).Contents (Elt F) → (⟨S600000x1, .f32⟩ : BufTy).Contents (Elt F)),
    unary main_v40 main_v41 (broadcastInDim S600000x128 ![0, 1] bcast_S600000x1_S600000x128_0_1 : (⟨S600000x1, .f32⟩ : BufTy).Contents (Elt F) → (⟨S600000x128, .f32⟩ : BufTy).Contents (Elt F)),
    binary main_v39 main_v41 main_v42 (mulf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v3 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v17 main_v47 main_v48 (mulf : (⟨S50000x128, .f32⟩ : BufTy).Contents (Elt F) → (⟨S50000x128, .f32⟩ : BufTy).Contents (Elt F) → (⟨S50000x128, .f32⟩ : BufTy).Contents (Elt F)),
    binary main_v45 main_v48 main_v49 (addf : (⟨S50000x128, .f32⟩ : BufTy).Contents (Elt F) → (⟨S50000x128, .f32⟩ : BufTy).Contents (Elt F) → (⟨S50000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3C23D70A#32),
    TRef.nullary main_call0.cst (constant S_ .f32 0x00000000#32),
    TRef.unary main_call0.cst main_call0.v0 (broadcastInDim S50000x128 ![] bcast_S_S50000x128),
    TRef.binary (.of main_v52) main_call0.v0 main_call0.v1 (cmpf .oge),
    TRef.unary (.of main_cst_9) main_call0.v2 id,
    TRef.unary main_call0.v2 main_call0.v3 (broadcastInDim S50000x128 ![] bcast_S_S50000x128),
    TRef.binary main_call0.v3 (.of main_v52) main_call0.v4 mulf,
    TRef.ternary main_call0.v1 (.of main_v52) main_call0.v4 main_call0.call0.v0 select ]

abbrev opsLayer2 : List (HloOp τ sig (Elt F)) :=
  [
    binary main_v53 main_arg7 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v55 (broadcastInDim S600000 ![] bcast_S_S600000 : (⟨S_, .i32⟩ : BufTy).Contents (Elt F) → (⟨S600000, .i32⟩ : BufTy).Contents (Elt F)),
    binary main_v1 main_v55 main_v56 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v57 (broadcastInDim S600000 ![] bcast_S_S600000 : (⟨S_, .i32⟩ : BufTy).Contents (Elt F) → (⟨S600000, .i32⟩ : BufTy).Contents (Elt F)),
    binary main_v1 main_v57 main_v58 (addi : (⟨S600000, .i32⟩ : BufTy).Contents (Elt F) → (⟨S600000, .i32⟩ : BufTy).Contents (Elt F) → (⟨S600000, .i32⟩ : BufTy).Contents (Elt F)),
    ternary main_v56 main_v58 main_v1 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v59 main_v60 (broadcastInDim S600000x1 ![0] bcast_S600000_S600000x1_0 : (⟨S600000, .i32⟩ : BufTy).Contents (Elt F) → (⟨S600000x1, .i32⟩ : BufTy).Contents (Elt F)),
    binary main_v10 main_v60 main_v61 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_12 (constantI S_ 32 0#32),
    unary main_c_12 main_v62 (broadcastInDim S600000 ![] bcast_S_S600000 : (⟨S_, .i32⟩ : BufTy).Contents (Elt F) → (⟨S600000, .i32⟩ : BufTy).Contents (Elt F)),
    binary main_v3 main_v62 main_v63 (cmpi .slt : (⟨S600000, .i32⟩ : BufTy).Contents (Elt F) → (⟨S600000, .i32⟩ : BufTy).Contents (Elt F) → (⟨S600000, .i1⟩ : BufTy).Contents (Elt F)),
    nullary main_c_13 (constantI S_ 32 50000#32),
    unary main_c_13 main_v64 (broadcastInDim S600000 ![] bcast_S_S600000 : (⟨S_, .i32⟩ : BufTy).Contents (Elt F) → (⟨S600000, .i32⟩ : BufTy).Contents (Elt F)),
    binary main_v3 main_v64 main_v65 (addi : (⟨S600000, .i32⟩ : BufTy).Contents (Elt F) → (⟨S600000, .i32⟩ : BufTy).Contents (Elt F) → (⟨S600000, .i32⟩ : BufTy).Contents (Elt F)),
    ternary main_v63 main_v65 main_v3 main_v66 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v66 main_v67 (broadcastInDim S600000x1 ![0] bcast_S600000_S600000x1_0 : (⟨S600000, .i32⟩ : BufTy).Contents (Elt F) → (⟨S600000x1, .i32⟩ : BufTy).Contents (Elt F)),
    binary main_v10 main_v67 main_v68 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v61 main_v68 main_v69 (mulf : (⟨S600000, .f32⟩ : BufTy).Contents (Elt F) → (⟨S600000, .f32⟩ : BufTy).Contents (Elt F) → (⟨S600000, .f32⟩ : BufTy).Contents (Elt F)),
    nullary main_c_14 (constantI S_ 32 0#32),
    unary main_c_14 main_v70 (broadcastInDim S600000 ![] bcast_S_S600000 : (⟨S_, .i32⟩ : BufTy).Contents (Elt F) → (⟨S600000, .i32⟩ : BufTy).Contents (Elt F)),
    binary main_v1 main_v70 main_v71 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v72 (broadcastInDim S600000 ![] bcast_S_S600000 : (⟨S_, .i32⟩ : BufTy).Contents (Elt F) → (⟨S600000, .i32⟩ : BufTy).Contents (Elt F)),
    binary main_v1 main_v72 main_v73 (addi : (⟨S600000, .i32⟩ : BufTy).Contents (Elt F) → (⟨S600000, .i32⟩ : BufTy).Contents (Elt F) → (⟨S600000, .i32⟩ : BufTy).Contents (Elt F)),
    ternary main_v71 main_v73 main_v1 main_v74 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v74 main_v75 (broadcastInDim S600000x1 ![0] bcast_S600000_S600000x1_0 : (⟨S600000, .i32⟩ : BufTy).Contents (Elt F) → (⟨S600000x1, .i32⟩ : BufTy).Contents (Elt F)),
    binary main_v54 main_v75 main_v76 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v69 main_v77 (broadcastInDim S600000x1 ![0] bcast_S600000_S600000x1_0 : (⟨S600000, .f32⟩ : BufTy).Contents (Elt F) → (⟨S600000x1, .f32⟩ : BufTy).Contents (Elt F)),
    unary main_v77 main_v78 (broadcastInDim S600000x128 ![0, 1] bcast_S600000x1_S600000x128_0_1 : (⟨S600000x1, .f32⟩ : BufTy).Contents (Elt F) → (⟨S600000x128, .f32⟩ : BufTy).Contents (Elt F)),
    binary main_v76 main_v78 main_v79 (mulf : (⟨S600000x128, .f32⟩ : BufTy).Contents (Elt F) → (⟨S600000x128, .f32⟩ : BufTy).Contents (Elt F) → (⟨S600000x128, .f32⟩ : BufTy).Contents (Elt F)),
    nullary main_cst_16 (constant S_ .f32 0x00000000#32),
    unary main_cst_16 main_v80 (broadcastInDim S50000x128 ![] bcast_S_S50000x128 : (⟨S_, .f32⟩ : BufTy).Contents (Elt F) → (⟨S50000x128, .f32⟩ : BufTy).Contents (Elt F)),
    unary main_v3 main_v81 (broadcastInDim S600000x1 ![0] bcast_S600000_S600000x1_0 : (⟨S600000, .i32⟩ : BufTy).Contents (Elt F) → (⟨S600000x1, .i32⟩ : BufTy).Contents (Elt F)),
    ternary main_v80 main_v81 main_v79 main_v82 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v12 main_v83 (broadcastInDim S50000x1 ![0] bcast_S50000_S50000x1_0 : (⟨S50000, .f32⟩ : BufTy).Contents (Elt F) → (⟨S50000x1, .f32⟩ : BufTy).Contents (Elt F)),
    unary main_v83 main_v84 (broadcastInDim S50000x128 ![0, 1] bcast_S50000x1_S50000x128_0_1 : (⟨S50000x1, .f32⟩ : BufTy).Contents (Elt F) → (⟨S50000x128, .f32⟩ : BufTy).Contents (Elt F)),
    binary main_v54 main_v84 main_v85 (mulf : (⟨S50000x128, .f32⟩ : BufTy).Contents (Elt F) → (⟨S50000x128, .f32⟩ : BufTy).Contents (Elt F) → (⟨S50000x128, .f32⟩ : BufTy).Contents (Elt F)),
    binary main_v82 main_v85 main_v86 (addf : (⟨S50000x128, .f32⟩ : BufTy).Contents (Elt F) → (⟨S50000x128, .f32⟩ : BufTy).Contents (Elt F) → (⟨S50000x128, .f32⟩ : BufTy).Contents (Elt F)),
    unary main_arg8 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3C23D70A#32),
    TRef.nullary main_call1.cst (constant S_ .f32 0x00000000#32),
    TRef.unary main_call1.cst main_call1.v0 (broadcastInDim S50000x128 ![] bcast_S_S50000x128),
    TRef.binary (.of main_v89) main_call1.v0 main_call1.v1 (cmpf .oge),
    TRef.unary (.of main_cst_17) main_call1.v2 id,
    TRef.unary main_call1.v2 main_call1.v3 (broadcastInDim S50000x128 ![] bcast_S_S50000x128),
    TRef.binary main_call1.v3 (.of main_v89) main_call1.v4 mulf,
    TRef.ternary main_call1.v1 (.of main_v89) main_call1.v4 main_call1.call0.v0 select ]

abbrev opsPool : List (HloOp τ sig (Elt F)) :=
  [
    nullary main_cst_18 (constant S_ .f32 0x00000000#32),
    unary main_cst_18 main_v91 (broadcastInDim S256x128 ![] bcast_S_S256x128 : (⟨S_, .f32⟩ : BufTy).Contents (Elt F) → (⟨S256x128, .f32⟩ : BufTy).Contents (Elt F)),
    unary main_arg2 main_v92 (broadcastInDim S50000x1 ![0] bcast_S50000_S50000x1_0 : (⟨S50000, .i32⟩ : BufTy).Contents (Elt F) → (⟨S50000x1, .i32⟩ : BufTy).Contents (Elt F)),
    ternary main_v91 main_v92 main_v90 main_v93 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    nullary main_cst_19 (constant S_ .f32 0x3F800000#32),
    unary main_cst_19 main_v94 (broadcastInDim S50000 ![] bcast_S_S50000 : (⟨S_, .f32⟩ : BufTy).Contents (Elt F) → (⟨S50000, .f32⟩ : BufTy).Contents (Elt F)),
    nullary main_cst_20 (constant S_ .f32 0x00000000#32),
    unary main_cst_20 main_v95 (broadcastInDim S256 ![] bcast_S_S256 : (⟨S_, .f32⟩ : BufTy).Contents (Elt F) → (⟨S256, .f32⟩ : BufTy).Contents (Elt F)),
    unary main_arg2 main_v96 (broadcastInDim S50000x1 ![0] bcast_S50000_S50000x1_0 : (⟨S50000, .i32⟩ : BufTy).Contents (Elt F) → (⟨S50000x1, .i32⟩ : BufTy).Contents (Elt F)),
    ternary main_v95 main_v96 main_v94 main_v97 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_21 (constant S_ .f32 0x3F800000#32),
    unary main_cst_21 main_v98 (broadcastInDim S256 ![] bcast_S_S256 : (⟨S_, .f32⟩ : BufTy).Contents (Elt F) → (⟨S256, .f32⟩ : BufTy).Contents (Elt F)),
    binary main_v97 main_v98 main_v99 (maximumf : (⟨S256, .f32⟩ : BufTy).Contents (Elt F) → (⟨S256, .f32⟩ : BufTy).Contents (Elt F) → (⟨S256, .f32⟩ : BufTy).Contents (Elt F)),
    unary main_v99 main_v100 (broadcastInDim S256x1 ![0] bcast_S256_S256x1_0 : (⟨S256, .f32⟩ : BufTy).Contents (Elt F) → (⟨S256x1, .f32⟩ : BufTy).Contents (Elt F)),
    unary main_v100 main_v101 (broadcastInDim S256x128 ![0, 1] bcast_S256x1_S256x128_0_1 : (⟨S256x1, .f32⟩ : BufTy).Contents (Elt F) → (⟨S256x128, .f32⟩ : BufTy).Contents (Elt F)),
    binary main_v93 main_v101 main_v102 (Host.divf : (⟨S256x128, .f32⟩ : BufTy).Contents (Elt F) → (⟨S256x128, .f32⟩ : BufTy).Contents (Elt F) → (⟨S256x128, .f32⟩ : BufTy).Contents (Elt F)) ]

abbrev opsHead : List (HloOp τ sig (Elt F)) :=
  [
    binary main_v102 main_v102 main_v103 (mulf : (⟨S256x128, .f32⟩ : BufTy).Contents (Elt F) → (⟨S256x128, .f32⟩ : BufTy).Contents (Elt F) → (⟨S256x128, .f32⟩ : BufTy).Contents (Elt F)),
    nullary main_cst_22 (constant S_ .f32 0x00000000#32),
    binary main_v103 main_cst_22 main_v104 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v104 main_v105 (broadcastInDim S256x1 ![0] bcast_S256_S256x1_0 : (⟨S256, .f32⟩ : BufTy).Contents (Elt F) → (⟨S256x1, .f32⟩ : BufTy).Contents (Elt F)),
    unary main_v105 main_v106 (Host.sqrt : (⟨S256x1, .f32⟩ : BufTy).Contents (Elt F) → (⟨S256x1, .f32⟩ : BufTy).Contents (Elt F)),
    nullary main_cst_23 (constant S_ .f32 0x2B8CBCCC#32),
    unary main_cst_23 main_v107 (broadcastInDim S256x1 ![] bcast_S_S256x1 : (⟨S_, .f32⟩ : BufTy).Contents (Elt F) → (⟨S256x1, .f32⟩ : BufTy).Contents (Elt F)),
    binary main_v106 main_v107 main_v108 (maximumf : (⟨S256x1, .f32⟩ : BufTy).Contents (Elt F) → (⟨S256x1, .f32⟩ : BufTy).Contents (Elt F) → (⟨S256x1, .f32⟩ : BufTy).Contents (Elt F)),
    unary main_v108 main_v109 (broadcastInDim S256x128 ![0, 1] bcast_S256x1_S256x128_0_1 : (⟨S256x1, .f32⟩ : BufTy).Contents (Elt F) → (⟨S256x128, .f32⟩ : BufTy).Contents (Elt F)),
    binary main_v102 main_v109 main_v110 (Host.divf : (⟨S256x128, .f32⟩ : BufTy).Contents (Elt F) → (⟨S256x128, .f32⟩ : BufTy).Contents (Elt F) → (⟨S256x128, .f32⟩ : BufTy).Contents (Elt F)),
    binary main_v110 main_arg9 main_v111 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg10 main_v112 (broadcastInDim S1x128 ![1] bcast_S128_S1x128_1 : (⟨S128, .f32⟩ : BufTy).Contents (Elt F) → (⟨S1x128, .f32⟩ : BufTy).Contents (Elt F)),
    unary main_v112 main_v113 (broadcastInDim S256x128 ![0, 1] bcast_S1x128_S256x128_0_1 : (⟨S1x128, .f32⟩ : BufTy).Contents (Elt F) → (⟨S256x128, .f32⟩ : BufTy).Contents (Elt F)),
    binary main_v111 main_v113 main_v114 (addf : (⟨S256x128, .f32⟩ : BufTy).Contents (Elt F) → (⟨S256x128, .f32⟩ : BufTy).Contents (Elt F) → (⟨S256x128, .f32⟩ : BufTy).Contents (Elt F)),
    nullary main_cst_24 (constant S_ .f32 0x3C23D70A#32),
    TRef.nullary main_call2.cst (constant S_ .f32 0x00000000#32),
    TRef.unary main_call2.cst main_call2.v0 (broadcastInDim S256x128 ![] bcast_S_S256x128),
    TRef.binary (.of main_v114) main_call2.v0 main_call2.v1 (cmpf .oge),
    TRef.unary (.of main_cst_24) main_call2.v2 id,
    TRef.unary main_call2.v2 main_call2.v3 (broadcastInDim S256x128 ![] bcast_S_S256x128),
    TRef.binary main_call2.v3 (.of main_v114) main_call2.v4 mulf,
    TRef.ternary main_call2.v1 (.of main_v114) main_call2.v4 main_call2.call0.v0 select,
    binary main_v115 main_arg11 main_v116 ((fun l r => Host.dotGeneral dot_S256x128_S128x32_S256x32_1_0_0_1_n_n none l r) : (⟨S256x128, .f32⟩ : BufTy).Contents (Elt F) → (⟨S128x32, .f32⟩ : BufTy).Contents (Elt F) → (⟨S256x32, .f32⟩ : BufTy).Contents (Elt F)),
    unary main_arg12 main_v117 (broadcastInDim S1x32 ![1] bcast_S32_S1x32_1 : (⟨S32, .f32⟩ : BufTy).Contents (Elt F) → (⟨S1x32, .f32⟩ : BufTy).Contents (Elt F)),
    unary main_v117 main_v118 (broadcastInDim S256x32 ![0, 1] bcast_S1x32_S256x32_0_1 : (⟨S1x32, .f32⟩ : BufTy).Contents (Elt F) → (⟨S256x32, .f32⟩ : BufTy).Contents (Elt F)),
    binary main_v116 main_v118 main_v119 (addf : (⟨S256x32, .f32⟩ : BufTy).Contents (Elt F) → (⟨S256x32, .f32⟩ : BufTy).Contents (Elt F) → (⟨S256x32, .f32⟩ : BufTy).Contents (Elt F)) ]

/-- The line is its six stages one after the other. -/
theorem ops_split : (ops : List (HloOp τ sig (Elt F))) = opsPrelude ++ opsDense ++ opsLayer1 ++ opsLayer2 ++ opsPool ++ opsHead := rfl

/-! Each graph-convolution layer's stretch cut once more, into its five steps — the projection, the edge weights, the edge
    aggregation, the sum, the rectifier —, each read on its own below. -/

/-- The first graph-convolution layer's operations for the features times the layer's weights. -/
abbrev opsLayer1Proj : List (HloOp τ sig (Elt F)) :=
  [
    binary main_v16 main_arg5 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first graph-convolution layer's operations for the edge weights. -/
abbrev opsLayer1Coef : List (HloOp τ sig (Elt F)) :=
  [
    nullary main_c (constantI S_ 32 0#32),
    unary main_c main_v18 (broadcastInDim S600000 ![] bcast_S_S600000 : (⟨S_, .i32⟩ : BufTy).Contents (Elt F) → (⟨S600000, .i32⟩ : BufTy).Contents (Elt F)),
    binary main_v1 main_v18 main_v19 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v20 (broadcastInDim S600000 ![] bcast_S_S600000 : (⟨S_, .i32⟩ : BufTy).Contents (Elt F) → (⟨S600000, .i32⟩ : BufTy).Contents (Elt F)),
    binary main_v1 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v1 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_v10 main_v23 main_v24 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_4 (constantI S_ 32 0#32),
    unary main_c_4 main_v25 (broadcastInDim S600000 ![] bcast_S_S600000 : (⟨S_, .i32⟩ : BufTy).Contents (Elt F) → (⟨S600000, .i32⟩ : BufTy).Contents (Elt F)),
    binary main_v3 main_v25 main_v26 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v27 (broadcastInDim S600000 ![] bcast_S_S600000 : (⟨S_, .i32⟩ : BufTy).Contents (Elt F) → (⟨S600000, .i32⟩ : BufTy).Contents (Elt F)),
    binary main_v3 main_v27 main_v28 (addi : (⟨S600000, .i32⟩ : BufTy).Contents (Elt F) → (⟨S600000, .i32⟩ : BufTy).Contents (Elt F) → (⟨S600000, .i32⟩ : BufTy).Contents (Elt F)),
    ternary main_v26 main_v28 main_v3 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v29 main_v30 (broadcastInDim S600000x1 ![0] bcast_S600000_S600000x1_0 : (⟨S600000, .i32⟩ : BufTy).Contents (Elt F) → (⟨S600000x1, .i32⟩ : BufTy).Contents (Elt F)),
    binary main_v10 main_v30 main_v31 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v24 main_v31 main_v32 (mulf : (⟨S600000, .f32⟩ : BufTy).Contents (Elt F) → (⟨S600000, .f32⟩ : BufTy).Contents (Elt F) → (⟨S600000, .f32⟩ : BufTy).Contents (Elt F)) ]

/-- The first graph-convolution layer's operations for the edge aggregation. -/
abbrev opsLayer1Agg : List (HloOp τ sig (Elt F)) :=
  [
    nullary main_c_6 (constantI S_ 32 0#32),
    unary main_c_6 main_v33 (broadcastInDim S600000 ![] bcast_S_S600000 : (⟨S_, .i32⟩ : BufTy).Contents (Elt F) → (⟨S600000, .i32⟩ : BufTy).Contents (Elt F)),
    binary main_v1 main_v33 main_v34 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v35 (broadcastInDim S600000 ![] bcast_S_S600000 : (⟨S_, .i32⟩ : BufTy).Contents (Elt F) → (⟨S600000, .i32⟩ : BufTy).Contents (Elt F)),
    binary main_v1 main_v35 main_v36 (addi : (⟨S600000, .i32⟩ : BufTy).Contents (Elt F) → (⟨S600000, .i32⟩ : BufTy).Contents (Elt F) → (⟨S600000, .i32⟩ : BufTy).Contents (Elt F)),
    ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v37 main_v38 (broadcastInDim S600000x1 ![0] bcast_S600000_S600000x1_0 : (⟨S600000, .i32⟩ : BufTy).Contents (Elt F) → (⟨S600000x1, .i32⟩ : BufTy).Contents (Elt F)),
    binary main_v17 main_v38 main_v39 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v32 main_v40 (broadcastInDim S600000x1 ![0] bcast_S600000_S600000x1_0 : (⟨S600000, .f32⟩ : BufTy).Contents (Elt F) → (⟨S600000x1, .f32⟩ : BufTy).Contents (Elt F)),
    unary main_v40 main_v41 (broadcastInDim S600000x128 ![0, 1] bcast_S600000x1_S600000x128_0_1 : (⟨S600000x1, .f32⟩ : BufTy).Contents (Elt F) → (⟨S600000x128, .f32⟩ : BufTy).Contents (Elt F)),
    binary main_v39 main_v41 main_v42 (mulf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v43 (broadcastInDim S50000x128 ![] bcast_S_S50000x128 : (⟨S_, .f32⟩ : BufTy).Contents (Elt F) → (⟨S50000x128, .f32⟩ : BufTy).Contents (Elt F)),
    unary main_v3 main_v44 (broadcastInDim S600000x1 ![0] bcast_S600000_S600000x1_0 : (⟨S600000, .i32⟩ : BufTy).Contents (Elt F) → (⟨S600000x1, .i32⟩ : BufTy).Contents (Elt F)),
    ternary main_v43 main_v44 main_v42 main_v45 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The first graph-convolution layer's operations for the self-loop term and the bias added. -/
abbrev opsLayer1Comb : List (HloOp τ sig (Elt F)) :=
  [
    unary main_v12 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v17 main_v47 main_v48 (mulf : (⟨S50000x128, .f32⟩ : BufTy).Contents (Elt F) → (⟨S50000x128, .f32⟩ : BufTy).Contents (Elt F) → (⟨S50000x128, .f32⟩ : BufTy).Contents (Elt F)),
    binary main_v45 main_v48 main_v49 (addf : (⟨S50000x128, .f32⟩ : BufTy).Contents (Elt F) → (⟨S50000x128, .f32⟩ : BufTy).Contents (Elt F) → (⟨S50000x128, .f32⟩ : BufTy).Contents (Elt F)),
    unary main_arg6 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)) ]

/-- The first graph-convolution layer's operations for the leaky rectifier, its call spelt out. -/
abbrev opsLayer1Leaky : List (HloOp τ sig (Elt F)) :=
  [
    nullary main_cst_9 (constant S_ .f32 0x3C23D70A#32),
    TRef.nullary main_call0.cst (constant S_ .f32 0x00000000#32),
    TRef.unary main_call0.cst main_call0.v0 (broadcastInDim S50000x128 ![] bcast_S_S50000x128),
    TRef.binary (.of main_v52) main_call0.v0 main_call0.v1 (cmpf .oge),
    TRef.unary (.of main_cst_9) main_call0.v2 id,
    TRef.unary main_call0.v2 main_call0.v3 (broadcastInDim S50000x128 ![] bcast_S_S50000x128),
    TRef.binary main_call0.v3 (.of main_v52) main_call0.v4 mulf,
    TRef.ternary main_call0.v1 (.of main_v52) main_call0.v4 main_call0.call0.v0 select ]

theorem opsLayer1_split : (opsLayer1 : List (HloOp τ sig (Elt F))) = opsLayer1Proj ++ opsLayer1Coef ++ opsLayer1Agg ++ opsLayer1Comb ++ opsLayer1Leaky := rfl

/-- The second graph-convolution layer's operations for the features times the layer's weights. -/
abbrev opsLayer2Proj : List (HloOp τ sig (Elt F)) :=
  [
    binary main_v53 main_arg7 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second graph-convolution layer's operations for the edge weights. -/
abbrev opsLayer2Coef : List (HloOp τ sig (Elt F)) :=
  [
    nullary main_c_10 (constantI S_ 32 0#32),
    unary main_c_10 main_v55 (broadcastInDim S600000 ![] bcast_S_S600000 : (⟨S_, .i32⟩ : BufTy).Contents (Elt F) → (⟨S600000, .i32⟩ : BufTy).Contents (Elt F)),
    binary main_v1 main_v55 main_v56 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v57 (broadcastInDim S600000 ![] bcast_S_S600000 : (⟨S_, .i32⟩ : BufTy).Contents (Elt F) → (⟨S600000, .i32⟩ : BufTy).Contents (Elt F)),
    binary main_v1 main_v57 main_v58 (addi : (⟨S600000, .i32⟩ : BufTy).Contents (Elt F) → (⟨S600000, .i32⟩ : BufTy).Contents (Elt F) → (⟨S600000, .i32⟩ : BufTy).Contents (Elt F)),
    ternary main_v56 main_v58 main_v1 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v59 main_v60 (broadcastInDim S600000x1 ![0] bcast_S600000_S600000x1_0 : (⟨S600000, .i32⟩ : BufTy).Contents (Elt F) → (⟨S600000x1, .i32⟩ : BufTy).Contents (Elt F)),
    binary main_v10 main_v60 main_v61 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_12 (constantI S_ 32 0#32),
    unary main_c_12 main_v62 (broadcastInDim S600000 ![] bcast_S_S600000 : (⟨S_, .i32⟩ : BufTy).Contents (Elt F) → (⟨S600000, .i32⟩ : BufTy).Contents (Elt F)),
    binary main_v3 main_v62 main_v63 (cmpi .slt : (⟨S600000, .i32⟩ : BufTy).Contents (Elt F) → (⟨S600000, .i32⟩ : BufTy).Contents (Elt F) → (⟨S600000, .i1⟩ : BufTy).Contents (Elt F)),
    nullary main_c_13 (constantI S_ 32 50000#32),
    unary main_c_13 main_v64 (broadcastInDim S600000 ![] bcast_S_S600000 : (⟨S_, .i32⟩ : BufTy).Contents (Elt F) → (⟨S600000, .i32⟩ : BufTy).Contents (Elt F)),
    binary main_v3 main_v64 main_v65 (addi : (⟨S600000, .i32⟩ : BufTy).Contents (Elt F) → (⟨S600000, .i32⟩ : BufTy).Contents (Elt F) → (⟨S600000, .i32⟩ : BufTy).Contents (Elt F)),
    ternary main_v63 main_v65 main_v3 main_v66 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v66 main_v67 (broadcastInDim S600000x1 ![0] bcast_S600000_S600000x1_0 : (⟨S600000, .i32⟩ : BufTy).Contents (Elt F) → (⟨S600000x1, .i32⟩ : BufTy).Contents (Elt F)),
    binary main_v10 main_v67 main_v68 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v61 main_v68 main_v69 (mulf : (⟨S600000, .f32⟩ : BufTy).Contents (Elt F) → (⟨S600000, .f32⟩ : BufTy).Contents (Elt F) → (⟨S600000, .f32⟩ : BufTy).Contents (Elt F)) ]

/-- The second graph-convolution layer's operations for the edge aggregation. -/
abbrev opsLayer2Agg : List (HloOp τ sig (Elt F)) :=
  [
    nullary main_c_14 (constantI S_ 32 0#32),
    unary main_c_14 main_v70 (broadcastInDim S600000 ![] bcast_S_S600000 : (⟨S_, .i32⟩ : BufTy).Contents (Elt F) → (⟨S600000, .i32⟩ : BufTy).Contents (Elt F)),
    binary main_v1 main_v70 main_v71 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v72 (broadcastInDim S600000 ![] bcast_S_S600000 : (⟨S_, .i32⟩ : BufTy).Contents (Elt F) → (⟨S600000, .i32⟩ : BufTy).Contents (Elt F)),
    binary main_v1 main_v72 main_v73 (addi : (⟨S600000, .i32⟩ : BufTy).Contents (Elt F) → (⟨S600000, .i32⟩ : BufTy).Contents (Elt F) → (⟨S600000, .i32⟩ : BufTy).Contents (Elt F)),
    ternary main_v71 main_v73 main_v1 main_v74 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v74 main_v75 (broadcastInDim S600000x1 ![0] bcast_S600000_S600000x1_0 : (⟨S600000, .i32⟩ : BufTy).Contents (Elt F) → (⟨S600000x1, .i32⟩ : BufTy).Contents (Elt F)),
    binary main_v54 main_v75 main_v76 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v69 main_v77 (broadcastInDim S600000x1 ![0] bcast_S600000_S600000x1_0 : (⟨S600000, .f32⟩ : BufTy).Contents (Elt F) → (⟨S600000x1, .f32⟩ : BufTy).Contents (Elt F)),
    unary main_v77 main_v78 (broadcastInDim S600000x128 ![0, 1] bcast_S600000x1_S600000x128_0_1 : (⟨S600000x1, .f32⟩ : BufTy).Contents (Elt F) → (⟨S600000x128, .f32⟩ : BufTy).Contents (Elt F)),
    binary main_v76 main_v78 main_v79 (mulf : (⟨S600000x128, .f32⟩ : BufTy).Contents (Elt F) → (⟨S600000x128, .f32⟩ : BufTy).Contents (Elt F) → (⟨S600000x128, .f32⟩ : BufTy).Contents (Elt F)),
    nullary main_cst_16 (constant S_ .f32 0x00000000#32),
    unary main_cst_16 main_v80 (broadcastInDim S50000x128 ![] bcast_S_S50000x128 : (⟨S_, .f32⟩ : BufTy).Contents (Elt F) → (⟨S50000x128, .f32⟩ : BufTy).Contents (Elt F)),
    unary main_v3 main_v81 (broadcastInDim S600000x1 ![0] bcast_S600000_S600000x1_0 : (⟨S600000, .i32⟩ : BufTy).Contents (Elt F) → (⟨S600000x1, .i32⟩ : BufTy).Contents (Elt F)),
    ternary main_v80 main_v81 main_v79 main_v82 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The second graph-convolution layer's operations for the self-loop term and the bias added. -/
abbrev opsLayer2Comb : List (HloOp τ sig (Elt F)) :=
  [
    unary main_v12 main_v83 (broadcastInDim S50000x1 ![0] bcast_S50000_S50000x1_0 : (⟨S50000, .f32⟩ : BufTy).Contents (Elt F) → (⟨S50000x1, .f32⟩ : BufTy).Contents (Elt F)),
    unary main_v83 main_v84 (broadcastInDim S50000x128 ![0, 1] bcast_S50000x1_S50000x128_0_1 : (⟨S50000x1, .f32⟩ : BufTy).Contents (Elt F) → (⟨S50000x128, .f32⟩ : BufTy).Contents (Elt F)),
    binary main_v54 main_v84 main_v85 (mulf : (⟨S50000x128, .f32⟩ : BufTy).Contents (Elt F) → (⟨S50000x128, .f32⟩ : BufTy).Contents (Elt F) → (⟨S50000x128, .f32⟩ : BufTy).Contents (Elt F)),
    binary main_v82 main_v85 main_v86 (addf : (⟨S50000x128, .f32⟩ : BufTy).Contents (Elt F) → (⟨S50000x128, .f32⟩ : BufTy).Contents (Elt F) → (⟨S50000x128, .f32⟩ : BufTy).Contents (Elt F)),
    unary main_arg8 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (addf : (⟨S50000x128, .f32⟩ : BufTy).Contents (Elt F) → (⟨S50000x128, .f32⟩ : BufTy).Contents (Elt F) → (⟨S50000x128, .f32⟩ : BufTy).Contents (Elt F)) ]

/-- The second graph-convolution layer's operations for the leaky rectifier, its call spelt out. -/
abbrev opsLayer2Leaky : List (HloOp τ sig (Elt F)) :=
  [
    nullary main_cst_17 (constant S_ .f32 0x3C23D70A#32),
    TRef.nullary main_call1.cst (constant S_ .f32 0x00000000#32),
    TRef.unary main_call1.cst main_call1.v0 (broadcastInDim S50000x128 ![] bcast_S_S50000x128),
    TRef.binary (.of main_v89) main_call1.v0 main_call1.v1 (cmpf .oge),
    TRef.unary (.of main_cst_17) main_call1.v2 id,
    TRef.unary main_call1.v2 main_call1.v3 (broadcastInDim S50000x128 ![] bcast_S_S50000x128),
    TRef.binary main_call1.v3 (.of main_v89) main_call1.v4 mulf,
    TRef.ternary main_call1.v1 (.of main_v89) main_call1.v4 main_call1.call0.v0 select ]

theorem opsLayer2_split : (opsLayer2 : List (HloOp τ sig (Elt F))) = opsLayer2Proj ++ opsLayer2Coef ++ opsLayer2Agg ++ opsLayer2Comb ++ opsLayer2Leaky := rfl

set_option maxRecDepth 4096 in
/-- @main is that straight line. -/
theorem main_eq (c : Dev nD) : main (F := F) c = seq ops := by
  simp only [main, main_part0, main_part1, main_part2, fn_leaky_relu.body, fn_leaky_relu_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Two lines one after the other fold as the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers written while computing the edge list's rows, the degrees and their two powers. -/
def wrPrelude : List (Ref sig .tc) := [main_v0, main_v1, main_v2, main_v3, main_cst, main_v4, main_cst_0, main_v5, main_v6, main_v7, main_cst_1, main_v8, main_v9, main_v10, main_cst_2, main_v11, main_v12]

/-- Every operation of that line writes among them. -/
theorem hWPrelude : (opsPrelude : List (HloOp τ sig (Elt F))).Forall fun op => op.writes ⊆ ((wrPrelude).map (Proc.devRef (τ := τ) .tc)).toFinset := by
  simp only [opsPrelude, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through that stretch. -/
theorem keepPrelude (W : Valuation τ sig (Elt F)) (r : Ref sig .tc) (hr : r ∉ wrPrelude) :
    after opsPrelude W (no_index (Proc.devRef .tc r)) = W (Proc.devRef .tc r) :=
  after_of_writes_sub opsPrelude W hWPrelude hr

/-- The buffers written while computing the first dense layer. -/
def wrDense : List (Ref sig .tc) := [main_v13, main_v14, main_v15, main_v16]

/-- Every operation of that line writes among them. -/
theorem hWDense : (opsDense : List (HloOp τ sig (Elt F))).Forall fun op => op.writes ⊆ ((wrDense).map (Proc.devRef (τ := τ) .tc)).toFinset := by
  simp only [opsDense, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through that stretch. -/
theorem keepDense (W : Valuation τ sig (Elt F)) (r : Ref sig .tc) (hr : r ∉ wrDense) :
    after opsDense W (no_index (Proc.devRef .tc r)) = W (Proc.devRef .tc r) :=
  after_of_writes_sub opsDense W hWDense hr

/-- The buffers written while computing the first graph-convolution layer. -/
def wrLayer1 : List (Ref sig .tc) := [main_v17, main_c, main_v18, main_v19, main_c_3, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45, main_v46, main_v47, main_v48, main_v49, main_v50, main_v51, main_v52, main_cst_9, main_call0_cst, main_call0_v0, main_call0_v1, main_call0_v2, main_call0_v3, main_call0_v4, main_v53]

/-- Every operation of that line writes among them. -/
theorem hWLayer1 : (opsLayer1 : List (HloOp τ sig (Elt F))).Forall fun op => op.writes ⊆ ((wrLayer1).map (Proc.devRef (τ := τ) .tc)).toFinset := by
  simp only [opsLayer1, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through that stretch. -/
theorem keepLayer1 (W : Valuation τ sig (Elt F)) (r : Ref sig .tc) (hr : r ∉ wrLayer1) :
    after opsLayer1 W (no_index (Proc.devRef .tc r)) = W (Proc.devRef .tc r) :=
  after_of_writes_sub opsLayer1 W hWLayer1 hr

/-- The buffers written while computing the second graph-convolution layer. -/
def wrLayer2 : List (Ref sig .tc) := [main_v54, main_c_10, main_v55, main_v56, main_c_11, main_v57, main_v58, main_v59, main_v60, main_v61, main_c_12, main_v62, main_v63, main_c_13, main_v64, main_v65, main_v66, main_v67, main_v68, main_v69, main_c_14, main_v70, main_v71, main_c_15, main_v72, main_v73, main_v74, main_v75, main_v76, main_v77, main_v78, main_v79, main_cst_16, main_v80, main_v81, main_v82, main_v83, main_v84, main_v85, main_v86, main_v87, main_v88, main_v89, main_cst_17, main_call1_cst, main_call1_v0, main_call1_v1, main_call1_v2, main_call1_v3, main_call1_v4, main_v90]

/-- Every operation of that line writes among them. -/
theorem hWLayer2 : (opsLayer2 : List (HloOp τ sig (Elt F))).Forall fun op => op.writes ⊆ ((wrLayer2).map (Proc.devRef (τ := τ) .tc)).toFinset := by
  simp only [opsLayer2, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through that stretch. -/
theorem keepLayer2 (W : Valuation τ sig (Elt F)) (r : Ref sig .tc) (hr : r ∉ wrLayer2) :
    after opsLayer2 W (no_index (Proc.devRef .tc r)) = W (Proc.devRef .tc r) :=
  after_of_writes_sub opsLayer2 W hWLayer2 hr

/-- The buffers written while computing the per-graph mean. -/
def wrPool : List (Ref sig .tc) := [main_cst_18, main_v91, main_v92, main_v93, main_cst_19, main_v94, main_cst_20, main_v95, main_v96, main_v97, main_cst_21, main_v98, main_v99, main_v100, main_v101, main_v102]

/-- Every operation of that line writes among them. -/
theorem hWPool : (opsPool : List (HloOp τ sig (Elt F))).Forall fun op => op.writes ⊆ ((wrPool).map (Proc.devRef (τ := τ) .tc)).toFinset := by
  simp only [opsPool, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through that stretch. -/
theorem keepPool (W : Valuation τ sig (Elt F)) (r : Ref sig .tc) (hr : r ∉ wrPool) :
    after opsPool W (no_index (Proc.devRef .tc r)) = W (Proc.devRef .tc r) :=
  after_of_writes_sub opsPool W hWPool hr

/-- The buffers written while computing the head. -/
def wrHead : List (Ref sig .tc) := [main_v103, main_cst_22, main_v104, main_v105, main_v106, main_cst_23, main_v107, main_v108, main_v109, main_v110, main_v111, main_v112, main_v113, main_v114, main_cst_24, main_call2_cst, main_call2_v0, main_call2_v1, main_call2_v2, main_call2_v3, main_call2_v4, main_v115, main_v116, main_v117, main_v118, main_v119]

/-- Every operation of that line writes among them. -/
theorem hWHead : (opsHead : List (HloOp τ sig (Elt F))).Forall fun op => op.writes ⊆ ((wrHead).map (Proc.devRef (τ := τ) .tc)).toFinset := by
  simp only [opsHead, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through that stretch. -/
theorem keepHead (W : Valuation τ sig (Elt F)) (r : Ref sig .tc) (hr : r ∉ wrHead) :
    after opsHead W (no_index (Proc.devRef .tc r)) = W (Proc.devRef .tc r) :=
  after_of_writes_sub opsHead W hWHead hr

/-- The buffers written for the features times the layer's weights in the first graph-convolution layer. -/
def wrLayer1Proj : List (Ref sig .tc) := [main_v17]

/-- Every operation of that line writes among them. -/
theorem hWLayer1Proj : (opsLayer1Proj : List (HloOp τ sig (Elt F))).Forall fun op => op.writes ⊆ ((wrLayer1Proj).map (Proc.devRef (τ := τ) .tc)).toFinset := by
  simp only [opsLayer1Proj, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer1Proj (W : Valuation τ sig (Elt F)) (r : Ref sig .tc) (hr : r ∉ wrLayer1Proj) :
    after opsLayer1Proj W (no_index (Proc.devRef .tc r)) = W (Proc.devRef .tc r) :=
  after_of_writes_sub opsLayer1Proj W hWLayer1Proj hr

/-- The buffers written for the edge weights in the first graph-convolution layer. -/
def wrLayer1Coef : List (Ref sig .tc) := [main_c, main_v18, main_v19, main_c_3, main_v20, main_v21, main_v22, main_v23, main_v24, main_c_4, main_v25, main_v26, main_c_5, main_v27, main_v28, main_v29, main_v30, main_v31, main_v32]

/-- Every operation of that line writes among them. -/
theorem hWLayer1Coef : (opsLayer1Coef : List (HloOp τ sig (Elt F))).Forall fun op => op.writes ⊆ ((wrLayer1Coef).map (Proc.devRef (τ := τ) .tc)).toFinset := by
  simp only [opsLayer1Coef, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer1Coef (W : Valuation τ sig (Elt F)) (r : Ref sig .tc) (hr : r ∉ wrLayer1Coef) :
    after opsLayer1Coef W (no_index (Proc.devRef .tc r)) = W (Proc.devRef .tc r) :=
  after_of_writes_sub opsLayer1Coef W hWLayer1Coef hr

/-- The buffers written for the edge aggregation in the first graph-convolution layer. -/
def wrLayer1Agg : List (Ref sig .tc) := [main_c_6, main_v33, main_v34, main_c_7, main_v35, main_v36, main_v37, main_v38, main_v39, main_v40, main_v41, main_v42, main_cst_8, main_v43, main_v44, main_v45]

/-- Every operation of that line writes among them. -/
theorem hWLayer1Agg : (opsLayer1Agg : List (HloOp τ sig (Elt F))).Forall fun op => op.writes ⊆ ((wrLayer1Agg).map (Proc.devRef (τ := τ) .tc)).toFinset := by
  simp only [opsLayer1Agg, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer1Agg (W : Valuation τ sig (Elt F)) (r : Ref sig .tc) (hr : r ∉ wrLayer1Agg) :
    after opsLayer1Agg W (no_index (Proc.devRef .tc r)) = W (Proc.devRef .tc r) :=
  after_of_writes_sub opsLayer1Agg W hWLayer1Agg hr

/-- The buffers written for the self-loop term and the bias added in the first graph-convolution layer. -/
def wrLayer1Comb : List (Ref sig .tc) := [main_v46, main_v47, main_v48, main_v49, main_v50, main_v51, main_v52]

/-- Every operation of that line writes among them. -/
theorem hWLayer1Comb : (opsLayer1Comb : List (HloOp τ sig (Elt F))).Forall fun op => op.writes ⊆ ((wrLayer1Comb).map (Proc.devRef (τ := τ) .tc)).toFinset := by
  simp only [opsLayer1Comb, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer1Comb (W : Valuation τ sig (Elt F)) (r : Ref sig .tc) (hr : r ∉ wrLayer1Comb) :
    after opsLayer1Comb W (no_index (Proc.devRef .tc r)) = W (Proc.devRef .tc r) :=
  after_of_writes_sub opsLayer1Comb W hWLayer1Comb hr

/-- The buffers written for the leaky rectifier, its call spelt out in the first graph-convolution layer. -/
def wrLayer1Leaky : List (Ref sig .tc) := [main_cst_9, main_call0_cst, main_call0_v0, main_call0_v1, main_call0_v2, main_call0_v3, main_call0_v4, main_v53]

/-- Every operation of that line writes among them. -/
theorem hWLayer1Leaky : (opsLayer1Leaky : List (HloOp τ sig (Elt F))).Forall fun op => op.writes ⊆ ((wrLayer1Leaky).map (Proc.devRef (τ := τ) .tc)).toFinset := by
  simp only [opsLayer1Leaky, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer1Leaky (W : Valuation τ sig (Elt F)) (r : Ref sig .tc) (hr : r ∉ wrLayer1Leaky) :
    after opsLayer1Leaky W (no_index (Proc.devRef .tc r)) = W (Proc.devRef .tc r) :=
  after_of_writes_sub opsLayer1Leaky W hWLayer1Leaky hr

/-- The buffers written for the features times the layer's weights in the second graph-convolution layer. -/
def wrLayer2Proj : List (Ref sig .tc) := [main_v54]

/-- Every operation of that line writes among them. -/
theorem hWLayer2Proj : (opsLayer2Proj : List (HloOp τ sig (Elt F))).Forall fun op => op.writes ⊆ ((wrLayer2Proj).map (Proc.devRef (τ := τ) .tc)).toFinset := by
  simp only [opsLayer2Proj, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer2Proj (W : Valuation τ sig (Elt F)) (r : Ref sig .tc) (hr : r ∉ wrLayer2Proj) :
    after opsLayer2Proj W (no_index (Proc.devRef .tc r)) = W (Proc.devRef .tc r) :=
  after_of_writes_sub opsLayer2Proj W hWLayer2Proj hr

/-- The buffers written for the edge weights in the second graph-convolution layer. -/
def wrLayer2Coef : List (Ref sig .tc) := [main_c_10, main_v55, main_v56, main_c_11, main_v57, main_v58, main_v59, main_v60, main_v61, main_c_12, main_v62, main_v63, main_c_13, main_v64, main_v65, main_v66, main_v67, main_v68, main_v69]

/-- Every operation of that line writes among them. -/
theorem hWLayer2Coef : (opsLayer2Coef : List (HloOp τ sig (Elt F))).Forall fun op => op.writes ⊆ ((wrLayer2Coef).map (Proc.devRef (τ := τ) .tc)).toFinset := by
  simp only [opsLayer2Coef, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer2Coef (W : Valuation τ sig (Elt F)) (r : Ref sig .tc) (hr : r ∉ wrLayer2Coef) :
    after opsLayer2Coef W (no_index (Proc.devRef .tc r)) = W (Proc.devRef .tc r) :=
  after_of_writes_sub opsLayer2Coef W hWLayer2Coef hr

/-- The buffers written for the edge aggregation in the second graph-convolution layer. -/
def wrLayer2Agg : List (Ref sig .tc) := [main_c_14, main_v70, main_v71, main_c_15, main_v72, main_v73, main_v74, main_v75, main_v76, main_v77, main_v78, main_v79, main_cst_16, main_v80, main_v81, main_v82]

/-- Every operation of that line writes among them. -/
theorem hWLayer2Agg : (opsLayer2Agg : List (HloOp τ sig (Elt F))).Forall fun op => op.writes ⊆ ((wrLayer2Agg).map (Proc.devRef (τ := τ) .tc)).toFinset := by
  simp only [opsLayer2Agg, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer2Agg (W : Valuation τ sig (Elt F)) (r : Ref sig .tc) (hr : r ∉ wrLayer2Agg) :
    after opsLayer2Agg W (no_index (Proc.devRef .tc r)) = W (Proc.devRef .tc r) :=
  after_of_writes_sub opsLayer2Agg W hWLayer2Agg hr

/-- The buffers written for the self-loop term and the bias added in the second graph-convolution layer. -/
def wrLayer2Comb : List (Ref sig .tc) := [main_v83, main_v84, main_v85, main_v86, main_v87, main_v88, main_v89]

/-- Every operation of that line writes among them. -/
theorem hWLayer2Comb : (opsLayer2Comb : List (HloOp τ sig (Elt F))).Forall fun op => op.writes ⊆ ((wrLayer2Comb).map (Proc.devRef (τ := τ) .tc)).toFinset := by
  simp only [opsLayer2Comb, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer2Comb (W : Valuation τ sig (Elt F)) (r : Ref sig .tc) (hr : r ∉ wrLayer2Comb) :
    after opsLayer2Comb W (no_index (Proc.devRef .tc r)) = W (Proc.devRef .tc r) :=
  after_of_writes_sub opsLayer2Comb W hWLayer2Comb hr

/-- The buffers written for the leaky rectifier, its call spelt out in the second graph-convolution layer. -/
def wrLayer2Leaky : List (Ref sig .tc) := [main_cst_17, main_call1_cst, main_call1_v0, main_call1_v1, main_call1_v2, main_call1_v3, main_call1_v4, main_v90]

/-- Every operation of that line writes among them. -/
theorem hWLayer2Leaky : (opsLayer2Leaky : List (HloOp τ sig (Elt F))).Forall fun op => op.writes ⊆ ((wrLayer2Leaky).map (Proc.devRef (τ := τ) .tc)).toFinset := by
  simp only [opsLayer2Leaky, List.Forall, TRef.nullary, TRef.unary, TRef.binary, TRef.ternary, nullary_writes, unary_writes, binary_writes, ternary_writes,
    reshape_writes, Finset.singleton_subset_iff, List.mem_toFinset, List.mem_map]
  repeat' apply And.intro
  all_goals exact ⟨_, by decide, rfl⟩

/-- A buffer not among them keeps its contents through those operations. -/
theorem keepLayer2Leaky (W : Valuation τ sig (Elt F)) (r : Ref sig .tc) (hr : r ∉ wrLayer2Leaky) :
    after opsLayer2Leaky W (no_index (Proc.devRef .tc r)) = W (Proc.devRef .tc r) :=
  after_of_writes_sub opsLayer2Leaky W hWLayer2Leaky hr

/-- An argument's buffer is written by no operation of the line. -/
theorem arg0_eq (V : Valuation τ sig (Elt F)) :
    after ops V (main_arg0 : DevRef τ sig) = V (main_arg0 : DevRef τ sig) := by
  rw [ops_split]
  simp (disch := decide) only [after_append, keepHead, keepPool, keepLayer2, keepLayer1, keepDense, keepPrelude]

theorem arg1_eq (V : Valuation τ sig (Elt F)) :
    after ops V (main_arg1 : DevRef τ sig) = V (main_arg1 : DevRef τ sig) := by
  rw [ops_split]
  simp (disch := decide) only [after_append, keepHead, keepPool, keepLayer2, keepLayer1, keepDense, keepPrelude]

theorem arg2_eq (V : Valuation τ sig (Elt F)) :
    after ops V (main_arg2 : DevRef τ sig) = V (main_arg2 : DevRef τ sig) := by
  rw [ops_split]
  simp (disch := decide) only [after_append, keepHead, keepPool, keepLayer2, keepLayer1, keepDense, keepPrelude]

theorem arg3_eq (V : Valuation τ sig (Elt F)) :
    after ops V (main_arg3 : DevRef τ sig) = V (main_arg3 : DevRef τ sig) := by
  rw [ops_split]
  simp (disch := decide) only [after_append, keepHead, keepPool, keepLayer2, keepLayer1, keepDense, keepPrelude]

theorem arg4_eq (V : Valuation τ sig (Elt F)) :
    after ops V (main_arg4 : DevRef τ sig) = V (main_arg4 : DevRef τ sig) := by
  rw [ops_split]
  simp (disch := decide) only [after_append, keepHead, keepPool, keepLayer2, keepLayer1, keepDense, keepPrelude]

theorem arg5_eq (V : Valuation τ sig (Elt F)) :
    after ops V (main_arg5 : DevRef τ sig) = V (main_arg5 : DevRef τ sig) := by
  rw [ops_split]
  simp (disch := decide) only [after_append, keepHead, keepPool, keepLayer2, keepLayer1, keepDense, keepPrelude]

theorem arg6_eq (V : Valuation τ sig (Elt F)) :
    after ops V (main_arg6 : DevRef τ sig) = V (main_arg6 : DevRef τ sig) := by
  rw [ops_split]
  simp (disch := decide) only [after_append, keepHead, keepPool, keepLayer2, keepLayer1, keepDense, keepPrelude]

theorem arg7_eq (V : Valuation τ sig (Elt F)) :
    after ops V (main_arg7 : DevRef τ sig) = V (main_arg7 : DevRef τ sig) := by
  rw [ops_split]
  simp (disch := decide) only [after_append, keepHead, keepPool, keepLayer2, keepLayer1, keepDense, keepPrelude]

theorem arg8_eq (V : Valuation τ sig (Elt F)) :
    after ops V (main_arg8 : DevRef τ sig) = V (main_arg8 : DevRef τ sig) := by
  rw [ops_split]
  simp (disch := decide) only [after_append, keepHead, keepPool, keepLayer2, keepLayer1, keepDense, keepPrelude]

theorem arg9_eq (V : Valuation τ sig (Elt F)) :
    after ops V (main_arg9 : DevRef τ sig) = V (main_arg9 : DevRef τ sig) := by
  rw [ops_split]
  simp (disch := decide) only [after_append, keepHead, keepPool, keepLayer2, keepLayer1, keepDense, keepPrelude]

theorem arg10_eq (V : Valuation τ sig (Elt F)) :
    after ops V (main_arg10 : DevRef τ sig) = V (main_arg10 : DevRef τ sig) := by
  rw [ops_split]
  simp (disch := decide) only [after_append, keepHead, keepPool, keepLayer2, keepLayer1, keepDense, keepPrelude]

theorem arg11_eq (V : Valuation τ sig (Elt F)) :
    after ops V (main_arg11 : DevRef τ sig) = V (main_arg11 : DevRef τ sig) := by
  rw [ops_split]
  simp (disch := decide) only [after_append, keepHead, keepPool, keepLayer2, keepLayer1, keepDense, keepPrelude]

theorem arg12_eq (V : Valuation τ sig (Elt F)) :
    after ops V (main_arg12 : DevRef τ sig) = V (main_arg12 : DevRef τ sig) := by
  rw [ops_split]
  simp (disch := decide) only [after_append, keepHead, keepPool, keepLayer2, keepLayer1, keepDense, keepPrelude]

/-! What each stretch computes, from ANY contents it starts at: the fold's results read one operation at a time (each at its
    own result buffer its function's value, elsewhere what was there), the gathers and the accumulating scatters kept
    folded; what is left is the stage of the network, by unfolding. -/

section Reads

attribute [local irreducible] Host.gather Host.scatterAdd

-- a reading rewrites one result per operation and buffer read after it: more steps than the default budget
set_option maxHeartbeats 1000000

/-- The source node numbers. -/
theorem prelude_v1 (W : Valuation τ sig (Elt Ideal)) :
    after (opsPrelude (F := Ideal)) W (Proc.devRef .tc main_v1)
      = Cert.Gnn.srcOf (W (Proc.devRef .tc main_arg1)) := by
  after_results_simp
  rfl

/-- The target node numbers. -/
theorem prelude_v3 (W : Valuation τ sig (Elt Ideal)) :
    after (opsPrelude (F := Ideal)) W (Proc.devRef .tc main_v3)
      = Cert.Gnn.dstOf (W (Proc.devRef .tc main_arg1)) := by
  after_results_simp
  rfl

/-- The degrees to the power -1/2. -/
theorem prelude_v10 (W : Valuation τ sig (Elt Ideal)) :
    after (opsPrelude (F := Ideal)) W (Proc.devRef .tc main_v10)
      = Cert.Gnn.invSqrtOf (Cert.Gnn.degOf (Cert.Gnn.dstOf (W (Proc.devRef .tc main_arg1)))) := by
  after_results_simp
  rfl

/-- One over the degrees. -/
theorem prelude_v12 (W : Valuation τ sig (Elt Ideal)) :
    after (opsPrelude (F := Ideal)) W (Proc.devRef .tc main_v12)
      = Cert.Gnn.invDegOf (Cert.Gnn.degOf (Cert.Gnn.dstOf (W (Proc.devRef .tc main_arg1)))) := by
  after_results_simp
  rfl

/-- The first dense layer of the node features. -/
theorem dense_v16 (W : Valuation τ sig (Elt Ideal)) :
    after (opsDense (F := Ideal)) W (Proc.devRef .tc main_v16)
      = Cert.Gnn.linear (W (Proc.devRef .tc main_arg0)) (W (Proc.devRef .tc main_arg3)) (W (Proc.devRef .tc main_arg4)) := by
  after_results_simp
  rfl

/-- The first layer's projected features. -/
theorem layer1_proj (W : Valuation τ sig (Elt Ideal)) :
    after (opsLayer1Proj (F := Ideal)) W (Proc.devRef .tc main_v17)
      = Cert.Gnn.project (W (Proc.devRef .tc main_v16)) (W (Proc.devRef .tc main_arg5)) := by
  after_results_simp
  rfl

/-- The edge weights, as the first layer computes them. -/
theorem layer1_coef (W : Valuation τ sig (Elt Ideal)) :
    after (opsLayer1Coef (F := Ideal)) W (Proc.devRef .tc main_v32)
      = Cert.Gnn.coefOf (W (Proc.devRef .tc main_v10)) (W (Proc.devRef .tc main_v1)) (W (Proc.devRef .tc main_v3)) := by
  after_results_simp
  rfl

/-- The first layer's edge aggregation. -/
theorem layer1_agg (W : Valuation τ sig (Elt Ideal)) :
    after (opsLayer1Agg (F := Ideal)) W (Proc.devRef .tc main_v45)
      = Cert.Gnn.aggregate (W (Proc.devRef .tc main_v17)) (W (Proc.devRef .tc main_v32)) (W (Proc.devRef .tc main_v1)) (W (Proc.devRef .tc main_v3)) := by
  after_results_simp
  rfl

/-- The first layer's sum before the rectifier. -/
theorem layer1_comb (W : Valuation τ sig (Elt Ideal)) :
    after (opsLayer1Comb (F := Ideal)) W (Proc.devRef .tc main_v52)
      = Cert.Gnn.combine (W (Proc.devRef .tc main_v45)) (W (Proc.devRef .tc main_v17)) (W (Proc.devRef .tc main_v12)) (W (Proc.devRef .tc main_arg6)) := by
  after_results_simp
  rfl

/-- The first layer's rectifier. -/
theorem layer1_leaky (W : Valuation τ sig (Elt Ideal)) :
    after (opsLayer1Leaky (F := Ideal)) W (Proc.devRef .tc main_v53)
      = Cert.Gnn.leakyNodes (W (Proc.devRef .tc main_v52)) := by
  after_results_simp
  rfl

/-- The first graph-convolution layer, from the dense layer's result, the edge list's rows and the degrees' powers (the edge weights are computed within the layer): its five stretches read one after the other. -/
theorem layer1_v53 (W : Valuation τ sig (Elt Ideal)) :
    after (opsLayer1 (F := Ideal)) W (Proc.devRef .tc main_v53)
      = Cert.Gnn.layer (W (Proc.devRef .tc main_v16)) (W (Proc.devRef .tc main_arg5)) (W (Proc.devRef .tc main_arg6))
          (Cert.Gnn.coefOf (W (Proc.devRef .tc main_v10)) (W (Proc.devRef .tc main_v1)) (W (Proc.devRef .tc main_v3)))
          (W (Proc.devRef .tc main_v1)) (W (Proc.devRef .tc main_v3)) (W (Proc.devRef .tc main_v12)) := by
  rw [opsLayer1_split]
  simp only [after_append]
  rw [layer1_leaky, layer1_comb, layer1_agg]
  simp (disch := decide) only [keepLayer1Leaky, keepLayer1Comb, keepLayer1Agg, keepLayer1Coef, keepLayer1Proj]
  rw [layer1_coef, layer1_proj]
  simp (disch := decide) only [keepLayer1Leaky, keepLayer1Comb, keepLayer1Agg, keepLayer1Coef, keepLayer1Proj]
  rfl

/-- The second layer's projected features. -/
theorem layer2_proj (W : Valuation τ sig (Elt Ideal)) :
    after (opsLayer2Proj (F := Ideal)) W (Proc.devRef .tc main_v54)
      = Cert.Gnn.project (W (Proc.devRef .tc main_v53)) (W (Proc.devRef .tc main_arg7)) := by
  after_results_simp
  rfl

/-- The edge weights, as the second layer computes them. -/
theorem layer2_coef (W : Valuation τ sig (Elt Ideal)) :
    after (opsLayer2Coef (F := Ideal)) W (Proc.devRef .tc main_v69)
      = Cert.Gnn.coefOf (W (Proc.devRef .tc main_v10)) (W (Proc.devRef .tc main_v1)) (W (Proc.devRef .tc main_v3)) := by
  after_results_simp
  rfl

/-- The second layer's edge aggregation. -/
theorem layer2_agg (W : Valuation τ sig (Elt Ideal)) :
    after (opsLayer2Agg (F := Ideal)) W (Proc.devRef .tc main_v82)
      = Cert.Gnn.aggregate (W (Proc.devRef .tc main_v54)) (W (Proc.devRef .tc main_v69)) (W (Proc.devRef .tc main_v1)) (W (Proc.devRef .tc main_v3)) := by
  after_results_simp
  rfl

/-- The second layer's sum before the rectifier. -/
theorem layer2_comb (W : Valuation τ sig (Elt Ideal)) :
    after (opsLayer2Comb (F := Ideal)) W (Proc.devRef .tc main_v89)
      = Cert.Gnn.combine (W (Proc.devRef .tc main_v82)) (W (Proc.devRef .tc main_v54)) (W (Proc.devRef .tc main_v12)) (W (Proc.devRef .tc main_arg8)) := by
  after_results_simp
  rfl

/-- The second layer's rectifier. -/
theorem layer2_leaky (W : Valuation τ sig (Elt Ideal)) :
    after (opsLayer2Leaky (F := Ideal)) W (Proc.devRef .tc main_v90)
      = Cert.Gnn.leakyNodes (W (Proc.devRef .tc main_v89)) := by
  after_results_simp
  rfl

/-- The second graph-convolution layer, from the first layer's result, the edge list's rows and the degrees' powers (the edge weights are computed within the layer): its five stretches read one after the other. -/
theorem layer2_v90 (W : Valuation τ sig (Elt Ideal)) :
    after (opsLayer2 (F := Ideal)) W (Proc.devRef .tc main_v90)
      = Cert.Gnn.layer (W (Proc.devRef .tc main_v53)) (W (Proc.devRef .tc main_arg7)) (W (Proc.devRef .tc main_arg8))
          (Cert.Gnn.coefOf (W (Proc.devRef .tc main_v10)) (W (Proc.devRef .tc main_v1)) (W (Proc.devRef .tc main_v3)))
          (W (Proc.devRef .tc main_v1)) (W (Proc.devRef .tc main_v3)) (W (Proc.devRef .tc main_v12)) := by
  rw [opsLayer2_split]
  simp only [after_append]
  rw [layer2_leaky, layer2_comb, layer2_agg]
  simp (disch := decide) only [keepLayer2Leaky, keepLayer2Comb, keepLayer2Agg, keepLayer2Coef, keepLayer2Proj]
  rw [layer2_coef, layer2_proj]
  simp (disch := decide) only [keepLayer2Leaky, keepLayer2Comb, keepLayer2Agg, keepLayer2Coef, keepLayer2Proj]
  rfl

/-- The per-graph mean of the node features. -/
theorem pool_v102 (W : Valuation τ sig (Elt Ideal)) :
    after (opsPool (F := Ideal)) W (Proc.devRef .tc main_v102)
      = Cert.Gnn.pooled (W (Proc.devRef .tc main_v90)) (W (Proc.devRef .tc main_arg2)) := by
  after_results_simp
  rfl

/-- The head on the per-graph means. -/
theorem head_v119 (W : Valuation τ sig (Elt Ideal)) :
    after (opsHead (F := Ideal)) W (Proc.devRef .tc main_v119)
      = Cert.Gnn.head (W (Proc.devRef .tc main_v102)) (W (Proc.devRef .tc main_arg9)) (W (Proc.devRef .tc main_arg10)) (W (Proc.devRef .tc main_arg11)) (W (Proc.devRef .tc main_arg12)) := by
  after_results_simp
  rfl

end Reads

set_option maxHeartbeats 1000000 in
/-- The fold at the result buffer is the network of the argument arrays: the line cut into its six stretches, each read
    by its lemma from what the one before leaves, the buffers a stretch does not write carried through it. -/
theorem out_eq (V : Valuation τ sig (Elt Ideal)) :
    after (ops (F := Ideal)) V (main_v119 : DevRef τ sig)
      = Cert.Gnn.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) := by
  rw [ops_split]
  simp only [after_append]
  rw [head_v119]
  simp (disch := decide) only [keepPool, keepLayer2, keepLayer1, keepDense, keepPrelude]
  rw [pool_v102]
  simp (disch := decide) only [keepPool, keepLayer2, keepLayer1, keepDense, keepPrelude]
  rw [layer2_v90]
  simp (disch := decide) only [keepPool, keepLayer2, keepLayer1, keepDense, keepPrelude]
  rw [layer1_v53]
  simp (disch := decide) only [keepPool, keepLayer2, keepLayer1, keepDense, keepPrelude]
  rw [dense_v16]
  simp (disch := decide) only [keepPool, keepLayer2, keepLayer1, keepDense, keepPrelude]
  rw [prelude_v1, prelude_v3, prelude_v10, prelude_v12]
  rfl

/-- The run, read: the result at the network of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v119) = Cert.Gnn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun r h c => ⟨(h c main_v119).trans (out_eq _), (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _), (h c main_arg9).trans (arg9_eq _), (h c main_arg10).trans (arg10_eq _), (h c main_arg11).trans (arg11_eq _), (h c main_arg12).trans (arg12_eq _)⟩)
    (run_main m ρ)

end Cert.ReferenceIdeal.HandRun

end
-- ==== Proof.lean ====
/-
  The kernel computes the reference's network, over the extended reals.

  Both programs compute a two-layer graph convolution network on 50000 nodes with 600000 edges: a dense layer, two
  graph layers `leaky (A + ht · (1/deg) + b)` (`ht = h · W`, `A` the edge aggregation of `ht` with the weights
  `deg^(-1/2)[src] · deg^(-1/2)[dst]`), the per-graph mean, each graph's row scaled to unit length, and two dense
  layers. The kernel runs the dense layers, the rectified combinations and the head as six regions on blocks of rows,
  with the edge arithmetic (gathers and accumulating scatters) as host operations between them; the reference is host
  operations throughout. At the ideal instance a change of float format is the identity and a matrix product is the
  plain sum of products on the device and on the host alike, so each region's blocks are the restrictions of the
  reference's whole-array stage (Tiles0 … Tiles5, Bridge), the host operations between the regions are the reference's
  own (HostReads), and the result buffer ends at ONE function of the argument arrays in both programs
  (Network.lean's `Cert.Gnn.out`: KernelValue for the kernel, ReferenceRun for the reference). Where the two differ —
  a bias-free product written as a dense layer with a zero bias row; a row divided by its floored length written as a
  product with the reciprocal — the extended reals agree without any finiteness assumption: `x + 0 = x`, and
  `x · (1 / m) = x / m` for the never-zero `m ≥ floor > 0`. The three frames: the generated ones for the two kernel
  programs, the reference's run with its result dropped. The ideal pass rewrote nothing, so `preserves` is trivial.
-/
import proofs.«163835_j58025008168970_1_alg».proof.Defs
import proofs.«163835_j58025008168970_1_alg».proof.Proof.Gen.Kernel
import proofs.«163835_j58025008168970_1_alg».proof.Proof.Gen.Kernel.Skeleton
import proofs.«163835_j58025008168970_1_alg».proof.Proof.Gen.Kernel.Launch
import proofs.«163835_j58025008168970_1_alg».proof.Proof.Gen.Kernel.Points
import proofs.«163835_j58025008168970_1_alg».proof.Proof.Gen.Kernel.Frame
import proofs.«163835_j58025008168970_1_alg».proof.Proof.Gen.KernelIdeal
import proofs.«163835_j58025008168970_1_alg».proof.Proof.Gen.KernelIdeal.Skeleton
import proofs.«163835_j58025008168970_1_alg».proof.Proof.Gen.KernelIdeal.Launch
import proofs.«163835_j58025008168970_1_alg».proof.Proof.Gen.KernelIdeal.Points
import proofs.«163835_j58025008168970_1_alg».proof.Proof.Gen.KernelIdeal.Frame
import proofs.«163835_j58025008168970_1_alg».proof.Proof.Gen.ReferenceIdeal
import proofs.«163835_j58025008168970_1_alg».proof.Proof.Gen.Pre_finite_inputs
import proofs.«163835_j58025008168970_1_alg».proof.Proof.KernelValue
import proofs.«163835_j58025008168970_1_alg».proof.Proof.ReferenceRun
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.HandRun.run m ρ)

/-- The ideal pass rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.Gnn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.Value.run m ρ, ?_⟩
  refine (θ_run Cert.ReferenceIdeal.defs _ _).mono (fun _ h c => ⟨(h c).1.trans ?_, (h c).2⟩)
    (Cert.ReferenceIdeal.HandRun.run m' ρ')
  obtain ⟨e0, e1, e2, e3, e4, e5, e6, e7, e8, e9, e10, e11, e12⟩ := hagree c
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
